-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S802816x30 : Shape := ⟨2, ![802816, 30]⟩
abbrev S2x1x1 : Shape := ⟨3, ![2, 1, 1]⟩
abbrev S8192x30 : Shape := ⟨2, ![8192, 30]⟩
abbrev S1x1x1 : Shape := ⟨3, ![1, 1, 1]⟩
abbrev S1x1 : Shape := ⟨2, ![1, 1]⟩
abbrev S30x8192 : Shape := ⟨2, ![30, 8192]⟩
abbrev S1x8192 : Shape := ⟨2, ![1, 8192]⟩
abbrev S4x8192 : Shape := ⟨2, ![4, 8192]⟩
abbrev S2x8192 : Shape := ⟨2, ![2, 8192]⟩
abbrev S8192 : Shape := ⟨1, ![8192]⟩
abbrev S20x8192 : Shape := ⟨2, ![20, 8192]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S802816x30, .f32⟩
  | .hbm, ⟨3, _⟩ => ⟨S802816x30, .f32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S8192x30, .f32⟩
  | .local _ .vmem, ⟨1, _⟩ => ⟨S8192x30, .f32⟩
  | .local _ .vmem, ⟨2, _⟩ => ⟨S8192x30, .f32⟩
  | .local _ .vmem, ⟨3, _⟩ => ⟨S8192x30, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v235 : BitVec 1 := Scalar.cmpi .eq arg1 c48_i32
  let v236 : BitVec 32 := Scalar.extui v235
  let c0_i32_41 : BitVec 32 := 0#32
  let v237 : BitVec 1 := Scalar.cmpi .ne v236 c0_i32_41
  v237

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x7x7x30_S802816x30 : S16384x7x7x30.ShapeCasts S802816x30
  inb_S8192x30_S8192x30_0_0 : ∀ a, (![0, 0] : Fin 2 → Nat) a + S8192x30.size a ≤ S8192x30.size a
  h_S8192x30 : 0 < S8192x30.numel
  shapeCasts_S8192x30_S8192x30 : S8192x30.ShapeCasts S8192x30
  transposes_S8192x30_p1_0_S30x8192 : S8192x30.Transposes [1, 0] S30x8192
  slices_S30x8192_o4_0_S1x8192 : S30x8192.Slices ![4, 0] S1x8192
  natLt_1_32 : 1 < 32
  slices_S30x8192_o0_0_S4x8192 : S30x8192.Slices ![0, 0] S4x8192
  slices_S4x8192_o2_0_S1x8192 : S4x8192.Slices ![2, 0] S1x8192
  slices_S4x8192_o3_0_S1x8192 : S4x8192.Slices ![3, 0] S1x8192
  slices_S4x8192_o0_0_S1x8192 : S4x8192.Slices ![0, 0] S1x8192
  slices_S4x8192_o1_0_S1x8192 : S4x8192.Slices ![1, 0] S1x8192
  slices_S30x8192_o5_0_S4x8192 : S30x8192.Slices ![5, 0] S4x8192
  slices_S30x8192_o0_0_S2x8192 : S30x8192.Slices ![0, 0] S2x8192
  reduces_S2x8192_S8192 : S2x8192.Reduces [0] S8192
  shapeCasts_S8192_S1x8192 : S8192.ShapeCasts S1x8192
  slices_S30x8192_o5_0_S2x8192 : S30x8192.Slices ![5, 0] S2x8192
  slices_S30x8192_o2_0_S2x8192 : S30x8192.Slices ![2, 0] S2x8192
  slices_S30x8192_o7_0_S2x8192 : S30x8192.Slices ![7, 0] S2x8192
  slices_S30x8192_o9_0_S1x8192 : S30x8192.Slices ![9, 0] S1x8192
  slices_S30x8192_o10_0_S20x8192 : S30x8192.Slices ![10, 0] S20x8192
  reduces_S20x8192_S8192 : S20x8192.Reduces [0] S8192
  reduces_S1x8192_S1 : S1x8192.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x30.size a ≤ S802816x30.size a
  hwx0_0 : ∀ i : grid0.Coords, EltTy.bits .f32 = 32 ∨ (Rect.block (s := S802816x30) S8192x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x30.size a ≤ S802816x30.size a
  hwx0_1 : ∀ i : grid0.Coords, EltTy.bits .f32 = 32 ∨ (Rect.block (s := S802816x30) S8192x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 306
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7, .i1⟩
  | 8 => ⟨S16384x7x7x4, .f32⟩
  | 9 => ⟨S16384x7x7x4, .f32⟩
  | 10 => ⟨S16384x7x7x1, .f32⟩
  | 11 => ⟨S16384x7x7, .f32⟩
  | 12 => ⟨S16384x7x7x1, .f32⟩
  | 13 => ⟨S16384x7x7, .f32⟩
  | 14 => ⟨S16384x7x7, .f32⟩
  | 15 => ⟨S16384x7x7x1, .f32⟩
  | 16 => ⟨S16384x7x7, .f32⟩
  | 17 => ⟨S16384x7x7x1, .f32⟩
  | 18 => ⟨S16384x7x7, .f32⟩
  | 19 => ⟨S16384x7x7, .f32⟩
  | 20 => ⟨S16384x7x7x1, .f32⟩
  | 21 => ⟨S16384x7x7, .f32⟩
  | 22 => ⟨S16384x7x7x1, .f32⟩
  | 23 => ⟨S16384x7x7, .f32⟩
  | 24 => ⟨S_, .f32⟩
  | 25 => ⟨S16384x7x7, .f32⟩
  | 26 => ⟨S16384x7x7, .f32⟩
  | 27 => ⟨S16384x7x7, .f32⟩
  | 28 => ⟨S16384x7x7x1, .f32⟩
  | 29 => ⟨S16384x7x7, .f32⟩
  | 30 => ⟨S16384x7x7x1, .f32⟩
  | 31 => ⟨S16384x7x7, .f32⟩
  | 32 => ⟨S_, .f32⟩
  | 33 => ⟨S16384x7x7, .f32⟩
  | 34 => ⟨S16384x7x7, .f32⟩
  | 35 => ⟨S16384x7x7, .f32⟩
  | 36 => ⟨S16384x7x7, .f32⟩
  | 37 => ⟨S16384x7x7x1, .f32⟩
  | 38 => ⟨S16384x7x7, .f32⟩
  | 39 => ⟨S16384x7x7x1, .f32⟩
  | 40 => ⟨S16384x7x7, .f32⟩
  | 41 => ⟨S_, .f32⟩
  | 42 => ⟨S16384x7x7, .f32⟩
  | 43 => ⟨S16384x7x7, .f32⟩
  | 44 => ⟨S16384x7x7, .f32⟩
  | 45 => ⟨S16384x7x7x1, .f32⟩
  | 46 => ⟨S16384x7x7, .f32⟩
  | 47 => ⟨S16384x7x7x1, .f32⟩
  | 48 => ⟨S16384x7x7, .f32⟩
  | 49 => ⟨S_, .f32⟩
  | 50 => ⟨S16384x7x7, .f32⟩
  | 51 => ⟨S16384x7x7, .f32⟩
  | 52 => ⟨S16384x7x7, .f32⟩
  | 53 => ⟨S16384x7x7, .f32⟩
  | 54 => ⟨S16384x7x7x1, .f32⟩
  | 55 => ⟨S16384x7x7, .f32⟩
  | 56 => ⟨S16384x7x7x1, .f32⟩
  | 57 => ⟨S16384x7x7, .f32⟩
  | 58 => ⟨S_, .f32⟩
  | 59 => ⟨S16384x7x7, .f32⟩
  | 60 => ⟨S16384x7x7, .f32⟩
  | 61 => ⟨S16384x7x7, .f32⟩
  | 62 => ⟨S16384x7x7x1, .f32⟩
  | 63 => ⟨S16384x7x7, .f32⟩
  | 64 => ⟨S16384x7x7x1, .f32⟩
  | 65 => ⟨S16384x7x7, .f32⟩
  | 66 => ⟨S_, .f32⟩
  | 67 => ⟨S16384x7x7, .f32⟩
  | 68 => ⟨S16384x7x7, .f32⟩
  | 69 => ⟨S16384x7x7, .f32⟩
  | 70 => ⟨S16384x7x7, .f32⟩
  | 71 => ⟨S16384x7x7x1, .f32⟩
  | 72 => ⟨S16384x7x7, .f32⟩
  | 73 => ⟨S16384x7x7x1, .f32⟩
  | 74 => ⟨S16384x7x7, .f32⟩
  | 75 => ⟨S_, .f32⟩
  | 76 => ⟨S16384x7x7, .f32⟩
  | 77 => ⟨S16384x7x7, .f32⟩
  | 78 => ⟨S16384x7x7, .f32⟩
  | 79 => ⟨S16384x7x7x1, .f32⟩
  | 80 => ⟨S16384x7x7, .f32⟩
  | 81 => ⟨S16384x7x7x1, .f32⟩
  | 82 => ⟨S16384x7x7, .f32⟩
  | 83 => ⟨S_, .f32⟩
  | 84 => ⟨S16384x7x7, .f32⟩
  | 85 => ⟨S16384x7x7, .f32⟩
  | 86 => ⟨S16384x7x7, .f32⟩
  | 87 => ⟨S16384x7x7, .f32⟩
  | 88 => ⟨S16384x7x7, .f32⟩
  | 89 => ⟨S16384x7x7, .f32⟩
  | 90 => ⟨S16384x7x7, .f32⟩
  | 91 => ⟨S16384x7x7, .f32⟩
  | 92 => ⟨S16384x7x7, .f32⟩
  | 93 => ⟨S16384x7x7, .f32⟩
  | 94 => ⟨S_, .f32⟩
  | 95 => ⟨S16384x7x7, .f32⟩
  | 96 => ⟨S16384x7x7, .i1⟩
  | 97 => ⟨S_, .f32⟩
  | 98 => ⟨S16384x7x7, .f32⟩
  | 99 => ⟨S16384x7x7, .i1⟩
  | 100 => ⟨S16384x7x7, .i1⟩
  | 101 => ⟨S_, .f32⟩
  | 102 => ⟨S_, .f32⟩
  | 103 => ⟨S16384x7x7, .f32⟩
  | 104 => ⟨S16384x7x7, .f32⟩
  | 105 => ⟨S16384x7x7x4, .f32⟩
  | 106 => ⟨S16384x7x7x1, .f32⟩
  | 107 => ⟨S16384x7x7, .f32⟩
  | 108 => ⟨S16384x7x7x1, .f32⟩
  | 109 => ⟨S16384x7x7, .f32⟩
  | 110 => ⟨S16384x7x7, .f32⟩
  | 111 => ⟨S16384x7x7x1, .f32⟩
  | 112 => ⟨S16384x7x7, .f32⟩
  | 113 => ⟨S16384x7x7x1, .f32⟩
  | 114 => ⟨S16384x7x7, .f32⟩
  | 115 => ⟨S16384x7x7, .f32⟩
  | 116 => ⟨S16384x7x7x1, .f32⟩
  | 117 => ⟨S16384x7x7, .f32⟩
  | 118 => ⟨S16384x7x7x1, .f32⟩
  | 119 => ⟨S16384x7x7, .f32⟩
  | 120 => ⟨S_, .f32⟩
  | 121 => ⟨S16384x7x7, .f32⟩
  | 122 => ⟨S16384x7x7, .f32⟩
  | 123 => ⟨S16384x7x7, .f32⟩
  | 124 => ⟨S16384x7x7x1, .f32⟩
  | 125 => ⟨S16384x7x7, .f32⟩
  | 126 => ⟨S16384x7x7x1, .f32⟩
  | 127 => ⟨S16384x7x7, .f32⟩
  | _ => ⟨S16384x7x7x30, .f32⟩

abbrev hbmTy0_1 (i : Nat) : BufTy := match i % 128 with
  | 0 => ⟨S_, .f32⟩
  | 1 => ⟨S16384x7x7, .f32⟩
  | 2 => ⟨S16384x7x7, .f32⟩
  | 3 => ⟨S16384x7x7, .f32⟩
  | 4 => ⟨S16384x7x7, .f32⟩
  | 5 => ⟨S16384x7x7x1, .f32⟩
  | 6 => ⟨S16384x7x7, .f32⟩
  | 7 => ⟨S16384x7x7x1, .f32⟩
  | 8 => ⟨S16384x7x7, .f32⟩
  | 9 => ⟨S_, .f32⟩
  | 10 => ⟨S16384x7x7, .f32⟩
  | 11 => ⟨S16384x7x7, .f32⟩
  | 12 => ⟨S16384x7x7, .f32⟩
  | 13 => ⟨S16384x7x7x1, .f32⟩
  | 14 => ⟨S16384x7x7, .f32⟩
  | 15 => ⟨S16384x7x7x1, .f32⟩
  | 16 => ⟨S16384x7x7, .f32⟩
  | 17 => ⟨S_, .f32⟩
  | 18 => ⟨S16384x7x7, .f32⟩
  | 19 => ⟨S16384x7x7, .f32⟩
  | 20 => ⟨S16384x7x7, .f32⟩
  | 21 => ⟨S16384x7x7, .f32⟩
  | 22 => ⟨S16384x7x7x1, .f32⟩
  | 23 => ⟨S16384x7x7, .f32⟩
  | 24 => ⟨S16384x7x7x1, .f32⟩
  | 25 => ⟨S16384x7x7, .f32⟩
  | 26 => ⟨S_, .f32⟩
  | 27 => ⟨S16384x7x7, .f32⟩
  | 28 => ⟨S16384x7x7, .f32⟩
  | 29 => ⟨S16384x7x7, .f32⟩
  | 30 => ⟨S16384x7x7x1, .f32⟩
  | 31 => ⟨S16384x7x7, .f32⟩
  | 32 => ⟨S16384x7x7x1, .f32⟩
  | 33 => ⟨S16384x7x7, .f32⟩
  | 34 => ⟨S_, .f32⟩
  | 35 => ⟨S16384x7x7, .f32⟩
  | 36 => ⟨S16384x7x7, .f32⟩
  | 37 => ⟨S16384x7x7, .f32⟩
  | 38 => ⟨S16384x7x7, .f32⟩
  | 39 => ⟨S16384x7x7x1, .f32⟩
  | 40 => ⟨S16384x7x7, .f32⟩
  | 41 => ⟨S16384x7x7x1, .f32⟩
  | 42 => ⟨S16384x7x7, .f32⟩
  | 43 => ⟨S_, .f32⟩
  | 44 => ⟨S16384x7x7, .f32⟩
  | 45 => ⟨S16384x7x7, .f32⟩
  | 46 => ⟨S16384x7x7, .f32⟩
  | 47 => ⟨S16384x7x7x1, .f32⟩
  | 48 => ⟨S16384x7x7, .f32⟩
  | 49 => ⟨S16384x7x7x1, .f32⟩
  | 50 => ⟨S16384x7x7, .f32⟩
  | 51 => ⟨S_, .f32⟩
  | 52 => ⟨S16384x7x7, .f32⟩
  | 53 => ⟨S16384x7x7, .f32⟩
  | 54 => ⟨S16384x7x7, .f32⟩
  | 55 => ⟨S16384x7x7, .f32⟩
  | 56 => ⟨S16384x7x7, .f32⟩
  | 57 => ⟨S16384x7x7, .f32⟩
  | 58 => ⟨S16384x7x7, .f32⟩
  | 59 => ⟨S16384x7x7, .f32⟩
  | 60 => ⟨S16384x7x7, .f32⟩
  | 61 => ⟨S16384x7x7, .f32⟩
  | 62 => ⟨S_, .f32⟩
  | 63 => ⟨S16384x7x7, .f32⟩
  | 64 => ⟨S16384x7x7, .i1⟩
  | 65 => ⟨S_, .f32⟩
  | 66 => ⟨S16384x7x7, .f32⟩
  | 67 => ⟨S16384x7x7, .i1⟩
  | 68 => ⟨S16384x7x7, .i1⟩
  | 69 => ⟨S_, .f32⟩
  | 70 => ⟨S_, .f32⟩
  | 71 => ⟨S16384x7x7, .f32⟩
  | 72 => ⟨S16384x7x7, .f32⟩
  | 73 => ⟨S16384x7x7, .i1⟩
  | 74 => ⟨S16384x7x7, .f32⟩
  | 75 => ⟨S16384x7x7, .f32⟩
  | 76 => ⟨S_, .f32⟩
  | 77 => ⟨S16384x7x7, .f32⟩
  | 78 => ⟨S16384x7x7, .f32⟩
  | 79 => ⟨S16384x7x7x2, .f32⟩
  | 80 => ⟨S16384x7x7x2, .f32⟩
  | 81 => ⟨S16384x7x7x2, .f32⟩
  | 82 => ⟨S16384x7x7x2, .f32⟩
  | 83 => ⟨S_, .f32⟩
  | 84 => ⟨S16384x7x7, .f32⟩
  | 85 => ⟨S16384x7x7x2, .f32⟩
  | 86 => ⟨S16384x7x7x2, .f32⟩
  | 87 => ⟨S16384x7x7x2, .f32⟩
  | 88 => ⟨S16384x7x7x2, .f32⟩
  | 89 => ⟨S_, .f32⟩
  | 90 => ⟨S16384x7x7, .f32⟩
  | 91 => ⟨S16384x7x7, .f32⟩
  | 92 => ⟨S16384x7x7, .f32⟩
  | 93 => ⟨S16384x7x7, .f32⟩
  | 94 => ⟨S16384x7x7, .f32⟩
  | 95 => ⟨S_, .f32⟩
  | 96 => ⟨S_, .f32⟩
  | 97 => ⟨S_, .f32⟩
  | 98 => ⟨S_, .f32⟩
  | 99 => ⟨S16384x7x7x2, .f32⟩
  | 100 => ⟨S16384x7x7x2, .f32⟩
  | 101 => ⟨S16384x7x7x2, .f32⟩
  | 102 => ⟨S16384x7x7x2, .f32⟩
  | 103 => ⟨S16384x7x7x2, .f32⟩
  | 104 => ⟨S16384x7x7x2, .f32⟩
  | 105 => ⟨S_, .f32⟩
  | 106 => ⟨S16384x7x7, .f32⟩
  | 107 => ⟨S16384x7x7x2, .f32⟩
  | 108 => ⟨S16384x7x7x2, .f32⟩
  | 109 => ⟨S16384x7x7x2, .f32⟩
  | 110 => ⟨S16384x7x7x2, .f32⟩
  | 111 => ⟨S16384x7x7x2, .f32⟩
  | 112 => ⟨S16384x7x7x2, .f32⟩
  | 113 => ⟨S_, .f32⟩
  | 114 => ⟨S16384x7x7, .f32⟩
  | 115 => ⟨S16384x7x7, .f32⟩
  | 116 => ⟨S16384x7x7, .f32⟩
  | 117 => ⟨S16384x7x7, .f32⟩
  | 118 => ⟨S16384x7x7, .f32⟩
  | 119 => ⟨S_, .f32⟩
  | 120 => ⟨S_, .f32⟩
  | 121 => ⟨S16384x7x7x1, .f32⟩
  | 122 => ⟨S16384x7x7, .f32⟩
  | 123 => ⟨S16384x7x7, .f32⟩
  | 124 => ⟨S16384x7x7, .f32⟩
  | 125 => ⟨S16384x7x7x1, .f32⟩
  | 126 => ⟨S16384x7x7, .f32⟩
  | 127 => ⟨S16384x7x7, .f32⟩
  | _ => ⟨S16384x7x7x30, .f32⟩

abbrev hbmTy0_2 (i : Nat) : BufTy := match i % 128 with
  | 0 => ⟨S16384x7x7, .f32⟩
  | 1 => ⟨S16384x7x7, .f32⟩
  | 2 => ⟨S16384x7x7, .f32⟩
  | 3 => ⟨S16384x7x7, .f32⟩
  | 4 => ⟨S16384x7x7, .f32⟩
  | 5 => ⟨S_, .f32⟩
  | 6 => ⟨S_, .f32⟩
  | 7 => ⟨S16384x7x7x1, .f32⟩
  | 8 => ⟨S16384x7x7, .f32⟩
  | 9 => ⟨S16384x7x7, .f32⟩
  | 10 => ⟨S16384x7x7x1, .f32⟩
  | 11 => ⟨S16384x7x7, .f32⟩
  | 12 => ⟨S16384x7x7, .f32⟩
  | 13 => ⟨S16384x7x7, .f32⟩
  | 14 => ⟨S16384x7x7, .f32⟩
  | 15 => ⟨S16384x7x7, .f32⟩
  | 16 => ⟨S16384x7x7, .f32⟩
  | 17 => ⟨S_, .f32⟩
  | 18 => ⟨S_, .f32⟩
  | 19 => ⟨S_, .f32⟩
  | 20 => ⟨S_, .f32⟩
  | 21 => ⟨S16384x7x7, .f32⟩
  | 22 => ⟨S16384x7x7x1, .f32⟩
  | 23 => ⟨S16384x7x7, .f32⟩
  | 24 => ⟨S16384x7x7, .f32⟩
  | 25 => ⟨S16384x7x7x1, .f32⟩
  | 26 => ⟨S16384x7x7, .f32⟩
  | 27 => ⟨S16384x7x7, .f32⟩
  | 28 => ⟨S16384x7x7, .f32⟩
  | 29 => ⟨S16384x7x7, .f32⟩
  | 30 => ⟨S_, .f32⟩
  | 31 => ⟨S_, .f32⟩
  | 32 => ⟨S_, .f32⟩
  | 33 => ⟨S_, .f32⟩
  | 34 => ⟨S_, .f32⟩
  | 35 => ⟨S16384x7x7x20, .f32⟩
  | 36 => ⟨S16384x7x7x20, .f32⟩
  | 37 => ⟨S16384x7x7x20, .f32⟩
  | 38 => ⟨S16384x7x7x20, .f32⟩
  | 39 => ⟨S_, .f32⟩
  | 40 => ⟨S16384x7x7, .f32⟩
  | 41 => ⟨S16384x7x7, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_6 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_7 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_8 : Ref sig .tc := ⟨.hbm, 94, rfl⟩
abbrev main_v83 : Ref sig .tc := ⟨.hbm, 95, rfl⟩
abbrev main_v84 : Ref sig .tc := ⟨.hbm, 96, rfl⟩
abbrev main_cst_9 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_10 : Ref sig .tc := ⟨.hbm, 101, rfl⟩
abbrev main_call0_v0 : Ref sig .tc := ⟨.hbm, 102, rfl⟩
abbrev main_call0_v1 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_11 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_13 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_14 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_15 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_16 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_cst_17 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_cst_18 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_cst_19 : Ref sig .tc := ⟨.hbm, 190, rfl⟩
abbrev main_v166 : Ref sig .tc := ⟨.hbm, 191, rfl⟩
abbrev main_v167 : Ref sig .tc := ⟨.hbm, 192, rfl⟩
abbrev main_cst_20 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_cst_21 : Ref sig .tc := ⟨.hbm, 197, rfl⟩
abbrev main_call1_v0 : Ref sig .tc := ⟨.hbm, 198, rfl⟩
abbrev main_call1_v1 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_cst_22 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_cst_23 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_cst_24 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_cst_25 : Ref sig .tc := ⟨.hbm, 223, rfl⟩
abbrev main_v191 : Ref sig .tc := ⟨.hbm, 224, rfl⟩
abbrev main_cst_26 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_cst_27 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_cst_28 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_cst_29 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_cst_30 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_cst_31 : Ref sig .tc := ⟨.hbm, 273, rfl⟩
abbrev main_v235 : Ref sig .tc := ⟨.hbm, 274, rfl⟩
abbrev main_cst_32 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_cst_33 : Ref sig .tc := ⟨.hbm, 286, rfl⟩
abbrev main_v246 : Ref sig .tc := ⟨.hbm, 287, rfl⟩
abbrev main_cst_34 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_cst_35 : Ref sig .tc := ⟨.hbm, 295, rfl⟩
abbrev main_v253 : Ref sig .tc := ⟨.hbm, 296, rfl⟩
abbrev main_v254 : Ref sig .tc := ⟨.hbm, 297, rfl⟩
abbrev main_cst_36 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_cst_37 : Ref sig .tc := ⟨.hbm, 304, rfl⟩
abbrev main_v260 : Ref sig .tc := ⟨.hbm, 305, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x4_0_0_0_0 : S16384x7x7x30.Slices ![0, 0, 0, 0] S16384x7x7x4
  slices_S16384x7x7x4_S16384x7x7x1_0_0_0_2 : S16384x7x7x4.Slices ![0, 0, 0, 2] S16384x7x7x1
  slices_S16384x7x7x4_S16384x7x7x1_0_0_0_3 : S16384x7x7x4.Slices ![0, 0, 0, 3] S16384x7x7x1
  slices_S16384x7x7x4_S16384x7x7x1_0_0_0_0 : S16384x7x7x4.Slices ![0, 0, 0, 0] S16384x7x7x1
  slices_S16384x7x7x4_S16384x7x7x1_0_0_0_1 : S16384x7x7x4.Slices ![0, 0, 0, 1] S16384x7x7x1
  slices_S16384x7x7x30_S16384x7x7x4_0_0_0_5 : S16384x7x7x30.Slices ![0, 0, 0, 5] S16384x7x7x4
  slices_S16384x7x7x30_S16384x7x7x2_0_0_0_0 : S16384x7x7x30.Slices ![0, 0, 0, 0] S16384x7x7x2
  reducesTo_S16384x7x7x2_S16384x7x7_d3 : S16384x7x7x2.ReducesTo [3] S16384x7x7
  h_S_ : 0 < S_.numel
  slices_S16384x7x7x30_S16384x7x7x2_0_0_0_5 : S16384x7x7x30.Slices ![0, 0, 0, 5] S16384x7x7x2
  reducesTo_S16384x7x7_S_d0_1_2 : S16384x7x7.ReducesTo [0, 1, 2] S_
  slices_S16384x7x7x30_S16384x7x7x2_0_0_0_2 : S16384x7x7x30.Slices ![0, 0, 0, 2] S16384x7x7x2
  slices_S16384x7x7x30_S16384x7x7x2_0_0_0_7 : S16384x7x7x30.Slices ![0, 0, 0, 7] S16384x7x7x2
  slices_S16384x7x7x30_S16384x7x7x1_0_0_0_9 : S16384x7x7x30.Slices ![0, 0, 0, 9] S16384x7x7x1
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7

variable [Facts₀]

class Facts : Prop extends Facts₀ where

variable [Facts]
-- ==== Proof.RowLoss.lean ====
/-
  The loss of one grid cell as a function of its thirty predicted and thirty labelled channels, on the extended
  reals: the two candidate boxes' intersection-over-union against the labelled box, the choice of the responsible
  box, and the five terms (centre, size in square-root space, objectness, no-object, class) — once as the cell's
  single total, with the weights 5 and 1/2 inside, and once as the six summands whose sums over all cells are weighted
  afterwards. The law joining the two: a nonnegative real weight moves across a finite sum of extended reals.
-/
import Idealize.ShloMosaic.PureOps.Ideal
import Idealize.ShloMosaic.PureOps.Ideal.Laws
import Idealize.ShloMosaic.Lib.ValueIdx

noncomputable section

namespace Cert.Yolo

open Idealize.ShloMosaic

/-! ## The float constants the two programs spell -/

abbrev c0 : EReal := Ideal.ofBits .f32 0x00000000#32
abbrev c1 : EReal := Ideal.ofBits .f32 0x3F800000#32
abbrev cHalf : EReal := Ideal.ofBits .f32 0x3F000000#32
abbrev c2 : EReal := Ideal.ofBits .f32 0x40000000#32
abbrev c5 : EReal := Ideal.ofBits .f32 0x40A00000#32
abbrev cInvN : EReal := Ideal.ofBits .f32 0x38800000#32
abbrev cN : EReal := Ideal.ofBits .f32 0x46800000#32

theorem c0_eq : Ideal.ofBits .f32 0x00000000#32 = 0 := Ideal.ofBits_zero_f32
theorem c1_eq : Ideal.ofBits .f32 0x3F800000#32 = ((1 : ℝ) : EReal) := by
  simp [Ideal.ofBits, Ideal.ieee, -EReal.coe_mul]; norm_num
theorem cHalf_eq : Ideal.ofBits .f32 0x3F000000#32 = ((1 / 2 : ℝ) : EReal) := by
  simp [Ideal.ofBits, Ideal.ieee, -EReal.coe_mul]; norm_num
theorem c2_eq : Ideal.ofBits .f32 0x40000000#32 = ((2 : ℝ) : EReal) := by
  simp [Ideal.ofBits, Ideal.ieee, -EReal.coe_mul]; norm_num
theorem c5_eq : Ideal.ofBits .f32 0x40A00000#32 = ((5 : ℝ) : EReal) := by
  simp [Ideal.ofBits, Ideal.ieee, -EReal.coe_mul]; norm_num
theorem cInvN_eq : Ideal.ofBits .f32 0x38800000#32 = ((1 / 16384 : ℝ) : EReal) := by
  simp [Ideal.ofBits, Ideal.ieee, -EReal.coe_mul]; norm_num
theorem cN_eq : Ideal.ofBits .f32 0x46800000#32 = ((16384 : ℝ) : EReal) := by
  simp [Ideal.ofBits, Ideal.ieee, -EReal.coe_mul]; norm_num

/-- Halving: the quotient by two is the product with one half, on every extended real. -/
theorem div_two (x : EReal) : Ideal.div x c2 = x * cHalf := by
  show Ideal.div x (Ideal.ofBits .f32 0x40000000#32) = x * Ideal.ofBits .f32 0x3F000000#32
  rw [c2_eq, Ideal.div_coe (by norm_num : (2 : ℝ) ≠ 0), cHalf_eq]

/-- The quotient by the batch size is the product with its reciprocal, on every extended real. -/
theorem div_batch (x : EReal) : Ideal.div x cN = x * cInvN := by
  show Ideal.div x (Ideal.ofBits .f32 0x46800000#32) = x * Ideal.ofBits .f32 0x38800000#32
  rw [cN_eq, Ideal.div_coe (by norm_num : (16384 : ℝ) ≠ 0), cInvN_eq]

/-! ## A one-bit word as a number -/

/-- A comparison's bit read as the number 0 or 1. -/
def flag (b : BitVec 1) : EReal := ((b.toNat : ℝ) : EReal)

theorem bit_cases (b : BitVec 1) : b = 0#1 ∨ b = 1#1 := by revert b; decide

/-- Widening the bit to a word and reading the word as a signed integer gives the same number. -/
theorem flag_of_signed (b : BitVec 1) : (((b.setWidth 32).toInt : ℝ) : EReal) = flag b := by
  rcases bit_cases b with rfl | rfl <;> simp [flag]

/-- The complement's number is one minus the bit's. -/
theorem flag_not (b : BitVec 1) : flag (~~~b) = c1 - flag b := by
  show flag (~~~b) = Ideal.ofBits .f32 0x3F800000#32 - flag b
  rw [c1_eq]
  rcases bit_cases b with rfl | rfl
  · show (((1 : ℕ) : ℝ) : EReal) = ((1 : ℝ) : EReal) - (((0 : ℕ) : ℝ) : EReal)
    rw [← EReal.coe_sub]; norm_num
  · show (((0 : ℕ) : ℝ) : EReal) = ((1 : ℝ) : EReal) - (((1 : ℕ) : ℝ) : EReal)
    rw [← EReal.coe_sub]; norm_num

/-! ## Intersection over union -/

/-- The overlap of two intervals given by centre and width: the lesser right end minus the greater left end. -/
def overlap (a wa b wb : EReal) : EReal :=
  min (a + wa * cHalf) (b + wb * cHalf) - max (a - wa * cHalf) (b - wb * cHalf)

/-- Intersection over union of two boxes (centre x, centre y, width, height): zero unless both overlaps are
    positive. -/
def iou (x1 y1 w1 h1 x2 y2 w2 h2 : EReal) : EReal :=
  Scalar.select
    (IntOp.andi (Ideal.cmp .ogt (overlap x1 w1 x2 w2) c0) (Ideal.cmp .ogt (overlap y1 h1 y2 h2) c0))
    (Ideal.div (overlap x1 w1 x2 w2 * overlap y1 h1 y2 h2)
      (w1 * h1 + w2 * h2 - overlap x1 w1 x2 w2 * overlap y1 h1 y2 h2))
    c0

/-! ## The cell's quantities, from its predicted channels `p` and labelled channels `l` -/

/-- Channel `o + k` of thirty, for `k` below `n` with `o + n ≤ 30`. -/
abbrev chan (o : ℕ) {n : ℕ} (k : Fin n) (h : o + n ≤ 30) : Fin 30 := ⟨o + k.val, by omega⟩

/-- A squared difference. -/
def sqd (a b : EReal) : EReal := (a - b) * (a - b)

variable (p l : Fin 30 → EReal)

/-- The cell holds an object: its label's channel 4 is one. -/
def obj : EReal := flag (Ideal.cmp .oeq (l 4) c1)
/-- The first and second predicted boxes against the labelled box. -/
def iou1 : EReal := iou (p 0) (p 1) (p 2) (p 3) (l 0) (l 1) (l 2) (l 3)
def iou2 : EReal := iou (p 5) (p 6) (p 7) (p 8) (l 0) (l 1) (l 2) (l 3)
/-- The first box is responsible when it overlaps the label strictly more. -/
def sel1 : EReal := flag (Ideal.cmp .ogt (iou1 p l) (iou2 p l))
def sel2 : EReal := c1 - sel1 p l
def xy1 : EReal := ∑ k : Fin 2, sqd (l (chan 0 k (by omega))) (p (chan 0 k (by omega)))
def xy2 : EReal := ∑ k : Fin 2, sqd (l (chan 5 k (by omega))) (p (chan 5 k (by omega)))
def wh1 : EReal := ∑ k : Fin 2, sqd (Ideal.sqrt (l (chan 2 k (by omega)))) (Ideal.sqrt (p (chan 2 k (by omega))))
def wh2 : EReal := ∑ k : Fin 2, sqd (Ideal.sqrt (l (chan 7 k (by omega)))) (Ideal.sqrt (p (chan 7 k (by omega))))
def cls : EReal := ∑ k : Fin 20, sqd (l (chan 10 k (by omega))) (p (chan 10 k (by omega)))

/-- The six summands whose sums over all cells the loss weights afterwards. -/
def termXY : EReal := obj l * (sel1 p l * xy1 p l + sel2 p l * xy2 p l)
def termWH : EReal := obj l * (sel1 p l * wh1 p l + sel2 p l * wh2 p l)
def termObj : EReal := obj l * (sel1 p l * sqd (iou1 p l) (p 4) + sel2 p l * sqd (iou2 p l) (p 9))
def termNoA : EReal := obj l * (sel1 p l * (p 9 * p 9) + sel2 p l * (p 4 * p 4))
def termNoB : EReal := (c1 - obj l) * (p 4 * p 4 + p 9 * p 9)
def termCls : EReal := obj l * cls p l

/-- The cell's single total, with the weights 5 and 1/2 inside. -/
def cellTotal : EReal :=
  (c5 * obj l) * (sel1 p l * xy1 p l + sel2 p l * xy2 p l) + termWH p l + termObj p l
    + ((cHalf * obj l) * (sel1 p l * (p 9 * p 9) + sel2 p l * (p 4 * p 4))
        + (cHalf * (c1 - obj l)) * (p 4 * p 4 + p 9 * p 9))
    + termCls p l

theorem cellTotal_eq : cellTotal p l
    = c5 * termXY p l + termWH p l + termObj p l + (cHalf * termNoA p l + cHalf * termNoB p l) + termCls p l := by
  unfold cellTotal termXY termNoA termNoB
  simp only [mul_assoc]

/-! ## A nonnegative real weight moves across a finite sum -/

theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha,
      EReal.left_distrib_of_nonneg_of_ne_top (EReal.coe_nonneg.mpr hr) (EReal.coe_ne_top r), ih]

/-- The sum of the cells' totals is the weighted combination of the six summands' sums. -/
theorem sum_cellTotal {ι : Type*} [Fintype ι] (P L : ι → Fin 30 → EReal) :
    ∑ i, cellTotal (P i) (L i)
      = c5 * ∑ i, termXY (P i) (L i) + ∑ i, termWH (P i) (L i) + ∑ i, termObj (P i) (L i)
        + (cHalf * ∑ i, termNoA (P i) (L i) + cHalf * ∑ i, termNoB (P i) (L i)) + ∑ i, termCls (P i) (L i) := by
  simp only [cellTotal_eq, Finset.sum_add_distrib]
  show _ = Ideal.ofBits .f32 0x40A00000#32 * _ + _ + _
      + (Ideal.ofBits .f32 0x3F000000#32 * _ + Ideal.ofBits .f32 0x3F000000#32 * _) + _
  rw [c5_eq, cHalf_eq, coe_mul_sum _ 5 (by norm_num), coe_mul_sum _ (1 / 2) (by norm_num),
    coe_mul_sum _ (1 / 2) (by norm_num)]
  simp only [c5, cHalf, c5_eq, cHalf_eq]

end Cert.Yolo

end
-- ==== Proof.KernelRow.lean ====
/-
  The kernel's body, read one cell at a time. The body works on a tile of 8192 cells transposed to channel-major
  form, so every intermediate is a row vector over the tile's cells; read at cell `t` each is a quantity of that
  cell's thirty predicted and thirty labelled channels (RowLoss.lean). One lemma per intermediate: if its operands
  hold the cell quantities at every `t`, so does it. The last one is the tile's contribution to the accumulator:
  the old value plus the sum over the tile's cells of the cell totals.
-/
import proofs.«160516_j55164559950272_2_alg».proof.Proof.Gen.KernelIdeal.Skeleton
import proofs.«160516_j55164559950272_2_alg».proof.Proof.RowLoss
import Idealize.ShloMosaic.Lib.ValueLayout
import Idealize.ShloMosaic.Lib.ValueIdxCoords
import Idealize.ShloMosaic.PureOps.Ideal.Laws

noncomputable section

namespace Cert.KernelIdeal.Row

open Idealize.ShloMosaic Idealize.ShloMosaic.ValueIdx Cert.KernelIdeal Cert.KernelIdeal.Gen Cert.Yolo

/-! ## Operations read at an index -/

theorem andi_apply {s : Shape} (a b : IVec s 1) (i : s.Idx) : andi a b i = IntOp.andi (a i) (b i) := rfl
theorem sqrt_apply {s : Shape} (a : FVec Ideal s .f32) (i : s.Idx) : sqrt a i = Ideal.sqrt (a i) := rfl
theorem sitofp_bit (b : BitVec 1) : FloatOps.sitofp (F := Ideal) .f32 (b.setWidth 32) = flag b := flag_of_signed b
theorem scalar_ofBits (w : BitVec 32) : (Scalar.ofBits .f32 w : Ideal .f32) = Ideal.ofBits .f32 w := rfl
theorem cmpf_ideal (p : CmpFPredicate) (x y : EReal) : FloatOps.cmpf (F := Ideal) (φ := .f32) p x y = Ideal.cmp p x y := rfl

/-- A sum over the channel axis of an `[n, 8192]` array, at cell `t`. -/
theorem chan_sum {n : ℕ} (src : FVec Ideal ⟨2, ![n, 8192]⟩ .f32)
    (h : (⟨2, ![n, 8192]⟩ : Shape).Reduces [0] ⟨1, ![8192]⟩)
    (hacc : (0x00000000#32 : BitVec 32) = 0x00000000#32) (t : Fin 8192) :
    multiReduction .add [0] ⟨1, ![8192]⟩ src 0x00000000#32 h (.inl rfl) hacc (ix1 t) = ∑ k : Fin n, src (ix2 k t) := by
  refine (Ideal.multiReduction_add_single src 0x00000000#32 h (.inl rfl) hacc (ix1 t)).trans ?_
  exact Finset.sum_congr rfl fun k _ => congrArg src (funext fun a => match a with | ⟨0, _⟩ => rfl | ⟨1, _⟩ => rfl)

/-- The sum over the tile's cells of a row vector. -/
theorem lane_sum (src : FVec Ideal ⟨2, ![1, 8192]⟩ .f32)
    (h : (⟨2, ![1, 8192]⟩ : Shape).Reduces [1] ⟨1, ![1]⟩)
    (hacc : (0x00000000#32 : BitVec 32) = 0x00000000#32) (u : Fin 1) :
    multiReduction .add [1] ⟨1, ![1]⟩ src 0x00000000#32 h (.inl rfl) hacc (ix1 u) = ∑ t : Fin 8192, src (ix2 u t) := by
  refine (Ideal.multiReduction_add_single src 0x00000000#32 h (.inl rfl) hacc (ix1 u)).trans ?_
  exact Finset.sum_congr rfl fun k _ => congrArg src (funext fun a => match a with | ⟨0, _⟩ => rfl | ⟨1, _⟩ => rfl)

/-- Push an index through the body's pointwise and layout operations. -/
syntax "rowsimp" "[" Lean.Parser.Tactic.simpLemma,* "]" : tactic
macro_rules
  | `(tactic| rowsimp [$ls,*]) => `(tactic| simp only [mulf_apply, addf_apply, subf_apply, divf_apply, maximumf_apply,
      minimumf_apply, broadcast_apply, cmpf_apply, extui_apply, sitofp_apply, select_apply, andi_apply, sqrt_apply,
      slice2_axis0_eq, transpose_ix2_apply, shapeCast_self, shapeCast_a_1a_apply, sitofp_bit,
      scalar_ofBits, cmpf_ideal, $ls,*])

/-- Cell `t`'s channels in a tile held cell-major. -/
abbrev prow (x : FVec Ideal S8192x30 .f32) (t : Fin 8192) : Fin 30 → EReal := fun c => x (ix2 t c)

/-! ## The first part: both tiles transposed, the object flag, the first box's pieces -/

theorem pay4_row (x0 : FVec Ideal S8192x30 .f32) (c : Fin 30) (t : Fin 8192) : k0_pay4 (F := Ideal) x0 (ix2 c t) = prow x0 t c := by
  unfold k0_pay4; rowsimp []
  exact transpose_ix2_apply x0 _ c t
theorem pay5_row (x1 : FVec Ideal S8192x30 .f32) (c : Fin 30) (t : Fin 8192) : k0_pay5 (F := Ideal) x1 (ix2 c t) = prow x1 t c := by
  unfold k0_pay5; rowsimp []
  exact transpose_ix2_apply x1 _ c t
theorem pay6_row (x1 : FVec Ideal S8192x30 .f32) (t : Fin 8192) : k0_pay6 (F := Ideal) x1 (ix2 (0 : Fin 1) t) = obj (prow x1 t) := by
  unfold k0_pay6; rowsimp [pay5_row]; try rfl
theorem pay7_row (x1 : FVec Ideal S8192x30 .f32) (t : Fin 8192) :
    k0_pay7 (F := Ideal) x1 (ix2 (0 : Fin 1) t) = c1 - obj (prow x1 t) := by
  unfold k0_pay7; rowsimp [pay6_row]; try rfl
theorem pay8_row (x1 : FVec Ideal S8192x30 .f32) (k : Fin 4) (t : Fin 8192) :
    k0_pay8 (F := Ideal) x1 (ix2 k t) = prow x1 t (chan 0 k (by omega)) := by
  unfold k0_pay8; rowsimp [pay5_row]; try rfl
theorem pay9_row (x0 : FVec Ideal S8192x30 .f32) (k : Fin 4) (t : Fin 8192) :
    k0_pay9 (F := Ideal) x0 (ix2 k t) = prow x0 t (chan 0 k (by omega)) := by
  unfold k0_pay9; rowsimp [pay4_row]; try rfl
theorem pay10_row (x0 : FVec Ideal S8192x30 .f32) (t : Fin 8192) :
    k0_pay10 (F := Ideal) x0 (ix2 (0 : Fin 1) t) = prow x0 t 2 * prow x0 t 3 := by
  unfold k0_pay10; rowsimp [pay9_row]; try rfl
theorem pay11_row (x1 : FVec Ideal S8192x30 .f32) (t : Fin 8192) :
    k0_pay11 (F := Ideal) x1 (ix2 (0 : Fin 1) t) = prow x1 t 2 * prow x1 t 3 := by
  unfold k0_pay11; rowsimp [pay8_row]; try rfl
theorem pay12_row (x0 x1 : FVec Ideal S8192x30 .f32) (t : Fin 8192) :
    k0_pay12 (F := Ideal) x0 x1 (ix2 (0 : Fin 1) t)
      = max (prow x0 t 0 - prow x0 t 2 * cHalf) (prow x1 t 0 - prow x1 t 2 * cHalf) := by
  unfold k0_pay12; rowsimp [pay8_row, pay9_row]; try rfl
theorem pay13_row (x0 x1 : FVec Ideal S8192x30 .f32) (t : Fin 8192) :
    k0_pay13 (F := Ideal) x0 x1 (ix2 (0 : Fin 1) t)
      = min (prow x0 t 0 + prow x0 t 2 * cHalf) (prow x1 t 0 + prow x1 t 2 * cHalf) := by
  unfold k0_pay13; rowsimp [pay8_row, pay9_row]; try rfl
theorem pay14_row (x0 : FVec Ideal S8192x30 .f32) (t : Fin 8192) : k0_pay14 (F := Ideal) x0 (ix2 (0 : Fin 1) t) = prow x0 t 1 := by
  unfold k0_pay14; rowsimp [pay9_row]; try rfl
theorem pay15_row (x0 : FVec Ideal S8192x30 .f32) (t : Fin 8192) :
    k0_pay15 (F := Ideal) x0 (ix2 (0 : Fin 1) t) = prow x0 t 3 * cHalf := by
  unfold k0_pay15; rowsimp [pay9_row]; try rfl

/-! ## The second part: the first box's overlap with the label, the second box's pieces -/

variable (p l : Fin 8192 → Fin 30 → EReal)

theorem pay16_row (v13 v14 : FVec Ideal S4x8192 .f32) (v17 v20 v31 v42 v43 v46 : FVec Ideal S1x8192 .f32)
    (h13 : ∀ (k : Fin 4) t, v13 (ix2 k t) = l t (chan 0 k (by omega)))
    (h14 : ∀ (k : Fin 4) t, v14 (ix2 k t) = p t (chan 0 k (by omega)))
    (h17 : ∀ t, v17 (ix2 (0 : Fin 1) t) = p t 2 * p t 3) (h20 : ∀ t, v20 (ix2 (0 : Fin 1) t) = l t 2 * l t 3)
    (h31 : ∀ t, v31 (ix2 (0 : Fin 1) t) = max (p t 0 - p t 2 * cHalf) (l t 0 - l t 2 * cHalf))
    (h42 : ∀ t, v42 (ix2 (0 : Fin 1) t) = min (p t 0 + p t 2 * cHalf) (l t 0 + l t 2 * cHalf))
    (h43 : ∀ t, v43 (ix2 (0 : Fin 1) t) = p t 1) (h46 : ∀ t, v46 (ix2 (0 : Fin 1) t) = p t 3 * cHalf) (t : Fin 8192) :
    k0_pay16 v13 v14 v17 v20 v31 v42 v43 v46 (ix2 (0 : Fin 1) t) = iou1 (p t) (l t) := by
  unfold k0_pay16; rowsimp [h13, h14, h17, h20, h31, h42, h43, h46]; try rfl

theorem pay17_row (v4 : FVec Ideal S30x8192 .f32) (h4 : ∀ c t, v4 (ix2 c t) = p t c) (k : Fin 4) (t : Fin 8192) :
    k0_pay17 v4 (ix2 k t) = p t (chan 5 k (by omega)) := by
  unfold k0_pay17; rowsimp [h4]; try rfl
theorem pay18_row (v4 : FVec Ideal S30x8192 .f32) (h4 : ∀ c t, v4 (ix2 c t) = p t c) (t : Fin 8192) :
    k0_pay18 v4 (ix2 (0 : Fin 1) t) = p t 7 * p t 8 := by
  unfold k0_pay18; rowsimp [pay17_row p v4 h4, h4]; try rfl
theorem pay19_row (v13 : FVec Ideal S4x8192 .f32) (h13 : ∀ (k : Fin 4) t, v13 (ix2 k t) = l t (chan 0 k (by omega)))
    (t : Fin 8192) : k0_pay19 v13 (ix2 (0 : Fin 1) t) = l t 2 * l t 3 := by
  unfold k0_pay19; rowsimp [h13]; try rfl
theorem pay20_row (v4 : FVec Ideal S30x8192 .f32) (v13 : FVec Ideal S4x8192 .f32) (h4 : ∀ c t, v4 (ix2 c t) = p t c)
    (h13 : ∀ (k : Fin 4) t, v13 (ix2 k t) = l t (chan 0 k (by omega))) (t : Fin 8192) :
    k0_pay20 v4 v13 (ix2 (0 : Fin 1) t) = max (p t 5 - p t 7 * cHalf) (l t 0 - l t 2 * cHalf) := by
  unfold k0_pay20; rowsimp [pay17_row p v4 h4, h4, h13]; try rfl
theorem pay21_row (v4 : FVec Ideal S30x8192 .f32) (h4 : ∀ c t, v4 (ix2 c t) = p t c) (t : Fin 8192) :
    k0_pay21 v4 (ix2 (0 : Fin 1) t) = p t 5 := by
  unfold k0_pay21; rowsimp [pay17_row p v4 h4, h4]; try rfl
theorem pay22_row (v4 : FVec Ideal S30x8192 .f32) (h4 : ∀ c t, v4 (ix2 c t) = p t c) (t : Fin 8192) :
    k0_pay22 v4 (ix2 (0 : Fin 1) t) = p t 7 := by
  unfold k0_pay22; rowsimp [pay17_row p v4 h4, h4]; try rfl

/-! ## The third part: the second box's overlap, and which box is responsible -/

section Third
variable (v13 v78 : FVec Ideal S4x8192 .f32) (v77 v81 v84 v95 v96 v97 : FVec Ideal S1x8192 .f32) (half : Ideal .f32)
  (h13 : ∀ (k : Fin 4) t, v13 (ix2 k t) = l t (chan 0 k (by omega)))
  (h78 : ∀ (k : Fin 4) t, v78 (ix2 k t) = p t (chan 5 k (by omega)))
  (h81 : ∀ t, v81 (ix2 (0 : Fin 1) t) = p t 7 * p t 8) (h84 : ∀ t, v84 (ix2 (0 : Fin 1) t) = l t 2 * l t 3)
  (h95 : ∀ t, v95 (ix2 (0 : Fin 1) t) = max (p t 5 - p t 7 * cHalf) (l t 0 - l t 2 * cHalf))
  (h96 : ∀ t, v96 (ix2 (0 : Fin 1) t) = p t 5) (h97 : ∀ t, v97 (ix2 (0 : Fin 1) t) = p t 7) (hh : half = cHalf)
  (h77 : ∀ t, v77 (ix2 (0 : Fin 1) t) = iou1 (p t) (l t))
include h13 h78 h81 h84 h95 h96 h97 hh

theorem pay23_row (t : Fin 8192) :
    k0_pay23 v13 v78 v81 v84 v95 v96 v97 half (ix2 (0 : Fin 1) t) = iou2 (p t) (l t) := by
  unfold k0_pay23; rowsimp [h13, h78, h81, h84, h95, h96, h97, hh]; try rfl

include h77
theorem pay24_row (t : Fin 8192) :
    k0_pay24 v13 v77 v78 v81 v84 v95 v96 v97 half (ix2 (0 : Fin 1) t) = sel1 (p t) (l t) := by
  unfold k0_pay24; rowsimp [pay23_row p l v13 v78 v81 v84 v95 v96 v97 half h13 h78 h81 h84 h95 h96 h97 hh, h77]; try rfl
theorem pay25_row (t : Fin 8192) :
    k0_pay25 v13 v77 v78 v81 v84 v95 v96 v97 half (ix2 (0 : Fin 1) t) = sel2 (p t) (l t) := by
  unfold k0_pay25; rowsimp [pay24_row p l v13 v78 v77 v81 v84 v95 v96 v97 half h13 h78 h81 h84 h95 h96 h97 hh h77]; try rfl
end Third

theorem pay26_row (v5 : FVec Ideal S30x8192 .f32) (h5 : ∀ c t, v5 (ix2 c t) = l t c) (k : Fin 2) (t : Fin 8192) :
    k0_pay26 v5 (ix2 k t) = l t (chan 0 k (by omega)) := by
  unfold k0_pay26; rowsimp [h5]; try rfl
theorem pay27_row (v4 : FVec Ideal S30x8192 .f32) (h4 : ∀ c t, v4 (ix2 c t) = p t c) (k : Fin 2) (t : Fin 8192) :
    k0_pay27 v4 (ix2 k t) = p t (chan 0 k (by omega)) := by
  unfold k0_pay27; rowsimp [h4]; try rfl

/-! ## The fourth part: the centre, size and objectness terms, and the pieces of the no-object term -/

section Fourth
variable (v4 v5 : FVec Ideal S30x8192 .f32) (v10 v77 v141 v144 v146 : FVec Ideal S1x8192 .f32) (v147 v148 : FVec Ideal S2x8192 .f32)
  (h4 : ∀ c t, v4 (ix2 c t) = p t c) (h5 : ∀ c t, v5 (ix2 c t) = l t c)
  (h10 : ∀ t, v10 (ix2 (0 : Fin 1) t) = obj (l t))
  (h77 : ∀ t, v77 (ix2 (0 : Fin 1) t) = iou1 (p t) (l t)) (h141 : ∀ t, v141 (ix2 (0 : Fin 1) t) = iou2 (p t) (l t))
  (h144 : ∀ t, v144 (ix2 (0 : Fin 1) t) = sel1 (p t) (l t)) (h146 : ∀ t, v146 (ix2 (0 : Fin 1) t) = sel2 (p t) (l t))
  (h147 : ∀ (k : Fin 2) t, v147 (ix2 k t) = l t (chan 0 k (by omega)))
  (h148 : ∀ (k : Fin 2) t, v148 (ix2 k t) = p t (chan 0 k (by omega)))

include h4 h5 h10 h144 h146 h147 h148 in
theorem pay28_row (t : Fin 8192) :
    k0_pay28 v4 v5 v10 v144 v146 v147 v148 (ix2 (0 : Fin 1) t)
      = (c5 * obj (l t)) * (sel1 (p t) (l t) * xy1 (p t) (l t) + sel2 (p t) (l t) * xy2 (p t) (l t)) := by
  unfold k0_pay28; rowsimp [h4, h5, h10, h144, h146, h147, h148]
  rw [chan_sum, chan_sum]; rowsimp [h4, h5, h147, h148]; try rfl

include h4 h5 h10 h144 h146 in
theorem pay29_row (t : Fin 8192) :
    k0_pay29 v4 v5 v10 v144 v146 (ix2 (0 : Fin 1) t) = termWH (p t) (l t) := by
  unfold k0_pay29; rowsimp [h4, h5, h10, h144, h146]
  rw [chan_sum, chan_sum]; rowsimp [h4, h5]; try rfl

include h4 h10 h77 h141 h144 h146 in
theorem pay30_row (t : Fin 8192) :
    k0_pay30 v4 v10 v77 v141 v144 v146 (ix2 (0 : Fin 1) t) = termObj (p t) (l t) := by
  unfold k0_pay30; rowsimp [h4, h10, h77, h141, h144, h146]; try rfl

include h10 in
theorem pay31_row (t : Fin 8192) : k0_pay31 v10 (ix2 (0 : Fin 1) t) = cHalf * obj (l t) := by
  unfold k0_pay31; rowsimp [h10]; try rfl

include h4 h144 in
theorem pay32_row (t : Fin 8192) :
    k0_pay32 v4 v144 (ix2 (0 : Fin 1) t) = sel1 (p t) (l t) * (p t 9 * p t 9) := by
  unfold k0_pay32; rowsimp [h4, h144]; try rfl

include h4 h146 in
theorem pay33_row (t : Fin 8192) :
    k0_pay33 v4 v146 (ix2 (0 : Fin 1) t) = sel2 (p t) (l t) * (p t 4 * p t 4) := by
  unfold k0_pay33; rowsimp [h4, h146]; try rfl
end Fourth

/-! ## The accumulator's update, its reset and the scaled result -/

theorem pay2_row (v4 v5 : FVec Ideal S30x8192 .f32) (v10 v12 v164 v184 v194 v200 v201 v202 : FVec Ideal S1x8192 .f32)
    (acc : Vec Ideal S1x1 .f32)
    (h4 : ∀ c t, v4 (ix2 c t) = p t c) (h5 : ∀ c t, v5 (ix2 c t) = l t c)
    (h10 : ∀ t, v10 (ix2 (0 : Fin 1) t) = obj (l t)) (h12 : ∀ t, v12 (ix2 (0 : Fin 1) t) = c1 - obj (l t))
    (h164 : ∀ t, v164 (ix2 (0 : Fin 1) t)
      = (c5 * obj (l t)) * (sel1 (p t) (l t) * xy1 (p t) (l t) + sel2 (p t) (l t) * xy2 (p t) (l t)))
    (h184 : ∀ t, v184 (ix2 (0 : Fin 1) t) = termWH (p t) (l t))
    (h194 : ∀ t, v194 (ix2 (0 : Fin 1) t) = termObj (p t) (l t))
    (h200 : ∀ t, v200 (ix2 (0 : Fin 1) t) = cHalf * obj (l t))
    (h201 : ∀ t, v201 (ix2 (0 : Fin 1) t) = sel1 (p t) (l t) * (p t 9 * p t 9))
    (h202 : ∀ t, v202 (ix2 (0 : Fin 1) t) = sel2 (p t) (l t) * (p t 4 * p t 4)) :
    k0_pay2 v4 v5 v10 v12 v164 v184 v194 v200 v201 v202 acc (ix2 (0 : Fin 1) (0 : Fin 1))
      = acc (ix2 (0 : Fin 1) (0 : Fin 1)) + ∑ t : Fin 8192, cellTotal (p t) (l t) := by
  unfold k0_pay2; rowsimp []
  rw [lane_sum]
  refine congrArg (acc (ix2 (0 : Fin 1) (0 : Fin 1)) + ·) (Finset.sum_congr rfl fun t _ => ?_)
  rowsimp [h4, h5, h10, h12, h164, h184, h194, h200, h201, h202]
  rw [chan_sum]; rowsimp [h4, h5]; try rfl

theorem pay1_row : (k0_pay1 (F := Ideal)) (ix2 (0 : Fin 1) (0 : Fin 1)) = c0 := by
  unfold k0_pay1; rowsimp []; try rfl

theorem pay3_row (acc : Vec Ideal S1x1 .f32) :
    k0_pay3 acc (ix3 (0 : Fin 1) (0 : Fin 1) (0 : Fin 1)) = acc (ix2 (0 : Fin 1) (0 : Fin 1)) * cInvN := by
  unfold k0_pay3; rowsimp [shapeCast_ab_1ab_apply]; try rfl

end Cert.KernelIdeal.Row

end
-- ==== Proof.KernelAcc.lean ====
/-
  What one grid point does to the accumulator. The body computes, from the point's two tiles of 8192 cells, the
  accumulator's old value plus the sum of the tile's cell totals (`blockAcc`); at a core's first step the old value
  is the zero it has just stored, and at a core's last step the output block receives the new value times the
  reciprocal of the batch size. The three control cases' stores, read back, are these values.
-/
import proofs.«160516_j55164559950272_2_alg».proof.Proof.Gen.KernelIdeal.Frame
import proofs.«160516_j55164559950272_2_alg».proof.Proof.KernelRow
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen Cert.KernelIdeal.Row Cert.Yolo Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's value as one term of the point's two tiles and the old accumulator -/

section Composite
variable (x0 x1 : Vec F S8192x30 .f32)

def V4 : FVec F S30x8192 .f32 := k0_pay4 x0
def V5 : FVec F S30x8192 .f32 := k0_pay5 x1
def V10 : FVec F S1x8192 .f32 := k0_pay6 x1
def V12 : FVec F S1x8192 .f32 := k0_pay7 x1
def V13 : FVec F S4x8192 .f32 := k0_pay8 x1
def V14 : FVec F S4x8192 .f32 := k0_pay9 x0
def V77 : FVec F S1x8192 .f32 :=
  k0_pay16 (V13 x1) (V14 x0) (k0_pay10 x0) (k0_pay11 x1) (k0_pay12 x0 x1) (k0_pay13 x0 x1) (k0_pay14 x0) (k0_pay15 x0)
def V78 : FVec F S4x8192 .f32 := k0_pay17 (V4 x0)
def V81 : FVec F S1x8192 .f32 := k0_pay18 (V4 x0)
def V84 : FVec F S1x8192 .f32 := k0_pay19 (V13 x1)
def V95 : FVec F S1x8192 .f32 := k0_pay20 (V4 x0) (V13 x1)
def V96 : FVec F S1x8192 .f32 := k0_pay21 (V4 x0)
def V97 : FVec F S1x8192 .f32 := k0_pay22 (V4 x0)
def half : F .f32 := FloatOps.ofBits .f32 0x3F000000#32
def V141 : FVec F S1x8192 .f32 :=
  k0_pay23 (V13 x1) (V78 x0) (V81 x0) (V84 x1) (V95 x0 x1) (V96 x0) (V97 x0) half
def V144 : FVec F S1x8192 .f32 :=
  k0_pay24 (V13 x1) (V77 x0 x1) (V78 x0) (V81 x0) (V84 x1) (V95 x0 x1) (V96 x0) (V97 x0) half
def V146 : FVec F S1x8192 .f32 :=
  k0_pay25 (V13 x1) (V77 x0 x1) (V78 x0) (V81 x0) (V84 x1) (V95 x0 x1) (V96 x0) (V97 x0) half
def V164 : FVec F S1x8192 .f32 :=
  k0_pay28 (V4 x0) (V5 x1) (V10 x1) (V144 x0 x1) (V146 x0 x1) (k0_pay26 (V5 x1)) (k0_pay27 (V4 x0))
def V184 : FVec F S1x8192 .f32 := k0_pay29 (V4 x0) (V5 x1) (V10 x1) (V144 x0 x1) (V146 x0 x1)
def V194 : FVec F S1x8192 .f32 :=
  k0_pay30 (V4 x0) (V10 x1) (V77 x0 x1) (V141 x0 x1) (V144 x0 x1) (V146 x0 x1)

/-- The accumulator after the point's body, from its old value `acc`. -/
def blockAcc (acc : Vec F S1x1 .f32) : FVec F S1x1 .f32 :=
  k0_pay2 (V4 x0) (V5 x1) (V10 x1) (V12 x1) (V164 x0 x1) (V184 x0 x1) (V194 x0 x1) (k0_pay31 (V10 x1))
    (k0_pay32 (V4 x0) (V144 x0 x1)) (k0_pay33 (V4 x0) (V146 x0 x1)) acc

end Composite

/-! ## The three cases' stores, read back -/

/-- A step that is neither a core's first nor its last: the accumulator goes from `xs0` to `blockAcc x0 x1 xs0`. -/
theorem acc_B (c : Dev nD) (i : grid0.Coords) (a2 : Memref sig .tc .vmem S8192x30 .f32) (h2 : a2.IsWhole)
    (a3 : Memref sig .tc .vmem S8192x30 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S8192x30 .f32) (xs0 : Vec F S1x1 .f32) :
    sout0_B_0 c i a2 h2 a3 h3 a4 h4 a5 h5 hc0 hc1 x0 x1 xs0 = blockAcc x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S8192x30) hz2,
    View.ld_unit_zero (S := S1x1) hz2]
  rfl

/-- A core's first step: the accumulator is reset to zero and then updated. -/
theorem acc_A (c : Dev nD) (i : grid0.Coords) (a2 : Memref sig .tc .vmem S8192x30 .f32) (h2 : a2.IsWhole)
    (a3 : Memref sig .tc .vmem S8192x30 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S8192x30 .f32) :
    sout0_A_0 c i a2 h2 a3 h3 a4 h4 a5 h5 hc0 hc1 x0 x1 = blockAcc x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S8192x30) hz2,
    View.ld_unit_zero (S := S1x1) hz2]
  rfl

/-- A core's last step: the accumulator is updated, -/
theorem acc_C (c : Dev nD) (i : grid0.Coords) (a2 : Memref sig .tc .vmem S8192x30 .f32) (h2 : a2.IsWhole)
    (a3 : Memref sig .tc .vmem S8192x30 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S8192x30 .f32) (xs0 : Vec F S1x1 .f32) :
    sout0_C_0 c i a2 h2 a3 h3 a4 h4 a5 h5 hc0 hc1 x0 x1 xs0 = blockAcc x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S8192x30) hz2,
    View.ld_unit_zero (S := S1x1) hz2]
  rfl

/-- and the output block receives its new value scaled. -/
theorem out_C (c : Dev nD) (i : grid0.Coords) (a2 : Memref sig .tc .vmem S8192x30 .f32) (h2 : a2.IsWhole)
    (a3 : Memref sig .tc .vmem S8192x30 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S8192x30 .f32) (xs0 : Vec F S1x1 .f32) :
    out0_C_2 c i a2 h2 a3 h3 a4 h4 a5 h5 hc0 hc1 x0 x1 xs0 = k0_pay3 (blockAcc x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S8192x30) hz2,
    View.ld_unit_zero (S := S1x1) hz2, View.readCov_unit_zero (S := S1x1) _ hz2]
  rfl

/-! ## The accumulator's new value on the extended reals -/

section AtIdeal
variable (x0 x1 : FVec Ideal S8192x30 .f32)

theorem half_eq : (half : Ideal .f32) = cHalf := rfl

theorem V4_row (c : Fin 30) (t : Fin 8192) : V4 (F := Ideal) x0 (ix2 c t) = prow x0 t c := pay4_row x0 c t
theorem V5_row (c : Fin 30) (t : Fin 8192) : V5 (F := Ideal) x1 (ix2 c t) = prow x1 t c := pay5_row x1 c t
theorem V10_row (t : Fin 8192) : V10 (F := Ideal) x1 (ix2 (0 : Fin 1) t) = obj (prow x1 t) := pay6_row x1 t
theorem V12_row (t : Fin 8192) : V12 (F := Ideal) x1 (ix2 (0 : Fin 1) t) = c1 - obj (prow x1 t) := pay7_row x1 t
theorem V13_row (k : Fin 4) (t : Fin 8192) : V13 (F := Ideal) x1 (ix2 k t) = prow x1 t (chan 0 k (by omega)) :=
  pay8_row x1 k t
theorem V14_row (k : Fin 4) (t : Fin 8192) : V14 (F := Ideal) x0 (ix2 k t) = prow x0 t (chan 0 k (by omega)) :=
  pay9_row x0 k t

theorem V77_row (t : Fin 8192) : V77 (F := Ideal) x0 x1 (ix2 (0 : Fin 1) t) = iou1 (prow x0 t) (prow x1 t) :=
  pay16_row (prow x0) (prow x1) (V13 (F := Ideal) x1) (V14 (F := Ideal) x0) (k0_pay10 (F := Ideal) x0)
    (k0_pay11 (F := Ideal) x1) (k0_pay12 (F := Ideal) x0 x1) (k0_pay13 (F := Ideal) x0 x1) (k0_pay14 (F := Ideal) x0)
    (k0_pay15 (F := Ideal) x0) (V13_row x1) (V14_row x0) (pay10_row x0) (pay11_row x1) (pay12_row x0 x1)
    (pay13_row x0 x1) (pay14_row x0) (pay15_row x0) t

theorem V78_row (k : Fin 4) (t : Fin 8192) : V78 (F := Ideal) x0 (ix2 k t) = prow x0 t (chan 5 k (by omega)) :=
  pay17_row (prow x0) (V4 (F := Ideal) x0) (V4_row x0) k t
theorem V81_row (t : Fin 8192) : V81 (F := Ideal) x0 (ix2 (0 : Fin 1) t) = prow x0 t 7 * prow x0 t 8 :=
  pay18_row (prow x0) (V4 (F := Ideal) x0) (V4_row x0) t
theorem V84_row (t : Fin 8192) : V84 (F := Ideal) x1 (ix2 (0 : Fin 1) t) = prow x1 t 2 * prow x1 t 3 :=
  pay19_row (prow x1) (V13 (F := Ideal) x1) (V13_row x1) t
theorem V95_row (t : Fin 8192) : V95 (F := Ideal) x0 x1 (ix2 (0 : Fin 1) t)
    = max (prow x0 t 5 - prow x0 t 7 * cHalf) (prow x1 t 0 - prow x1 t 2 * cHalf) :=
  pay20_row (prow x0) (prow x1) (V4 (F := Ideal) x0) (V13 (F := Ideal) x1) (V4_row x0) (V13_row x1) t
theorem V96_row (t : Fin 8192) : V96 (F := Ideal) x0 (ix2 (0 : Fin 1) t) = prow x0 t 5 :=
  pay21_row (prow x0) (V4 (F := Ideal) x0) (V4_row x0) t
theorem V97_row (t : Fin 8192) : V97 (F := Ideal) x0 (ix2 (0 : Fin 1) t) = prow x0 t 7 :=
  pay22_row (prow x0) (V4 (F := Ideal) x0) (V4_row x0) t

theorem V141_row (t : Fin 8192) : V141 (F := Ideal) x0 x1 (ix2 (0 : Fin 1) t) = iou2 (prow x0 t) (prow x1 t) :=
  pay23_row (prow x0) (prow x1) (V13 (F := Ideal) x1) (V78 (F := Ideal) x0) (V81 (F := Ideal) x0) (V84 (F := Ideal) x1)
    (V95 (F := Ideal) x0 x1) (V96 (F := Ideal) x0) (V97 (F := Ideal) x0) half (V13_row x1) (V78_row x0) (V81_row x0)
    (V84_row x1) (V95_row x0 x1) (V96_row x0) (V97_row x0) half_eq t
theorem V144_row (t : Fin 8192) : V144 (F := Ideal) x0 x1 (ix2 (0 : Fin 1) t) = sel1 (prow x0 t) (prow x1 t) :=
  pay24_row (prow x0) (prow x1) (V13 (F := Ideal) x1) (V78 (F := Ideal) x0) (V77 (F := Ideal) x0 x1)
    (V81 (F := Ideal) x0) (V84 (F := Ideal) x1) (V95 (F := Ideal) x0 x1) (V96 (F := Ideal) x0) (V97 (F := Ideal) x0) half
    (V13_row x1) (V78_row x0) (V81_row x0) (V84_row x1) (V95_row x0 x1) (V96_row x0) (V97_row x0) half_eq
    (V77_row x0 x1) t
theorem V146_row (t : Fin 8192) : V146 (F := Ideal) x0 x1 (ix2 (0 : Fin 1) t) = sel2 (prow x0 t) (prow x1 t) :=
  pay25_row (prow x0) (prow x1) (V13 (F := Ideal) x1) (V78 (F := Ideal) x0) (V77 (F := Ideal) x0 x1)
    (V81 (F := Ideal) x0) (V84 (F := Ideal) x1) (V95 (F := Ideal) x0 x1) (V96 (F := Ideal) x0) (V97 (F := Ideal) x0) half
    (V13_row x1) (V78_row x0) (V81_row x0) (V84_row x1) (V95_row x0 x1) (V96_row x0) (V97_row x0) half_eq
    (V77_row x0 x1) t

theorem V164_row (t : Fin 8192) : V164 (F := Ideal) x0 x1 (ix2 (0 : Fin 1) t)
    = (c5 * obj (prow x1 t)) * (sel1 (prow x0 t) (prow x1 t) * xy1 (prow x0 t) (prow x1 t)
        + sel2 (prow x0 t) (prow x1 t) * xy2 (prow x0 t) (prow x1 t)) :=
  pay28_row (prow x0) (prow x1) (V4 (F := Ideal) x0) (V5 (F := Ideal) x1) (V10 (F := Ideal) x1)
    (V144 (F := Ideal) x0 x1) (V146 (F := Ideal) x0 x1) (k0_pay26 (V5 (F := Ideal) x1)) (k0_pay27 (V4 (F := Ideal) x0))
    (V4_row x0) (V5_row x1) (V10_row x1) (V144_row x0 x1) (V146_row x0 x1)
    (pay26_row (prow x1) (V5 (F := Ideal) x1) (V5_row x1)) (pay27_row (prow x0) (V4 (F := Ideal) x0) (V4_row x0)) t
theorem V184_row (t : Fin 8192) : V184 (F := Ideal) x0 x1 (ix2 (0 : Fin 1) t) = termWH (prow x0 t) (prow x1 t) :=
  pay29_row (prow x0) (prow x1) (V4 (F := Ideal) x0) (V5 (F := Ideal) x1) (V10 (F := Ideal) x1)
    (V144 (F := Ideal) x0 x1) (V146 (F := Ideal) x0 x1) (V4_row x0) (V5_row x1) (V10_row x1) (V144_row x0 x1)
    (V146_row x0 x1) t
theorem V194_row (t : Fin 8192) : V194 (F := Ideal) x0 x1 (ix2 (0 : Fin 1) t) = termObj (prow x0 t) (prow x1 t) :=
  pay30_row (prow x0) (prow x1) (V4 (F := Ideal) x0) (V10 (F := Ideal) x1) (V77 (F := Ideal) x0 x1)
    (V141 (F := Ideal) x0 x1) (V144 (F := Ideal) x0 x1) (V146 (F := Ideal) x0 x1) (V4_row x0) (V10_row x1)
    (V77_row x0 x1) (V141_row x0 x1) (V144_row x0 x1) (V146_row x0 x1) t

/-- The body adds the tile's cell totals to the accumulator. -/
theorem blockAcc_apply (acc : Vec Ideal S1x1 .f32) :
    blockAcc (F := Ideal) x0 x1 acc (ix2 (0 : Fin 1) (0 : Fin 1))
      = acc (ix2 (0 : Fin 1) (0 : Fin 1)) + ∑ t : Fin 8192, cellTotal (prow x0 t) (prow x1 t) :=
  pay2_row (prow x0) (prow x1) (V4 (F := Ideal) x0) (V5 (F := Ideal) x1) (V10 (F := Ideal) x1) (V12 (F := Ideal) x1)
    (V164 (F := Ideal) x0 x1) (V184 (F := Ideal) x0 x1) (V194 (F := Ideal) x0 x1) (k0_pay31 (V10 (F := Ideal) x1))
    (k0_pay32 (V4 (F := Ideal) x0) (V144 (F := Ideal) x0 x1)) (k0_pay33 (V4 (F := Ideal) x0) (V146 (F := Ideal) x0 x1)) acc
    (V4_row x0) (V5_row x1) (V10_row x1) (V12_row x1) (V164_row x0 x1) (V184_row x0 x1) (V194_row x0 x1)
    (pay31_row (prow x1) (V10 (F := Ideal) x1) (V10_row x1))
    (pay32_row (prow x0) (prow x1) (V4 (F := Ideal) x0) (V144 (F := Ideal) x0 x1) (V4_row x0) (V144_row x0 x1))
    (pay33_row (prow x0) (prow x1) (V4 (F := Ideal) x0) (V146 (F := Ideal) x0 x1) (V4_row x0) (V146_row x0 x1))

end AtIdeal

end Cert.KernelIdeal.Acc

end
-- ==== Proof.CellOrder.lean ====
/-
  Two enumerations of the 802816 cells. The reference sums over cells `(n, a, b)` of a `[16384, 7, 7]` array; the
  kernel visits them by core `q` (of 2), step `s` (of 49) and row `t` (of 8192) of the tile, cell number
  `(49 q + s) · 8192 + t` in row-major order. A sum over all cells is the same in either enumeration.
-/
import Idealize.ShloMosaic.Shape
import Idealize.ShloMosaic.Lib.ValueIdx
import Mathlib.Algebra.BigOperators.Fin

noncomputable section

namespace Cert.CellOrder

open Idealize.ShloMosaic Idealize.ShloMosaic.ValueIdx

/-- The cells' array shape. -/
abbrev SC : Shape := ⟨3, ![16384, 7, 7]⟩

theorem numel_SC : SC.numel = 802816 := by
  simp [Shape.numel, Fin.prod_univ_succ]

/-- The cell with row-major number `r`. -/
def cellOf (r : ℕ) (h : r < 802816) : SC.Idx := SC.rowMajor.symm ⟨r, numel_SC ▸ h⟩

theorem rowMajor_cellOf (r : ℕ) (h : r < 802816) : (SC.rowMajor (cellOf r h)).val = r := by
  unfold cellOf; rw [Equiv.apply_symm_apply]

/-- Its coordinates give the number back. -/
theorem cellOf_coords (r : ℕ) (h : r < 802816) :
    (((cellOf r h) 0).val * 7 + ((cellOf r h) 1).val) * 7 + ((cellOf r h) 2).val = r := by
  have := rowMajor_cellOf r h
  rwa [Shape.rowMajor_val_three] at this

/-- A sum over `Fin (a * b)` as a double sum. -/
theorem sum_fin_mul {M : Type*} [AddCommMonoid M] (a b : ℕ) (g : ℕ → M) :
    ∑ r : Fin (a * b), g r.val = ∑ k : Fin a, ∑ t : Fin b, g (k.val * b + t.val) := by
  rw [← finProdFinEquiv.sum_comp (fun r : Fin (a * b) => g r.val), Fintype.sum_prod_type]
  refine Finset.sum_congr rfl fun k _ => Finset.sum_congr rfl fun t _ => ?_
  simp only [finProdFinEquiv_apply_val]
  rw [Nat.mul_comm, Nat.add_comm]

/-- A sum over all cells, in the kernel's order: cores, steps, rows of the tile. -/
theorem sum_cells {M : Type*} [AddCommMonoid M] (f : SC.Idx → M) (g : ℕ → M)
    (hg : ∀ r (h : r < 802816), g r = f (cellOf r h)) :
    ∑ j : SC.Idx, f j = ∑ q : Fin 2, ∑ s : Fin 49, ∑ t : Fin 8192, g ((q.val * 49 + s.val) * 8192 + t.val) := by
  have h1 : ∑ j : SC.Idx, f j = ∑ r : Fin SC.numel, f (SC.rowMajor.symm r) := (SC.rowMajor.symm.sum_comp f).symm
  have h2 : ∑ r : Fin SC.numel, f (SC.rowMajor.symm r) = ∑ r : Fin (98 * 8192), g r.val := by
    refine Fintype.sum_equiv (finCongr (by rw [numel_SC])) _ _ fun r => ?_
    have hr : r.val < 802816 := numel_SC ▸ r.isLt
    rw [finCongr_apply, Fin.coe_cast, hg r.val hr]; rfl
  rw [h1, h2, sum_fin_mul 98 8192 g]
  have h3 := sum_fin_mul 2 49 (fun k => ∑ t : Fin 8192, g (k * 8192 + t.val))
  exact h3

end Cert.CellOrder

end
-- ==== Proof.KernelTotal.lean ====
/-
  The kernel's result. On each core the accumulator, reset at the core's first step, holds after step `s` the sum of
  the tile sums of the core's steps `0 … s` (by induction on the grid point); at the core's last step the output
  block receives that sum times the reciprocal of the batch size, and is written back then and only then. The host
  adds the two cores' blocks. A tile's cell `t` at grid point `k` is row `8192 k + t` of the reshaped argument,
  that is the cell with that row-major number.
-/
import proofs.«160516_j55164559950272_2_alg».proof.Proof.KernelAcc
import proofs.«160516_j55164559950272_2_alg».proof.Proof.CellOrder
import Idealize.ShloMosaic.Lib.Pipeline.Value
import Idealize.ShloMosaic.Lib.IdealHost
import Idealize.ShloMosaic.Lib.StableHlo.Run

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Acc Cert.KernelIdeal.Row Cert.Yolo Cert.CellOrder
  Idealize.ShloMosaic.ValueIdx

variable (m : (ℓ : Loc nD τ sig) → Buf (Elt Ideal) ℓ) (ρ : Dev nD → PrngReg) (c : Dev nD)

theorem hN : cfg0.N = 98 := N_0

/-! ## The accumulator, point by point -/

/-- The sum of the cell totals of the tile at grid point `t`. -/
def tileSum (t : Fin cfg0.N) : EReal :=
  ∑ r : Fin 8192, cellTotal (prow (iblk m c 0 t) r) (prow (iblk m c 1 t) r)

/-- The same by the point's number, zero past the grid. -/
def tileN (k : ℕ) : EReal := if h : k < cfg0.N then tileSum m c ⟨k, h⟩ else 0

/-- The accumulator after point `t`: the tile's sum added to zero at a core's first step, to what the point before
    left otherwise. -/
theorem acc_step (t : Fin cfg0.N) :
    (outsAt0 m c t.val t.isLt).2 (ix2 (0 : Fin 1) (0 : Fin 1))
      = (if t.val % 49 = 0 then c0
          else (outsAt0 m c (t.val - 1) (Nat.lt_of_le_of_lt (Nat.sub_le _ _) t.isLt)).2 (ix2 (0 : Fin 1) (0 : Fin 1)))
        + tileSum m c t := by
  by_cases h0 : t.val % 49 = 0
  · have h1 : ¬t.val % 49 = 48 := by omega
    rw [outsAt0_A m c t h0 h1, if_pos h0]
    dsimp only
    rw [acc_A c (grid0.coords t) (ms0_0 t) (hs0_0 t) (ms0_1 t) (hs0_1 t) (ms0_2 t) (hs0_2 t) scM0_0
      (Memref.isWhole_whole _) ((hcond0_0 t).mpr h0) (fun h => h1 ((hcond0_1 t).mp h)) (iblk m c 0 t) (iblk m c 1 t)]
    rw [blockAcc_apply (iblk m c 0 t) (iblk m c 1 t) (k0_pay1 (F := Ideal)), pay1_row]
    rfl
  · rw [if_neg h0]
    by_cases h1 : t.val % 49 = 48
    · rw [outsAt0_C m c t h0 h1]
      dsimp only
      rw [acc_C c (grid0.coords t) (ms0_0 t) (hs0_0 t) (ms0_1 t) (hs0_1 t) (ms0_2 t) (hs0_2 t) scM0_0
        (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2]
      rw [blockAcc_apply (iblk m c 0 t) (iblk m c 1 t)
        (outsAt0 m c (t.val - 1) (Nat.lt_of_le_of_lt (Nat.sub_le _ _) t.isLt)).2]
      rfl
    · rw [outsAt0_B m c t h0 h1]
      dsimp only
      rw [acc_B c (grid0.coords t) (ms0_0 t) (hs0_0 t) (ms0_1 t) (hs0_1 t) (ms0_2 t) (hs0_2 t) scM0_0
        (Memref.isWhole_whole _) (fun h => h0 ((hcond0_0 t).mp h)) (fun h => h1 ((hcond0_1 t).mp h)) (iblk m c 0 t)
        (iblk m c 1 t) (outsAt0 m c (t.val - 1) (Nat.lt_of_le_of_lt (Nat.sub_le _ _) t.isLt)).2]
      rw [blockAcc_apply (iblk m c 0 t) (iblk m c 1 t)
        (outsAt0 m c (t.val - 1) (Nat.lt_of_le_of_lt (Nat.sub_le _ _) t.isLt)).2]
      rfl

/-- At a core's last step the output block holds the accumulator scaled. -/
theorem out_step (t : Fin cfg0.N) (h0 : ¬t.val % 49 = 0) (h1 : t.val % 49 = 48) :
    (outsAt0 m c t.val t.isLt).1 (ix3 (0 : Fin 1) (0 : Fin 1) (0 : Fin 1))
      = (outsAt0 m c t.val t.isLt).2 (ix2 (0 : Fin 1) (0 : Fin 1)) * cInvN := by
  rw [outsAt0_C m c t h0 h1]
  dsimp only
  rw [out_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2,
    acc_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]
  exact pay3_row _

/-- The accumulator after point `n` is the sum of the tile sums of the core's steps so far. -/
theorem acc_closed : ∀ (n : ℕ) (h : n < cfg0.N),
    (outsAt0 m c n h).2 (ix2 (0 : Fin 1) (0 : Fin 1))
      = ∑ j ∈ Finset.range (n % 49 + 1), tileN m c (n - n % 49 + j)
  | 0, h => by
    rw [acc_step m c ⟨0, h⟩]
    simp only [Nat.zero_mod, if_true, Finset.sum_range_one, Nat.sub_zero, Nat.add_zero, Nat.zero_add]
    rw [show (c0 : EReal) = 0 from c0_eq, zero_add]
    unfold tileN; rw [dif_pos h]
  | n + 1, h => by
    rw [acc_step m c ⟨n + 1, h⟩]
    by_cases h0 : (n + 1) % 49 = 0
    · simp only [h0, if_true, Nat.zero_add, Finset.sum_range_one, Nat.sub_zero, Nat.add_zero]
      rw [show (c0 : EReal) = 0 from c0_eq, zero_add]
      unfold tileN; rw [dif_pos h]
    · simp only [h0, if_false, Nat.add_sub_cancel]
      rw [acc_closed n (Nat.lt_of_succ_lt h)]
      have hm : (n + 1) % 49 = n % 49 + 1 := by omega
      have hs : n + 1 - (n % 49 + 1) = n - n % 49 := by omega
      rw [hm, hs, Finset.sum_range_succ _ (n % 49 + 1)]
      have hk : n - n % 49 + (n % 49 + 1) = n + 1 := by omega
      rw [hk]
      unfold tileN; rw [dif_pos h]

/-! ## The output array and the host's sum of it -/

/-- The sum of the tile sums of core `q`'s forty-nine steps. -/
def coreSum (q : ℕ) : EReal := ∑ s ∈ Finset.range 49, tileN m c (49 * q + s)

/-- The output array: one scaled core sum per core. -/
def G : Buf (Elt Ideal) ((c : Thread nD τ).loc main_v2) := fun j => coreSum m c (j 0).val * cInvN

/-- The output window's block index is the core's number. -/
theorem out_index : ∀ t : Fin cfg0.N, win0_2.index t (0 : Fin 3) = t.val / 49 ∧ win0_2.index t (1 : Fin 3) = 0
    ∧ win0_2.index t (2 : Fin 3) = 0 :=
  (by decide +kernel : ∀ t : Fin grid0.N, win0_2.index t (0 : Fin 3) = t.val / 49 ∧ win0_2.index t (1 : Fin 3) = 0
    ∧ win0_2.index t (2 : Fin 3) = 0)

/-- What a core's last step writes back is its block of the output array. -/
theorem flushed_eq (t : Fin cfg0.N) (hf : (cfg0.win 2).flush t = true) :
    (dats m 0 c).flushed 2 t = ((cfg0.win 2).blk t).view.read (Elt Ideal) (G m c) := by
  have h48 : t.val % 49 = 48 := (flush0_2 t).mp hf
  have h0 : ¬t.val % 49 = 0 := by omega
  have hlt : t.val < 98 := lt_of_lt_of_eq t.isLt (hN)
  obtain ⟨e0, e1, e2⟩ := out_index t
  show (cfg0.win 2).cut (grid0.coords t) ((dats m 0 c).after 2 t) = _
  rw [after0_2]
  funext y
  rw [View.read_apply]
  have hy0 : (y 0).val < 1 := (y 0).isLt
  have hy1 : (y 1).val < 1 := (y 1).isLt
  have hy2 : (y 2).val < 1 := (y 2).isLt
  have hy : (y : S1x1x1.Idx) = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  show (outsAt0 m c t.val t.isLt).1 y = coreSum m c (win0_2.index t (0 : Fin 3) * 1 + 1 * (y 0).val) * cInvN
  rw [show (outsAt0 m c t.val t.isLt).1 y = (outsAt0 m c t.val t.isLt).1 (ix3 (0 : Fin 1) (0 : Fin 1) (0 : Fin 1)) from
    congrArg _ hy]
  rw [out_step m c t h0 h48, acc_closed m c t.val t.isLt]
  unfold coreSum
  have ha : t.val % 49 + 1 = 49 := by omega
  have hb : t.val - t.val % 49 = 49 * (win0_2.index t (0 : Fin 3) * 1 + 1 * (y 0).val) := by rw [e0]; omega
  rw [ha, hb]

/-- Every entry of the output array is some core's last step's block. -/
theorem cover (i : ((cfg0.win 2).arr.view.ref.ty.shape).Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  let t : Fin cfg0.N := ⟨49 * (i 0).val + 48, by rw [hN]; omega⟩
  obtain ⟨e0, e1, e2⟩ := out_index t
  have ht : t.val = 49 * (i 0).val + 48 := rfl
  refine ⟨t, (flush0_2 t).mpr (by rw [ht]; omega), ?_⟩
  show i ∈ ((View.whole main_v2).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1
              rw [e0, ht]; omega
  | ⟨1, _⟩ => show win0_2.index t (1 : Fin 3) * 1 ≤ (i 1).val ∧ (i 1).val < win0_2.index t (1 : Fin 3) * 1 + 1
              rw [e1]; omega
  | ⟨2, _⟩ => show win0_2.index t (2 : Fin 3) * 1 ≤ (i 2).val ∧ (i 2).val < win0_2.index t (2 : Fin 3) * 1 + 1
              rw [e2]; omega

/-- The output array after the run. -/
theorem final : (dats m 0 c).arrAt 2 cfg0.N = G m c :=
  (dats m 0 c).arrAt_eq_of_cover 2 (G m c) (flushed_eq m c) cover

/-- A sum over the two cores' entries of the output array. -/
theorem sum_two (f : ℕ → EReal) : ∑ i : S2x1x1.Idx, f (i 0).val = f 0 + f 1 := by
  have hn : S2x1x1.numel = 2 := by simp [Shape.numel, Fin.prod_univ_succ]
  have hc : ∀ r : Fin S2x1x1.numel, ((S2x1x1.rowMajor.symm r) 0).val = r.val := fun r => by
    have h := congrArg Fin.val (S2x1x1.rowMajor.apply_symm_apply r)
    rw [Shape.rowMajor_val_three] at h
    have h1 : ((S2x1x1.rowMajor.symm r) 1).val < 1 := ((S2x1x1.rowMajor.symm r) 1).isLt
    have h2 : ((S2x1x1.rowMajor.symm r) 2).val < 1 := ((S2x1x1.rowMajor.symm r) 2).isLt
    have h' : (((S2x1x1.rowMajor.symm r) 0).val * 1 + ((S2x1x1.rowMajor.symm r) 1).val) * 1
        + ((S2x1x1.rowMajor.symm r) 2).val = r.val := h
    omega
  rw [← S2x1x1.rowMajor.symm.sum_comp fun i => f (i 0).val]
  simp only [hc]
  rw [Fintype.sum_equiv (finCongr hn) (fun r : Fin S2x1x1.numel => f r.val) (fun r : Fin 2 => f r.val)
    (fun r => by rw [finCongr_apply, Fin.coe_cast]), Fin.sum_univ_two]
  rfl

/-- The kernel's result: the host adds the two cores' scaled sums. -/
theorem result_eq :
    Pipeline.afterTail₀ cfgs (dats m) 0 (V0 m) [hostOps1] c main_v3
      = fun _ => coreSum m c 0 * cInvN + coreSum m c 1 * cInvN := by
  unfold Pipeline.afterTail₀
  show StableHlo.after hostOps1 _ (Proc.devRef .tc main_v3) = _
  after_results
  rw [(Pipeline.withArrays_arr spec0 launch0.win.arr_inj c _ _ 2).trans (final m c)]
  funext j
  rw [hostReduceAdd_apply, Ideal.hostReduceAdd_total _ (fun b => b.elim0)]
  rw [show (constant (F := Ideal) S_ .f32 0x00000000#32) (Shape.Idx.first h_S_) = 0 from c0_eq, zero_add]
  exact sum_two (fun q => coreSum m c q * cInvN)

end Cert.KernelIdeal.Total

end
-- ==== Proof.KernelCells.lean ====
/-
  The kernel's result over the cells. The tile at grid point `k` is rows `8192 k … 8192 k + 8191` of the argument
  reshaped to one row per cell, so its cell `t` is the cell with row-major number `8192 k + t`; the two cores' steps
  run through all 802816 cells once. Hence the kernel's result is the sum of every cell's total, times the reciprocal
  of the batch size (a nonnegative real, which distributes over the two cores' sums).
-/
import proofs.«160516_j55164559950272_2_alg».proof.Proof.KernelTotal

noncomputable section

open Idealize.ShloMosaic Idealize.ShloMosaic.TcCoe Idealize.SL.Sem

namespace Cert.KernelIdeal.Cells

open Cert.KernelIdeal Cert.KernelIdeal.Gen Cert.KernelIdeal.Acc Cert.KernelIdeal.Row Cert.KernelIdeal.Total Cert.Yolo
  Cert.CellOrder Idealize.ShloMosaic.ValueIdx

variable (m : (ℓ : Loc nD τ sig) → Buf (Elt Ideal) ℓ) (c : Dev nD)

/-- An argument array: thirty channels per cell. -/
abbrev Arr := (⟨S16384x7x7x30, .f32⟩ : BufTy).Contents (Elt Ideal)

/-- The channels of cell `j`. -/
abbrev pcj (x : Arr) (j : SC.Idx) : Fin 30 → EReal := fun ch => x (ix4 (j 0) (j 1) (j 2) ch)

/-- The total of the cell with row-major number `r`, zero past the last cell. -/
def cellG (x0 x1 : Arr) (r : ℕ) : EReal :=
  if h : r < 802816 then cellTotal (pcj x0 (cellOf r h)) (pcj x1 (cellOf r h)) else 0

/-- The input windows' block index is the grid point's number. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The region finds the predictions reshaped to one row per cell. -/
theorem V_v0 : (V m c main_v0 : S802816x30.Idx → EReal)
    = shapeCast S802816x30 (m ((c : Thread nD τ).loc main_arg0)) shapeCasts_S16384x7x7x30_S802816x30 := by
  show StableHlo.after hostOps0 (fun b => m (c, b)) (Proc.devRef .tc main_v0) = _
  after_results; rfl

/-- The region finds the labels reshaped to one row per cell. -/
theorem V_v1 : (V m c main_v1 : S802816x30.Idx → EReal)
    = shapeCast S802816x30 (m ((c : Thread nD τ).loc main_arg1)) shapeCasts_S16384x7x7x30_S802816x30 := by
  show StableHlo.after hostOps0 (fun b => m (c, b)) (Proc.devRef .tc main_v1) = _
  after_results; rfl

/-- Row `r`, channel `ch` of the reshaped array is channel `ch` of the cell numbered `r`. -/
theorem reshaped_read (x : Arr) (r : ℕ) (hr : r < 802816) (ch : Fin 30) (j : S802816x30.Idx)
    (hj0 : (j 0).val = r) (hj1 : (j 1).val = ch.val) :
    shapeCast S802816x30 x shapeCasts_S16384x7x7x30_S802816x30 j = pcj x (cellOf r hr) ch := by
  refine shapeCast_apply _ _ _ _ ?_
  rw [Shape.rowMajor_val_four, Shape.rowMajor_val_two]
  have hc := cellOf_coords r hr
  show ((((cellOf r hr) 0).val * 7 + ((cellOf r hr) 1).val) * 7 + ((cellOf r hr) 2).val) * 30 + ch.val
      = (j 0).val * 30 + (j 1).val
  rw [hc, hj0, hj1]

theorem iblk0_read (k : Fin cfg0.N) (t : Fin 8192) (ch : Fin 30) (hr : k.val * 8192 + t.val < 802816) :
    iblk m c 0 k (ix2 t ch) = pcj (m ((c : Thread nD τ).loc main_arg0)) (cellOf _ hr) ch := by
  obtain ⟨e0, e1, -, -⟩ := in_index k
  unfold iblk
  rw [View.read_apply]
  show V m c main_v0 (((cfg0.win 0).blk k).view.emb (ix2 t ch)) = _
  rw [V_v0]
  refine reshaped_read _ _ hr ch _ ?_ ?_
  · show win0_0.index k (0 : Fin 2) * 8192 + 1 * t.val = _; rw [e0]; omega
  · show win0_0.index k (1 : Fin 2) * 30 + 1 * ch.val = _; rw [e1]; omega

theorem iblk1_read (k : Fin cfg0.N) (t : Fin 8192) (ch : Fin 30) (hr : k.val * 8192 + t.val < 802816) :
    iblk m c 1 k (ix2 t ch) = pcj (m ((c : Thread nD τ).loc main_arg1)) (cellOf _ hr) ch := by
  obtain ⟨-, -, e0, e1⟩ := in_index k
  unfold iblk
  rw [View.read_apply]
  show V m c main_v1 (((cfg0.win 1).blk k).view.emb (ix2 t ch)) = _
  rw [V_v1]
  refine reshaped_read _ _ hr ch _ ?_ ?_
  · show win0_1.index k (0 : Fin 2) * 8192 + 1 * t.val = _; rw [e0]; omega
  · show win0_1.index k (1 : Fin 2) * 30 + 1 * ch.val = _; rw [e1]; omega

/-- A tile's sum is the sum of its cells' totals, by the cells' numbers. -/
theorem tile_cells (k : Fin cfg0.N) :
    tileSum m c k = ∑ t : Fin 8192,
      cellG (m ((c : Thread nD τ).loc main_arg0)) (m ((c : Thread nD τ).loc main_arg1)) (k.val * 8192 + t.val) := by
  unfold tileSum
  refine Finset.sum_congr rfl fun t _ => ?_
  have hr : k.val * 8192 + t.val < 802816 := by have := lt_of_lt_of_eq k.isLt hN; omega
  unfold cellG; rw [dif_pos hr]
  exact congrArg₂ cellTotal (funext fun ch => iblk0_read m c k t ch hr) (funext fun ch => iblk1_read m c k t ch hr)

/-- A core's sum over its steps' tiles. -/
theorem core_cells (q : Fin 2) :
    coreSum m c q.val = ∑ s : Fin 49, ∑ t : Fin 8192,
      cellG (m ((c : Thread nD τ).loc main_arg0)) (m ((c : Thread nD τ).loc main_arg1))
        ((q.val * 49 + s.val) * 8192 + t.val) := by
  unfold coreSum
  rw [Finset.sum_range]
  refine Finset.sum_congr rfl fun s _ => ?_
  have hk : 49 * q.val + s.val < cfg0.N := by rw [hN]; omega
  unfold tileN; rw [dif_pos hk, tile_cells]
  refine Finset.sum_congr rfl fun t _ => ?_
  show cellG _ _ ((49 * q.val + s.val) * 8192 + t.val) = _
  rw [Nat.mul_comm 49 q.val]

/-- The kernel's result: the sum of every cell's total, scaled. -/
theorem kernel_total :
    coreSum m c 0 * cInvN + coreSum m c 1 * cInvN
      = (∑ j : SC.Idx, cellTotal (pcj (m ((c : Thread nD τ).loc main_arg0)) j)
          (pcj (m ((c : Thread nD τ).loc main_arg1)) j)) * cInvN := by
  rw [sum_cells (fun j => cellTotal (pcj (m ((c : Thread nD τ).loc main_arg0)) j)
      (pcj (m ((c : Thread nD τ).loc main_arg1)) j))
    (cellG (m ((c : Thread nD τ).loc main_arg0)) (m ((c : Thread nD τ).loc main_arg1)))
    (fun r h => by unfold cellG; rw [dif_pos h])]
  rw [Fin.sum_univ_two, ← core_cells m c 0, ← core_cells m c 1]
  show coreSum m c 0 * Ideal.ofBits .f32 0x38800000#32 + coreSum m c 1 * Ideal.ofBits .f32 0x38800000#32
    = (coreSum m c 0 + coreSum m c 1) * Ideal.ofBits .f32 0x38800000#32
  rw [cInvN_eq, EReal.right_distrib_of_nonneg_of_ne_top (EReal.coe_nonneg.mpr (by norm_num)) (EReal.coe_ne_top _)]

end Cert.KernelIdeal.Cells

end
-- ==== Proof.RefRun.lean ====
/-
  The reference's program as a line of host operations, cut into consecutive pieces, and its run: every weakly fair
  execution of the reference terminates with each buffer at the fold of the line over the launch contents. The
  program is printed in windows of sixty statements; each window is its pieces run in order, and the whole program
  the windows run in order. (RefPieces.lean reads the fold back piece by piece.)
-/
import proofs.«160516_j55164559950272_2_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The pieces -/

/-- Operations 1 to 6 of the line. -/
abbrev q1 : List (HloOp τ sig (Elt F)) :=
  [ unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x3F800000#32),
    unary main_cst main_v2 (broadcastInDim S16384x7x7 ![] bcast_S_S16384x7x7 : (⟨S_, .f32⟩ : BufTy).Contents (Elt F) → (⟨S16384x7x7, .f32⟩ : BufTy).Contents (Elt F)),
    binary main_v1 main_v2 main_v3 (cmpf .oeq : (⟨S16384x7x7, .f32⟩ : BufTy).Contents (Elt F) → (⟨S16384x7x7, .f32⟩ : BufTy).Contents (Elt F) → (⟨S16384x7x7, .i1⟩ : BufTy).Contents (Elt F)),
    unary main_v3 main_v4 (noti : (⟨S16384x7x7, .i1⟩ : BufTy).Contents (Elt F) → (⟨S16384x7x7, .i1⟩ : BufTy).Contents (Elt F)) ]
theorem q1_sub : (q1 : List (HloOp τ sig (Elt F))).Forall fun op => op.bufs ⊆ tcRefs τ sig :=
  ⟨unary_bufs_sub .., reshape_bufs_sub .., nullary_bufs_sub .., unary_bufs_sub .., binary_bufs_sub .., unary_bufs_sub ..⟩
theorem q1_fresh : (q1 : List (HloOp τ sig (Elt F))).Forall fun op => op.fresh = ∅ :=
  ⟨rfl, rfl, rfl, rfl, rfl, rfl⟩
/-- The buffers these operations write, in order. -/
abbrev q1_W : List (Ref sig .tc) := [main_v0, main_v1, main_cst, main_v2, main_v3, main_v4]

/-- Operations 7 to 60 of the line. -/
abbrev q2 : List (HloOp τ sig (Elt F)) :=
  [ unary main_arg1 main_v5 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg0 main_v6 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v6 main_v7 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v7 main_v8 rfl shapeCasts_S16384x7x7x1_S16384x7x7,
    unary main_v6 main_v9 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v9 main_v10 rfl shapeCasts_S16384x7x7x1_S16384x7x7,
    binary main_v8 main_v10 main_v11 (mulf : (⟨S16384x7x7, .f32⟩ : BufTy).Contents (Elt F) → (⟨S16384x7x7, .f32⟩ : BufTy).Contents (Elt F) → (⟨S16384x7x7, .f32⟩ : BufTy).Contents (Elt F)),
    unary main_v5 main_v12 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v12 main_v13 rfl shapeCasts_S16384x7x7x1_S16384x7x7,
    unary main_v5 main_v14 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v14 main_v15 rfl shapeCasts_S16384x7x7x1_S16384x7x7,
    binary main_v13 main_v15 main_v16 (mulf : (⟨S16384x7x7, .f32⟩ : BufTy).Contents (Elt F) → (⟨S16384x7x7, .f32⟩ : BufTy).Contents (Elt F) → (⟨S16384x7x7, .f32⟩ : BufTy).Contents (Elt F)),
    unary main_v6 main_v17 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v17 main_v18 rfl shapeCasts_S16384x7x7x1_S16384x7x7,
    unary main_v6 main_v19 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v19 main_v20 rfl shapeCasts_S16384x7x7x1_S16384x7x7,
    nullary main_cst_0 (constant S_ .f32 0x40000000#32),
    unary main_cst_0 main_v21 (broadcastInDim S16384x7x7 ![] bcast_S_S16384x7x7 : (⟨S_, .f32⟩ : BufTy).Contents (Elt F) → (⟨S16384x7x7, .f32⟩ : BufTy).Contents (Elt F)),
    binary main_v20 main_v21 main_v22 (Host.divf : (⟨S16384x7x7, .f32⟩ : BufTy).Contents (Elt F) → (⟨S16384x7x7, .f32⟩ : BufTy).Contents (Elt F) → (⟨S16384x7x7, .f32⟩ : BufTy).Contents (Elt F)),
    binary main_v18 main_v22 main_v23 (subf : (⟨S16384x7x7, .f32⟩ : BufTy).Contents (Elt F) → (⟨S16384x7x7, .f32⟩ : BufTy).Contents (Elt F) → (⟨S16384x7x7, .f32⟩ : BufTy).Contents (Elt F)),
    unary main_v5 main_v24 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v24 main_v25 rfl shapeCasts_S16384x7x7x1_S16384x7x7,
    unary main_v5 main_v26 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v26 main_v27 rfl shapeCasts_S16384x7x7x1_S16384x7x7,
    nullary main_cst_1 (constant S_ .f32 0x40000000#32),
    unary main_cst_1 main_v28 (broadcastInDim S16384x7x7 ![] bcast_S_S16384x7x7 : (⟨S_, .f32⟩ : BufTy).Contents (Elt F) → (⟨S16384x7x7, .f32⟩ : BufTy).Contents (Elt F)),
    binary main_v27 main_v28 main_v29 (Host.divf : (⟨S16384x7x7, .f32⟩ : BufTy).Contents (Elt F) → (⟨S16384x7x7, .f32⟩ : BufTy).Contents (Elt F) → (⟨S16384x7x7, .f32⟩ : BufTy).Contents (Elt F)),
    binary main_v25 main_v29 main_v30 (subf : (⟨S16384x7x7, .f32⟩ : BufTy).Contents (Elt F) → (⟨S16384x7x7, .f32⟩ : BufTy).Contents (Elt F) → (⟨S16384x7x7, .f32⟩ : BufTy).Contents (Elt F)),
    binary main_v23 main_v30 main_v31 (maximumf : (⟨S16384x7x7, .f32⟩ : BufTy).Contents (Elt F) → (⟨S16384x7x7, .f32⟩ : BufTy).Contents (Elt F) → (⟨S16384x7x7, .f32⟩ : BufTy).Contents (Elt F)),
    unary main_v6 main_v32 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v32 main_v33 rfl shapeCasts_S16384x7x7x1_S16384x7x7,
    unary main_v6 main_v34 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v34 main_v35 rfl shapeCasts_S16384x7x7x1_S16384x7x7,
    nullary main_cst_2 (constant S_ .f32 0x40000000#32),
    unary main_cst_2 main_v36 (broadcastInDim S16384x7x7 ![] bcast_S_S16384x7x7 : (⟨S_, .f32⟩ : BufTy).Contents (Elt F) → (⟨S16384x7x7, .f32⟩ : BufTy).Contents (Elt F)),
    binary main_v35 main_v36 main_v37 (Host.divf : (⟨S16384x7x7, .f32⟩ : BufTy).Contents (Elt F) → (⟨S16384x7x7, .f32⟩ : BufTy).Contents (Elt F) → (⟨S16384x7x7, .f32⟩ : BufTy).Contents (Elt F)),
    binary main_v33 main_v37 main_v38 (addf : (⟨S16384x7x7, .f32⟩ : BufTy).Contents (Elt F) → (⟨S16384x7x7, .f32⟩ : BufTy).Contents (Elt F) → (⟨S16384x7x7, .f32⟩ : BufTy).Contents (Elt F)),
    unary main_v5 main_v39 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v39 main_v40 rfl shapeCasts_S16384x7x7x1_S16384x7x7,
    unary main_v5 main_v41 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v41 main_v42 rfl shapeCasts_S16384x7x7x1_S16384x7x7,
    nullary main_cst_3 (constant S_ .f32 0x40000000#32),
    unary main_cst_3 main_v43 (broadcastInDim S16384x7x7 ![] bcast_S_S16384x7x7 : (⟨S_, .f32⟩ : BufTy).Contents (Elt F) → (⟨S16384x7x7, .f32⟩ : BufTy).Contents (Elt F)),
    binary main_v42 main_v43 main_v44 (Host.divf : (⟨S16384x7x7, .f32⟩ : BufTy).Contents (Elt F) → (⟨S16384x7x7, .f32⟩ : BufTy).Contents (Elt F) → (⟨S16384x7x7, .f32⟩ : BufTy).Contents (Elt F)),
    binary main_v40 main_v44 main_v45 (addf : (⟨S16384x7x7, .f32⟩ : BufTy).Contents (Elt F) → (⟨S16384x7x7, .f32⟩ : BufTy).Contents (Elt F) → (⟨S16384x7x7, .f32⟩ : BufTy).Contents (Elt F)),
    binary main_v38 main_v45 main_v46 (minimumf : (⟨S16384x7x7, .f32⟩ : BufTy).Contents (Elt F) → (⟨S16384x7x7, .f32⟩ : BufTy).Contents (Elt F) → (⟨S16384x7x7, .f32⟩ : BufTy).Contents (Elt F)),
    unary main_v6 main_v47 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v47 main_v48 rfl shapeCasts_S16384x7x7x1_S16384x7x7,
    unary main_v6 main_v49 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v49 main_v50 rfl shapeCasts_S16384x7x7x1_S16384x7x7,
    nullary main_cst_4 (constant S_ .f32 0x40000000#32),
    unary main_cst_4 main_v51 (broadcastInDim S16384x7x7 ![] bcast_S_S16384x7x7 : (⟨S_, .f32⟩ : BufTy).Contents (Elt F) → (⟨S16384x7x7, .f32⟩ : BufTy).Contents (Elt F)),
    binary main_v50 main_v51 main_v52 (Host.divf : (⟨S16384x7x7, .f32⟩ : BufTy).Contents (Elt F) → (⟨S16384x7x7, .f32⟩ : BufTy).Contents (Elt F) → (⟨S16384x7x7, .f32⟩ : BufTy).Contents (Elt F)),
    binary main_v48 main_v52 main_v53 (subf : (⟨S16384x7x7, .f32⟩ : BufTy).Contents (Elt F) → (⟨S16384x7x7, .f32⟩ : BufTy).Contents (Elt F) → (⟨S16384x7x7, .f32⟩ : BufTy).Contents (Elt F)) ]
theorem q2_sub : (q2 : List (HloOp τ sig (Elt F))).Forall fun op => op.bufs ⊆ tcRefs τ sig :=
  ⟨unary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub ..⟩
theorem q2_fresh : (q2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev q2_W : List (Ref sig .tc) := [main_v5, main_v6, main_v7, main_v8, main_v9, main_v10, main_v11, main_v12, main_v13, main_v14, main_v15, main_v16, main_v17, main_v18, main_v19, main_v20, main_cst_0, main_v21, main_v22, main_v23, main_v24, main_v25, main_v26, main_v27, main_cst_1, main_v28, main_v29, main_v30, main_v31, main_v32, main_v33, main_v34, main_v35, main_cst_2, main_v36, main_v37, main_v38, main_v39, main_v40, main_v41, main_v42, main_cst_3, main_v43, main_v44, main_v45, main_v46, main_v47, main_v48, main_v49, main_v50, main_cst_4, main_v51, main_v52, main_v53]

/-- Operations 61 to 103 of the line. -/
abbrev q3 : List (HloOp τ sig (Elt F)) :=
  [ unary main_v5 main_v54 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v54 main_v55 rfl shapeCasts_S16384x7x7x1_S16384x7x7,
    unary main_v5 main_v56 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v56 main_v57 rfl shapeCasts_S16384x7x7x1_S16384x7x7,
    nullary main_cst_5 (constant S_ .f32 0x40000000#32),
    unary main_cst_5 main_v58 (broadcastInDim S16384x7x7 ![] bcast_S_S16384x7x7 : (⟨S_, .f32⟩ : BufTy).Contents (Elt F) → (⟨S16384x7x7, .f32⟩ : BufTy).Contents (Elt F)),
    binary main_v57 main_v58 main_v59 (Host.divf : (⟨S16384x7x7, .f32⟩ : BufTy).Contents (Elt F) → (⟨S16384x7x7, .f32⟩ : BufTy).Contents (Elt F) → (⟨S16384x7x7, .f32⟩ : BufTy).Contents (Elt F)),
    binary main_v55 main_v59 main_v60 (subf : (⟨S16384x7x7, .f32⟩ : BufTy).Contents (Elt F) → (⟨S16384x7x7, .f32⟩ : BufTy).Contents (Elt F) → (⟨S16384x7x7, .f32⟩ : BufTy).Contents (Elt F)),
    binary main_v53 main_v60 main_v61 (maximumf : (⟨S16384x7x7, .f32⟩ : BufTy).Contents (Elt F) → (⟨S16384x7x7, .f32⟩ : BufTy).Contents (Elt F) → (⟨S16384x7x7, .f32⟩ : BufTy).Contents (Elt F)),
    unary main_v6 main_v62 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v62 main_v63 rfl shapeCasts_S16384x7x7x1_S16384x7x7,
    unary main_v6 main_v64 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v64 main_v65 rfl shapeCasts_S16384x7x7x1_S16384x7x7,
    nullary main_cst_6 (constant S_ .f32 0x40000000#32),
    unary main_cst_6 main_v66 (broadcastInDim S16384x7x7 ![] bcast_S_S16384x7x7 : (⟨S_, .f32⟩ : BufTy).Contents (Elt F) → (⟨S16384x7x7, .f32⟩ : BufTy).Contents (Elt F)),
    binary main_v65 main_v66 main_v67 (Host.divf : (⟨S16384x7x7, .f32⟩ : BufTy).Contents (Elt F) → (⟨S16384x7x7, .f32⟩ : BufTy).Contents (Elt F) → (⟨S16384x7x7, .f32⟩ : BufTy).Contents (Elt F)),
    binary main_v63 main_v67 main_v68 (addf : (⟨S16384x7x7, .f32⟩ : BufTy).Contents (Elt F) → (⟨S16384x7x7, .f32⟩ : BufTy).Contents (Elt F) → (⟨S16384x7x7, .f32⟩ : BufTy).Contents (Elt F)),
    unary main_v5 main_v69 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v69 main_v70 rfl shapeCasts_S16384x7x7x1_S16384x7x7,
    unary main_v5 main_v71 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v71 main_v72 rfl shapeCasts_S16384x7x7x1_S16384x7x7,
    nullary main_cst_7 (constant S_ .f32 0x40000000#32),
    unary main_cst_7 main_v73 (broadcastInDim S16384x7x7 ![] bcast_S_S16384x7x7 : (⟨S_, .f32⟩ : BufTy).Contents (Elt F) → (⟨S16384x7x7, .f32⟩ : BufTy).Contents (Elt F)),
    binary main_v72 main_v73 main_v74 (Host.divf : (⟨S16384x7x7, .f32⟩ : BufTy).Contents (Elt F) → (⟨S16384x7x7, .f32⟩ : BufTy).Contents (Elt F) → (⟨S16384x7x7, .f32⟩ : BufTy).Contents (Elt F)),
    binary main_v70 main_v74 main_v75 (addf : (⟨S16384x7x7, .f32⟩ : BufTy).Contents (Elt F) → (⟨S16384x7x7, .f32⟩ : BufTy).Contents (Elt F) → (⟨S16384x7x7, .f32⟩ : BufTy).Contents (Elt F)),
    binary main_v68 main_v75 main_v76 (minimumf : (⟨S16384x7x7, .f32⟩ : BufTy).Contents (Elt F) → (⟨S16384x7x7, .f32⟩ : BufTy).Contents (Elt F) → (⟨S16384x7x7, .f32⟩ : BufTy).Contents (Elt F)),
    binary main_v46 main_v31 main_v77 (subf : (⟨S16384x7x7, .f32⟩ : BufTy).Contents (Elt F) → (⟨S16384x7x7, .f32⟩ : BufTy).Contents (Elt F) → (⟨S16384x7x7, .f32⟩ : BufTy).Contents (Elt F)),
    binary main_v76 main_v61 main_v78 (subf : (⟨S16384x7x7, .f32⟩ : BufTy).Contents (Elt F) → (⟨S16384x7x7, .f32⟩ : BufTy).Contents (Elt F) → (⟨S16384x7x7, .f32⟩ : BufTy).Contents (Elt F)),
    binary main_v77 main_v78 main_v79 (mulf : (⟨S16384x7x7, .f32⟩ : BufTy).Contents (Elt F) → (⟨S16384x7x7, .f32⟩ : BufTy).Contents (Elt F) → (⟨S16384x7x7, .f32⟩ : BufTy).Contents (Elt F)),
    binary main_v11 main_v16 main_v80 (addf : (⟨S16384x7x7, .f32⟩ : BufTy).Contents (Elt F) → (⟨S16384x7x7, .f32⟩ : BufTy).Contents (Elt F) → (⟨S16384x7x7, .f32⟩ : BufTy).Contents (Elt F)),
    binary main_v80 main_v79 main_v81 (subf : (⟨S16384x7x7, .f32⟩ : BufTy).Contents (Elt F) → (⟨S16384x7x7, .f32⟩ : BufTy).Contents (Elt F) → (⟨S16384x7x7, .f32⟩ : BufTy).Contents (Elt F)),
    binary main_v79 main_v81 main_v82 (Host.divf : (⟨S16384x7x7, .f32⟩ : BufTy).Contents (Elt F) → (⟨S16384x7x7, .f32⟩ : BufTy).Contents (Elt F) → (⟨S16384x7x7, .f32⟩ : BufTy).Contents (Elt F)),
    nullary main_cst_8 (constant S_ .f32 0x00000000#32),
    unary main_cst_8 main_v83 (broadcastInDim S16384x7x7 ![] bcast_S_S16384x7x7 : (⟨S_, .f32⟩ : BufTy).Contents (Elt F) → (⟨S16384x7x7, .f32⟩ : BufTy).Contents (Elt F)),
    binary main_v77 main_v83 main_v84 (cmpf .ogt : (⟨S16384x7x7, .f32⟩ : BufTy).Contents (Elt F) → (⟨S16384x7x7, .f32⟩ : BufTy).Contents (Elt F) → (⟨S16384x7x7, .i1⟩ : BufTy).Contents (Elt F)),
    nullary main_cst_9 (constant S_ .f32 0x00000000#32),
    unary main_cst_9 main_v85 (broadcastInDim S16384x7x7 ![] bcast_S_S16384x7x7 : (⟨S_, .f32⟩ : BufTy).Contents (Elt F) → (⟨S16384x7x7, .f32⟩ : BufTy).Contents (Elt F)),
    binary main_v78 main_v85 main_v86 (cmpf .ogt : (⟨S16384x7x7, .f32⟩ : BufTy).Contents (Elt F) → (⟨S16384x7x7, .f32⟩ : BufTy).Contents (Elt F) → (⟨S16384x7x7, .i1⟩ : BufTy).Contents (Elt F)),
    binary main_v84 main_v86 main_v87 (andi : (⟨S16384x7x7, .i1⟩ : BufTy).Contents (Elt F) → (⟨S16384x7x7, .i1⟩ : BufTy).Contents (Elt F) → (⟨S16384x7x7, .i1⟩ : BufTy).Contents (Elt F)),
    nullary main_cst_10 (constant S_ .f32 0x00000000#32),
    TRef.unary (TRef.of (T := ⟨S_, .f32⟩) main_cst_10) (TRef.of (T := ⟨S_, .f32⟩) main_call0_v0) id,
    TRef.unary (TRef.of (T := ⟨S_, .f32⟩) main_call0_v0) (TRef.of (T := ⟨S16384x7x7, .f32⟩) main_call0_v1) (broadcastInDim S16384x7x7 ![] bcast_S_S16384x7x7),
    TRef.ternary (TRef.of (T := ⟨S16384x7x7, .i1⟩) main_v87) (TRef.of (T := ⟨S16384x7x7, .f32⟩) main_v82) (TRef.of (T := ⟨S16384x7x7, .f32⟩) main_call0_v1) (TRef.of (T := ⟨S16384x7x7, .f32⟩) main_v88) select ]
theorem q3_sub : (q3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
theorem q3_fresh : (q3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev q3_W : List (Ref sig .tc) := [main_v54, main_v55, main_v56, main_v57, main_cst_5, main_v58, main_v59, main_v60, main_v61, main_v62, main_v63, main_v64, main_v65, main_cst_6, main_v66, main_v67, main_v68, main_v69, main_v70, main_v71, main_v72, main_cst_7, main_v73, main_v74, main_v75, main_v76, main_v77, main_v78, main_v79, main_v80, main_v81, main_v82, main_cst_8, main_v83, main_v84, main_cst_9, main_v85, main_v86, main_v87, main_cst_10, main_call0_v0, main_call0_v1, main_v88]

/-- Operations 104 to 122 of the line. -/
abbrev q4 : List (HloOp τ sig (Elt F)) :=
  [ unary main_arg0 main_v89 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)),
    unary main_v89 main_v90 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v90 main_v91 rfl shapeCasts_S16384x7x7x1_S16384x7x7,
    unary main_v89 main_v92 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v92 main_v93 rfl shapeCasts_S16384x7x7x1_S16384x7x7,
    binary main_v91 main_v93 main_v94 (mulf : (⟨S16384x7x7, .f32⟩ : BufTy).Contents (Elt F) → (⟨S16384x7x7, .f32⟩ : BufTy).Contents (Elt F) → (⟨S16384x7x7, .f32⟩ : BufTy).Contents (Elt F)),
    unary main_v5 main_v95 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v95 main_v96 rfl shapeCasts_S16384x7x7x1_S16384x7x7,
    unary main_v5 main_v97 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v97 main_v98 rfl shapeCasts_S16384x7x7x1_S16384x7x7,
    binary main_v96 main_v98 main_v99 (mulf : (⟨S16384x7x7, .f32⟩ : BufTy).Contents (Elt F) → (⟨S16384x7x7, .f32⟩ : BufTy).Contents (Elt F) → (⟨S16384x7x7, .f32⟩ : BufTy).Contents (Elt F)),
    unary main_v89 main_v100 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v100 main_v101 rfl shapeCasts_S16384x7x7x1_S16384x7x7,
    unary main_v89 main_v102 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v102 main_v103 rfl shapeCasts_S16384x7x7x1_S16384x7x7,
    nullary main_cst_11 (constant S_ .f32 0x40000000#32),
    unary main_cst_11 main_v104 (broadcastInDim S16384x7x7 ![] bcast_S_S16384x7x7 : (⟨S_, .f32⟩ : BufTy).Contents (Elt F) → (⟨S16384x7x7, .f32⟩ : BufTy).Contents (Elt F)),
    binary main_v103 main_v104 main_v105 (Host.divf : (⟨S16384x7x7, .f32⟩ : BufTy).Contents (Elt F) → (⟨S16384x7x7, .f32⟩ : BufTy).Contents (Elt F) → (⟨S16384x7x7, .f32⟩ : BufTy).Contents (Elt F)),
    binary main_v101 main_v105 main_v106 (subf : (⟨S16384x7x7, .f32⟩ : BufTy).Contents (Elt F) → (⟨S16384x7x7, .f32⟩ : BufTy).Contents (Elt F) → (⟨S16384x7x7, .f32⟩ : BufTy).Contents (Elt F)) ]
theorem q4_sub : (q4 : List (HloOp τ sig (Elt F))).Forall fun op => op.bufs ⊆ tcRefs τ sig :=
  ⟨unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., nullary_bufs_sub .., unary_bufs_sub .., binary_bufs_sub .., binary_bufs_sub ..⟩
theorem q4_fresh : (q4 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers these operations write, in order. -/
abbrev q4_W : List (Ref sig .tc) := [main_v89, main_v90, main_v91, main_v92, main_v93, main_v94, main_v95, main_v96, main_v97, main_v98, main_v99, main_v100, main_v101, main_v102, main_v103, main_cst_11, main_v104, main_v105, main_v106]

/-- Operations 123 to 182 of the line. -/
abbrev q5 : List (HloOp τ sig (Elt F)) :=
  [ unary main_v5 main_v107 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v107 main_v108 rfl shapeCasts_S16384x7x7x1_S16384x7x7,
    unary main_v5 main_v109 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v109 main_v110 rfl shapeCasts_S16384x7x7x1_S16384x7x7,
    nullary main_cst_12 (constant S_ .f32 0x40000000#32),
    unary main_cst_12 main_v111 (broadcastInDim S16384x7x7 ![] bcast_S_S16384x7x7 : (⟨S_, .f32⟩ : BufTy).Contents (Elt F) → (⟨S16384x7x7, .f32⟩ : BufTy).Contents (Elt F)),
    binary main_v110 main_v111 main_v112 (Host.divf : (⟨S16384x7x7, .f32⟩ : BufTy).Contents (Elt F) → (⟨S16384x7x7, .f32⟩ : BufTy).Contents (Elt F) → (⟨S16384x7x7, .f32⟩ : BufTy).Contents (Elt F)),
    binary main_v108 main_v112 main_v113 (subf : (⟨S16384x7x7, .f32⟩ : BufTy).Contents (Elt F) → (⟨S16384x7x7, .f32⟩ : BufTy).Contents (Elt F) → (⟨S16384x7x7, .f32⟩ : BufTy).Contents (Elt F)),
    binary main_v106 main_v113 main_v114 (maximumf : (⟨S16384x7x7, .f32⟩ : BufTy).Contents (Elt F) → (⟨S16384x7x7, .f32⟩ : BufTy).Contents (Elt F) → (⟨S16384x7x7, .f32⟩ : BufTy).Contents (Elt F)),
    unary main_v89 main_v115 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v115 main_v116 rfl shapeCasts_S16384x7x7x1_S16384x7x7,
    unary main_v89 main_v117 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v117 main_v118 rfl shapeCasts_S16384x7x7x1_S16384x7x7,
    nullary main_cst_13 (constant S_ .f32 0x40000000#32),
    unary main_cst_13 main_v119 (broadcastInDim S16384x7x7 ![] bcast_S_S16384x7x7 : (⟨S_, .f32⟩ : BufTy).Contents (Elt F) → (⟨S16384x7x7, .f32⟩ : BufTy).Contents (Elt F)),
    binary main_v118 main_v119 main_v120 (Host.divf : (⟨S16384x7x7, .f32⟩ : BufTy).Contents (Elt F) → (⟨S16384x7x7, .f32⟩ : BufTy).Contents (Elt F) → (⟨S16384x7x7, .f32⟩ : BufTy).Contents (Elt F)),
    binary main_v116 main_v120 main_v121 (addf : (⟨S16384x7x7, .f32⟩ : BufTy).Contents (Elt F) → (⟨S16384x7x7, .f32⟩ : BufTy).Contents (Elt F) → (⟨S16384x7x7, .f32⟩ : BufTy).Contents (Elt F)),
    unary main_v5 main_v122 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v122 main_v123 rfl shapeCasts_S16384x7x7x1_S16384x7x7,
    unary main_v5 main_v124 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v124 main_v125 rfl shapeCasts_S16384x7x7x1_S16384x7x7,
    nullary main_cst_14 (constant S_ .f32 0x40000000#32),
    unary main_cst_14 main_v126 (broadcastInDim S16384x7x7 ![] bcast_S_S16384x7x7 : (⟨S_, .f32⟩ : BufTy).Contents (Elt F) → (⟨S16384x7x7, .f32⟩ : BufTy).Contents (Elt F)),
    binary main_v125 main_v126 main_v127 (Host.divf : (⟨S16384x7x7, .f32⟩ : BufTy).Contents (Elt F) → (⟨S16384x7x7, .f32⟩ : BufTy).Contents (Elt F) → (⟨S16384x7x7, .f32⟩ : BufTy).Contents (Elt F)),
    binary main_v123 main_v127 main_v128 (addf : (⟨S16384x7x7, .f32⟩ : BufTy).Contents (Elt F) → (⟨S16384x7x7, .f32⟩ : BufTy).Contents (Elt F) → (⟨S16384x7x7, .f32⟩ : BufTy).Contents (Elt F)),
    binary main_v121 main_v128 main_v129 (minimumf : (⟨S16384x7x7, .f32⟩ : BufTy).Contents (Elt F) → (⟨S16384x7x7, .f32⟩ : BufTy).Contents (Elt F) → (⟨S16384x7x7, .f32⟩ : BufTy).Contents (Elt F)),
    unary main_v89 main_v130 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v130 main_v131 rfl shapeCasts_S16384x7x7x1_S16384x7x7,
    unary main_v89 main_v132 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v132 main_v133 rfl shapeCasts_S16384x7x7x1_S16384x7x7,
    nullary main_cst_15 (constant S_ .f32 0x40000000#32),
    unary main_cst_15 main_v134 (broadcastInDim S16384x7x7 ![] bcast_S_S16384x7x7 : (⟨S_, .f32⟩ : BufTy).Contents (Elt F) → (⟨S16384x7x7, .f32⟩ : BufTy).Contents (Elt F)),
    binary main_v133 main_v134 main_v135 (Host.divf : (⟨S16384x7x7, .f32⟩ : BufTy).Contents (Elt F) → (⟨S16384x7x7, .f32⟩ : BufTy).Contents (Elt F) → (⟨S16384x7x7, .f32⟩ : BufTy).Contents (Elt F)),
    binary main_v131 main_v135 main_v136 (subf : (⟨S16384x7x7, .f32⟩ : BufTy).Contents (Elt F) → (⟨S16384x7x7, .f32⟩ : BufTy).Contents (Elt F) → (⟨S16384x7x7, .f32⟩ : BufTy).Contents (Elt F)),
    unary main_v5 main_v137 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v137 main_v138 rfl shapeCasts_S16384x7x7x1_S16384x7x7,
    unary main_v5 main_v139 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v139 main_v140 rfl shapeCasts_S16384x7x7x1_S16384x7x7,
    nullary main_cst_16 (constant S_ .f32 0x40000000#32),
    unary main_cst_16 main_v141 (broadcastInDim S16384x7x7 ![] bcast_S_S16384x7x7 : (⟨S_, .f32⟩ : BufTy).Contents (Elt F) → (⟨S16384x7x7, .f32⟩ : BufTy).Contents (Elt F)),
    binary main_v140 main_v141 main_v142 (Host.divf : (⟨S16384x7x7, .f32⟩ : BufTy).Contents (Elt F) → (⟨S16384x7x7, .f32⟩ : BufTy).Contents (Elt F) → (⟨S16384x7x7, .f32⟩ : BufTy).Contents (Elt F)),
    binary main_v138 main_v142 main_v143 (subf : (⟨S16384x7x7, .f32⟩ : BufTy).Contents (Elt F) → (⟨S16384x7x7, .f32⟩ : BufTy).Contents (Elt F) → (⟨S16384x7x7, .f32⟩ : BufTy).Contents (Elt F)),
    binary main_v136 main_v143 main_v144 (maximumf : (⟨S16384x7x7, .f32⟩ : BufTy).Contents (Elt F) → (⟨S16384x7x7, .f32⟩ : BufTy).Contents (Elt F) → (⟨S16384x7x7, .f32⟩ : BufTy).Contents (Elt F)),
    unary main_v89 main_v145 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v145 main_v146 rfl shapeCasts_S16384x7x7x1_S16384x7x7,
    unary main_v89 main_v147 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v147 main_v148 rfl shapeCasts_S16384x7x7x1_S16384x7x7,
    nullary main_cst_17 (constant S_ .f32 0x40000000#32),
    unary main_cst_17 main_v149 (broadcastInDim S16384x7x7 ![] bcast_S_S16384x7x7 : (⟨S_, .f32⟩ : BufTy).Contents (Elt F) → (⟨S16384x7x7, .f32⟩ : BufTy).Contents (Elt F)),
    binary main_v148 main_v149 main_v150 (Host.divf : (⟨S16384x7x7, .f32⟩ : BufTy).Contents (Elt F) → (⟨S16384x7x7, .f32⟩ : BufTy).Contents (Elt F) → (⟨S16384x7x7, .f32⟩ : BufTy).Contents (Elt F)),
    binary main_v146 main_v150 main_v151 (addf : (⟨S16384x7x7, .f32⟩ : BufTy).Contents (Elt F) → (⟨S16384x7x7, .f32⟩ : BufTy).Contents (Elt F) → (⟨S16384x7x7, .f32⟩ : BufTy).Contents (Elt F)),
    unary main_v5 main_v152 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v152 main_v153 rfl shapeCasts_S16384x7x7x1_S16384x7x7,
    unary main_v5 main_v154 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v154 main_v155 rfl shapeCasts_S16384x7x7x1_S16384x7x7,
    nullary main_cst_18 (constant S_ .f32 0x40000000#32),
    unary main_cst_18 main_v156 (broadcastInDim S16384x7x7 ![] bcast_S_S16384x7x7 : (⟨S_, .f32⟩ : BufTy).Contents (Elt F) → (⟨S16384x7x7, .f32⟩ : BufTy).Contents (Elt F)),
    binary main_v155 main_v156 main_v157 (Host.divf : (⟨S16384x7x7, .f32⟩ : BufTy).Contents (Elt F) → (⟨S16384x7x7, .f32⟩ : BufTy).Contents (Elt F) → (⟨S16384x7x7, .f32⟩ : BufTy).Contents (Elt F)),
    binary main_v153 main_v157 main_v158 (addf : (⟨S16384x7x7, .f32⟩ : BufTy).Contents (Elt F) → (⟨S16384x7x7, .f32⟩ : BufTy).Contents (Elt F) → (⟨S16384x7x7, .f32⟩ : BufTy).Contents (Elt F)),
    binary main_v151 main_v158 main_v159 (minimumf : (⟨S16384x7x7, .f32⟩ : BufTy).Contents (Elt F) → (⟨S16384x7x7, .f32⟩ : BufTy).Contents (Elt F) → (⟨S16384x7x7, .f32⟩ : BufTy).Contents (Elt F)) ]
theorem q5_sub : (q5 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub ..⟩
theorem q5_fresh : (q5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev q5_W : List (Ref sig .tc) := [main_v107, main_v108, main_v109, main_v110, main_cst_12, main_v111, main_v112, main_v113, main_v114, main_v115, main_v116, main_v117, main_v118, main_cst_13, main_v119, main_v120, main_v121, main_v122, main_v123, main_v124, main_v125, main_cst_14, main_v126, main_v127, main_v128, main_v129, main_v130, main_v131, main_v132, main_v133, main_cst_15, main_v134, main_v135, main_v136, main_v137, main_v138, main_v139, main_v140, main_cst_16, main_v141, main_v142, main_v143, main_v144, main_v145, main_v146, main_v147, main_v148, main_cst_17, main_v149, main_v150, main_v151, main_v152, main_v153, main_v154, main_v155, main_cst_18, main_v156, main_v157, main_v158, main_v159]

/-- Operations 183 to 199 of the line. -/
abbrev q6 : List (HloOp τ sig (Elt F)) :=
  [ binary main_v129 main_v114 main_v160 (subf : (⟨S16384x7x7, .f32⟩ : BufTy).Contents (Elt F) → (⟨S16384x7x7, .f32⟩ : BufTy).Contents (Elt F) → (⟨S16384x7x7, .f32⟩ : BufTy).Contents (Elt F)),
    binary main_v159 main_v144 main_v161 (subf : (⟨S16384x7x7, .f32⟩ : BufTy).Contents (Elt F) → (⟨S16384x7x7, .f32⟩ : BufTy).Contents (Elt F) → (⟨S16384x7x7, .f32⟩ : BufTy).Contents (Elt F)),
    binary main_v160 main_v161 main_v162 (mulf : (⟨S16384x7x7, .f32⟩ : BufTy).Contents (Elt F) → (⟨S16384x7x7, .f32⟩ : BufTy).Contents (Elt F) → (⟨S16384x7x7, .f32⟩ : BufTy).Contents (Elt F)),
    binary main_v94 main_v99 main_v163 (addf : (⟨S16384x7x7, .f32⟩ : BufTy).Contents (Elt F) → (⟨S16384x7x7, .f32⟩ : BufTy).Contents (Elt F) → (⟨S16384x7x7, .f32⟩ : BufTy).Contents (Elt F)),
    binary main_v163 main_v162 main_v164 (subf : (⟨S16384x7x7, .f32⟩ : BufTy).Contents (Elt F) → (⟨S16384x7x7, .f32⟩ : BufTy).Contents (Elt F) → (⟨S16384x7x7, .f32⟩ : BufTy).Contents (Elt F)),
    binary main_v162 main_v164 main_v165 (Host.divf : (⟨S16384x7x7, .f32⟩ : BufTy).Contents (Elt F) → (⟨S16384x7x7, .f32⟩ : BufTy).Contents (Elt F) → (⟨S16384x7x7, .f32⟩ : BufTy).Contents (Elt F)),
    nullary main_cst_19 (constant S_ .f32 0x00000000#32),
    unary main_cst_19 main_v166 (broadcastInDim S16384x7x7 ![] bcast_S_S16384x7x7 : (⟨S_, .f32⟩ : BufTy).Contents (Elt F) → (⟨S16384x7x7, .f32⟩ : BufTy).Contents (Elt F)),
    binary main_v160 main_v166 main_v167 (cmpf .ogt : (⟨S16384x7x7, .f32⟩ : BufTy).Contents (Elt F) → (⟨S16384x7x7, .f32⟩ : BufTy).Contents (Elt F) → (⟨S16384x7x7, .i1⟩ : BufTy).Contents (Elt F)),
    nullary main_cst_20 (constant S_ .f32 0x00000000#32),
    unary main_cst_20 main_v168 (broadcastInDim S16384x7x7 ![] bcast_S_S16384x7x7 : (⟨S_, .f32⟩ : BufTy).Contents (Elt F) → (⟨S16384x7x7, .f32⟩ : BufTy).Contents (Elt F)),
    binary main_v161 main_v168 main_v169 (cmpf .ogt : (⟨S16384x7x7, .f32⟩ : BufTy).Contents (Elt F) → (⟨S16384x7x7, .f32⟩ : BufTy).Contents (Elt F) → (⟨S16384x7x7, .i1⟩ : BufTy).Contents (Elt F)),
    binary main_v167 main_v169 main_v170 (andi : (⟨S16384x7x7, .i1⟩ : BufTy).Contents (Elt F) → (⟨S16384x7x7, .i1⟩ : BufTy).Contents (Elt F) → (⟨S16384x7x7, .i1⟩ : BufTy).Contents (Elt F)),
    nullary main_cst_21 (constant S_ .f32 0x00000000#32),
    TRef.unary (TRef.of (T := ⟨S_, .f32⟩) main_cst_21) (TRef.of (T := ⟨S_, .f32⟩) main_call1_v0) id,
    TRef.unary (TRef.of (T := ⟨S_, .f32⟩) main_call1_v0) (TRef.of (T := ⟨S16384x7x7, .f32⟩) main_call1_v1) (broadcastInDim S16384x7x7 ![] bcast_S_S16384x7x7),
    TRef.ternary (TRef.of (T := ⟨S16384x7x7, .i1⟩) main_v170) (TRef.of (T := ⟨S16384x7x7, .f32⟩) main_v165) (TRef.of (T := ⟨S16384x7x7, .f32⟩) main_call1_v1) (TRef.of (T := ⟨S16384x7x7, .f32⟩) main_v171) select ]
theorem q6_sub : (q6 : List (HloOp τ sig (Elt F))).Forall fun op => op.bufs ⊆ tcRefs τ sig :=
  ⟨binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
theorem q6_fresh : (q6 : List (HloOp τ sig (Elt F))).Forall fun op => op.fresh = ∅ :=
  ⟨rfl, rfl, rfl, rfl, rfl, rfl, rfl, rfl, rfl, rfl, rfl, rfl, rfl, rfl, rfl, rfl, rfl⟩
/-- The buffers these operations write, in order. -/
abbrev q6_W : List (Ref sig .tc) := [main_v160, main_v161, main_v162, main_v163, main_v164, main_v165, main_cst_19, main_v166, main_v167, main_cst_20, main_v168, main_v169, main_v170, main_cst_21, main_call1_v0, main_call1_v1, main_v171]

/-- Operations 200 to 205 of the line. -/
abbrev q7 : List (HloOp τ sig (Elt F)) :=
  [ binary main_v88 main_v171 main_v172 (cmpf .ogt : (⟨S16384x7x7, .f32⟩ : BufTy).Contents (Elt F) → (⟨S16384x7x7, .f32⟩ : BufTy).Contents (Elt F) → (⟨S16384x7x7, .i1⟩ : BufTy).Contents (Elt F)),
    unary main_v3 main_v173 (uitofp .f32 : (⟨S16384x7x7, .i1⟩ : BufTy).Contents (Elt F) → (⟨S16384x7x7, .f32⟩ : BufTy).Contents (Elt F)),
    unary main_v172 main_v174 (uitofp .f32 : (⟨S16384x7x7, .i1⟩ : BufTy).Contents (Elt F) → (⟨S16384x7x7, .f32⟩ : BufTy).Contents (Elt F)),
    nullary main_cst_22 (constant S_ .f32 0x3F800000#32),
    unary main_cst_22 main_v175 (broadcastInDim S16384x7x7 ![] bcast_S_S16384x7x7 : (⟨S_, .f32⟩ : BufTy).Contents (Elt F) → (⟨S16384x7x7, .f32⟩ : BufTy).Contents (Elt F)),
    binary main_v175 main_v174 main_v176 (subf : (⟨S16384x7x7, .f32⟩ : BufTy).Contents (Elt F) → (⟨S16384x7x7, .f32⟩ : BufTy).Contents (Elt F) → (⟨S16384x7x7, .f32⟩ : BufTy).Contents (Elt F)) ]
theorem q7_sub : (q7 : List (HloOp τ sig (Elt F))).Forall fun op => op.bufs ⊆ tcRefs τ sig :=
  ⟨binary_bufs_sub .., unary_bufs_sub .., unary_bufs_sub .., nullary_bufs_sub .., unary_bufs_sub .., binary_bufs_sub ..⟩
theorem q7_fresh : (q7 : List (HloOp τ sig (Elt F))).Forall fun op => op.fresh = ∅ :=
  ⟨rfl, rfl, rfl, rfl, rfl, rfl⟩
/-- The buffers these operations write, in order. -/
abbrev q7_W : List (Ref sig .tc) := [main_v172, main_v173, main_v174, main_cst_22, main_v175, main_v176]

/-- Operations 206 to 225 of the line. -/
abbrev q8 : List (HloOp τ sig (Elt F)) :=
  [ unary main_arg1 main_v177 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    unary main_arg0 main_v178 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    binary main_v177 main_v178 main_v179 (subf : (⟨S16384x7x7x2, .f32⟩ : BufTy).Contents (Elt F) → (⟨S16384x7x7x2, .f32⟩ : BufTy).Contents (Elt F) → (⟨S16384x7x7x2, .f32⟩ : BufTy).Contents (Elt F)),
    binary main_v179 main_v179 main_v180 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_23 (constant S_ .f32 0x00000000#32),
    binary main_v180 main_cst_23 main_v181 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    unary main_arg1 main_v182 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    unary main_arg0 main_v183 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    binary main_v182 main_v183 main_v184 (subf : (⟨S16384x7x7x2, .f32⟩ : BufTy).Contents (Elt F) → (⟨S16384x7x7x2, .f32⟩ : BufTy).Contents (Elt F) → (⟨S16384x7x7x2, .f32⟩ : BufTy).Contents (Elt F)),
    binary main_v184 main_v184 main_v185 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_24 (constant S_ .f32 0x00000000#32),
    binary main_v185 main_cst_24 main_v186 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    binary main_v174 main_v181 main_v187 (mulf : (⟨S16384x7x7, .f32⟩ : BufTy).Contents (Elt F) → (⟨S16384x7x7, .f32⟩ : BufTy).Contents (Elt F) → (⟨S16384x7x7, .f32⟩ : BufTy).Contents (Elt F)),
    binary main_v176 main_v186 main_v188 (mulf : (⟨S16384x7x7, .f32⟩ : BufTy).Contents (Elt F) → (⟨S16384x7x7, .f32⟩ : BufTy).Contents (Elt F) → (⟨S16384x7x7, .f32⟩ : BufTy).Contents (Elt F)),
    binary main_v187 main_v188 main_v189 (addf : (⟨S16384x7x7, .f32⟩ : BufTy).Contents (Elt F) → (⟨S16384x7x7, .f32⟩ : BufTy).Contents (Elt F) → (⟨S16384x7x7, .f32⟩ : BufTy).Contents (Elt F)),
    binary main_v173 main_v189 main_v190 (mulf : (⟨S16384x7x7, .f32⟩ : BufTy).Contents (Elt F) → (⟨S16384x7x7, .f32⟩ : BufTy).Contents (Elt F) → (⟨S16384x7x7, .f32⟩ : BufTy).Contents (Elt F)),
    nullary main_cst_25 (constant S_ .f32 0x00000000#32),
    binary main_v190 main_cst_25 main_v191 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_26 (constant S_ .f32 0x40A00000#32),
    binary main_cst_26 main_v191 main_v192 (mulf : (⟨S_, .f32⟩ : BufTy).Contents (Elt F) → (⟨S_, .f32⟩ : BufTy).Contents (Elt F) → (⟨S_, .f32⟩ : BufTy).Contents (Elt F)) ]
theorem q8_sub : (q8 : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., binary_bufs_sub .., binary_bufs_sub .., binary_bufs_sub .., binary_bufs_sub .., nullary_bufs_sub .., binary_bufs_sub .., nullary_bufs_sub .., binary_bufs_sub ..⟩
theorem q8_fresh : (q8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers these operations write, in order. -/
abbrev q8_W : List (Ref sig .tc) := [main_v177, main_v178, main_v179, main_v180, main_cst_23, main_v181, main_v182, main_v183, main_v184, main_v185, main_cst_24, main_v186, main_v187, main_v188, main_v189, main_v190, main_cst_25, main_v191, main_cst_26, main_v192]

/-- Operations 226 to 244 of the line. -/
abbrev q9 : List (HloOp τ sig (Elt F)) :=
  [ unary main_arg1 main_v193 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v193 main_v194 (Host.sqrt : (⟨S16384x7x7x2, .f32⟩ : BufTy).Contents (Elt F) → (⟨S16384x7x7x2, .f32⟩ : BufTy).Contents (Elt F)),
    unary main_arg0 main_v195 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v195 main_v196 (Host.sqrt : (⟨S16384x7x7x2, .f32⟩ : BufTy).Contents (Elt F) → (⟨S16384x7x7x2, .f32⟩ : BufTy).Contents (Elt F)),
    binary main_v194 main_v196 main_v197 (subf : (⟨S16384x7x7x2, .f32⟩ : BufTy).Contents (Elt F) → (⟨S16384x7x7x2, .f32⟩ : BufTy).Contents (Elt F) → (⟨S16384x7x7x2, .f32⟩ : BufTy).Contents (Elt F)),
    binary main_v197 main_v197 main_v198 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_27 (constant S_ .f32 0x00000000#32),
    binary main_v198 main_cst_27 main_v199 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    unary main_arg1 main_v200 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v200 main_v201 (Host.sqrt : (⟨S16384x7x7x2, .f32⟩ : BufTy).Contents (Elt F) → (⟨S16384x7x7x2, .f32⟩ : BufTy).Contents (Elt F)),
    unary main_arg0 main_v202 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v202 main_v203 (Host.sqrt : (⟨S16384x7x7x2, .f32⟩ : BufTy).Contents (Elt F) → (⟨S16384x7x7x2, .f32⟩ : BufTy).Contents (Elt F)),
    binary main_v201 main_v203 main_v204 (subf : (⟨S16384x7x7x2, .f32⟩ : BufTy).Contents (Elt F) → (⟨S16384x7x7x2, .f32⟩ : BufTy).Contents (Elt F) → (⟨S16384x7x7x2, .f32⟩ : BufTy).Contents (Elt F)),
    binary main_v204 main_v204 main_v205 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_28 (constant S_ .f32 0x00000000#32),
    binary main_v205 main_cst_28 main_v206 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    binary main_v174 main_v199 main_v207 (mulf : (⟨S16384x7x7, .f32⟩ : BufTy).Contents (Elt F) → (⟨S16384x7x7, .f32⟩ : BufTy).Contents (Elt F) → (⟨S16384x7x7, .f32⟩ : BufTy).Contents (Elt F)),
    binary main_v176 main_v206 main_v208 (mulf : (⟨S16384x7x7, .f32⟩ : BufTy).Contents (Elt F) → (⟨S16384x7x7, .f32⟩ : BufTy).Contents (Elt F) → (⟨S16384x7x7, .f32⟩ : BufTy).Contents (Elt F)),
    binary main_v207 main_v208 main_v209 (addf : (⟨S16384x7x7, .f32⟩ : BufTy).Contents (Elt F) → (⟨S16384x7x7, .f32⟩ : BufTy).Contents (Elt F) → (⟨S16384x7x7, .f32⟩ : BufTy).Contents (Elt F)) ]
theorem q9_sub : (q9 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., binary_bufs_sub .., binary_bufs_sub .., binary_bufs_sub .., binary_bufs_sub ..⟩
theorem q9_fresh : (q9 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers these operations write, in order. -/
abbrev q9_W : List (Ref sig .tc) := [main_v193, main_v194, main_v195, main_v196, main_v197, main_v198, main_cst_27, main_v199, main_v200, main_v201, main_v202, main_v203, main_v204, main_v205, main_cst_28, main_v206, main_v207, main_v208, main_v209]

/-- Operations 245 to 247 of the line. -/
abbrev q10 : List (HloOp τ sig (Elt F)) :=
  [ binary main_v173 main_v209 main_v210 (mulf : (⟨S16384x7x7, .f32⟩ : BufTy).Contents (Elt F) → (⟨S16384x7x7, .f32⟩ : BufTy).Contents (Elt F) → (⟨S16384x7x7, .f32⟩ : BufTy).Contents (Elt F)),
    nullary main_cst_29 (constant S_ .f32 0x00000000#32),
    binary main_v210 main_cst_29 main_v211 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) ]
theorem q10_sub : (q10 : List (HloOp τ sig (Elt F))).Forall fun op => op.bufs ⊆ tcRefs τ sig :=
  ⟨binary_bufs_sub .., nullary_bufs_sub .., binary_bufs_sub ..⟩
theorem q10_fresh : (q10 : List (HloOp τ sig (Elt F))).Forall fun op => op.fresh = ∅ :=
  ⟨rfl, rfl, rfl⟩
/-- The buffers these operations write, in order. -/
abbrev q10_W : List (Ref sig .tc) := [main_v210, main_cst_29, main_v211]

/-- Operations 248 to 261 of the line. -/
abbrev q11 : List (HloOp τ sig (Elt F)) :=
  [ unary main_arg0 main_v212 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v212 main_v213 rfl shapeCasts_S16384x7x7x1_S16384x7x7,
    binary main_v88 main_v213 main_v214 (subf : (⟨S16384x7x7, .f32⟩ : BufTy).Contents (Elt F) → (⟨S16384x7x7, .f32⟩ : BufTy).Contents (Elt F) → (⟨S16384x7x7, .f32⟩ : BufTy).Contents (Elt F)),
    binary main_v214 main_v214 main_v215 (mulf : (⟨S16384x7x7, .f32⟩ : BufTy).Contents (Elt F) → (⟨S16384x7x7, .f32⟩ : BufTy).Contents (Elt F) → (⟨S16384x7x7, .f32⟩ : BufTy).Contents (Elt F)),
    unary main_arg0 main_v216 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v216 main_v217 rfl shapeCasts_S16384x7x7x1_S16384x7x7,
    binary main_v171 main_v217 main_v218 (subf : (⟨S16384x7x7, .f32⟩ : BufTy).Contents (Elt F) → (⟨S16384x7x7, .f32⟩ : BufTy).Contents (Elt F) → (⟨S16384x7x7, .f32⟩ : BufTy).Contents (Elt F)),
    binary main_v218 main_v218 main_v219 (mulf : (⟨S16384x7x7, .f32⟩ : BufTy).Contents (Elt F) → (⟨S16384x7x7, .f32⟩ : BufTy).Contents (Elt F) → (⟨S16384x7x7, .f32⟩ : BufTy).Contents (Elt F)),
    binary main_v174 main_v215 main_v220 (mulf : (⟨S16384x7x7, .f32⟩ : BufTy).Contents (Elt F) → (⟨S16384x7x7, .f32⟩ : BufTy).Contents (Elt F) → (⟨S16384x7x7, .f32⟩ : BufTy).Contents (Elt F)),
    binary main_v176 main_v219 main_v221 (mulf : (⟨S16384x7x7, .f32⟩ : BufTy).Contents (Elt F) → (⟨S16384x7x7, .f32⟩ : BufTy).Contents (Elt F) → (⟨S16384x7x7, .f32⟩ : BufTy).Contents (Elt F)),
    binary main_v220 main_v221 main_v222 (addf : (⟨S16384x7x7, .f32⟩ : BufTy).Contents (Elt F) → (⟨S16384x7x7, .f32⟩ : BufTy).Contents (Elt F) → (⟨S16384x7x7, .f32⟩ : BufTy).Contents (Elt F)),
    binary main_v173 main_v222 main_v223 (mulf : (⟨S16384x7x7, .f32⟩ : BufTy).Contents (Elt F) → (⟨S16384x7x7, .f32⟩ : BufTy).Contents (Elt F) → (⟨S16384x7x7, .f32⟩ : BufTy).Contents (Elt F)),
    nullary main_cst_30 (constant S_ .f32 0x00000000#32),
    binary main_v223 main_cst_30 main_v224 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) ]
theorem q11_sub : (q11 : List (HloOp τ sig (Elt F))).Forall fun op => op.bufs ⊆ tcRefs τ sig :=
  ⟨unary_bufs_sub .., reshape_bufs_sub .., binary_bufs_sub .., binary_bufs_sub .., unary_bufs_sub .., reshape_bufs_sub .., binary_bufs_sub .., binary_bufs_sub .., binary_bufs_sub .., binary_bufs_sub .., binary_bufs_sub .., binary_bufs_sub .., nullary_bufs_sub .., binary_bufs_sub ..⟩
theorem q11_fresh : (q11 : List (HloOp τ sig (Elt F))).Forall fun op => op.fresh = ∅ :=
  ⟨rfl, rfl, rfl, rfl, rfl, rfl, rfl, rfl, rfl, rfl, rfl, rfl, rfl, rfl⟩
/-- The buffers these operations write, in order. -/
abbrev q11_W : List (Ref sig .tc) := [main_v212, main_v213, main_v214, main_v215, main_v216, main_v217, main_v218, main_v219, main_v220, main_v221, main_v222, main_v223, main_cst_30, main_v224]

/-- Operations 262 to 275 of the line. -/
abbrev q12 : List (HloOp τ sig (Elt F)) :=
  [ unary main_arg0 main_v225 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v225 main_v226 rfl shapeCasts_S16384x7x7x1_S16384x7x7,
    binary main_v226 main_v226 main_v227 (mulf : (⟨S16384x7x7, .f32⟩ : BufTy).Contents (Elt F) → (⟨S16384x7x7, .f32⟩ : BufTy).Contents (Elt F) → (⟨S16384x7x7, .f32⟩ : BufTy).Contents (Elt F)),
    unary main_arg0 main_v228 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v228 main_v229 rfl shapeCasts_S16384x7x7x1_S16384x7x7,
    binary main_v229 main_v229 main_v230 (mulf : (⟨S16384x7x7, .f32⟩ : BufTy).Contents (Elt F) → (⟨S16384x7x7, .f32⟩ : BufTy).Contents (Elt F) → (⟨S16384x7x7, .f32⟩ : BufTy).Contents (Elt F)),
    binary main_v174 main_v227 main_v231 (mulf : (⟨S16384x7x7, .f32⟩ : BufTy).Contents (Elt F) → (⟨S16384x7x7, .f32⟩ : BufTy).Contents (Elt F) → (⟨S16384x7x7, .f32⟩ : BufTy).Contents (Elt F)),
    binary main_v176 main_v230 main_v232 (mulf : (⟨S16384x7x7, .f32⟩ : BufTy).Contents (Elt F) → (⟨S16384x7x7, .f32⟩ : BufTy).Contents (Elt F) → (⟨S16384x7x7, .f32⟩ : BufTy).Contents (Elt F)),
    binary main_v231 main_v232 main_v233 (addf : (⟨S16384x7x7, .f32⟩ : BufTy).Contents (Elt F) → (⟨S16384x7x7, .f32⟩ : BufTy).Contents (Elt F) → (⟨S16384x7x7, .f32⟩ : BufTy).Contents (Elt F)),
    binary main_v173 main_v233 main_v234 (mulf : (⟨S16384x7x7, .f32⟩ : BufTy).Contents (Elt F) → (⟨S16384x7x7, .f32⟩ : BufTy).Contents (Elt F) → (⟨S16384x7x7, .f32⟩ : BufTy).Contents (Elt F)),
    nullary main_cst_31 (constant S_ .f32 0x00000000#32),
    binary main_v234 main_cst_31 main_v235 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_32 (constant S_ .f32 0x3F000000#32),
    binary main_cst_32 main_v235 main_v236 (mulf : (⟨S_, .f32⟩ : BufTy).Contents (Elt F) → (⟨S_, .f32⟩ : BufTy).Contents (Elt F) → (⟨S_, .f32⟩ : BufTy).Contents (Elt F)) ]
theorem q12_sub : (q12 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., binary_bufs_sub .., binary_bufs_sub .., binary_bufs_sub .., nullary_bufs_sub .., binary_bufs_sub .., nullary_bufs_sub .., binary_bufs_sub ..⟩
theorem q12_fresh : (q12 : List (HloOp τ sig (Elt F))).Forall fun op => op.fresh = ∅ :=
  ⟨rfl, rfl, rfl, rfl, rfl, rfl, rfl, rfl, rfl, rfl, rfl, rfl, rfl, rfl⟩
/-- The buffers these operations write, in order. -/
abbrev q12_W : List (Ref sig .tc) := [main_v225, main_v226, main_v227, main_v228, main_v229, main_v230, main_v231, main_v232, main_v233, main_v234, main_cst_31, main_v235, main_cst_32, main_v236]

/-- Operations 276 to 289 of the line. -/
abbrev q13 : List (HloOp τ sig (Elt F)) :=
  [ unary main_v4 main_v237 (uitofp .f32 : (⟨S16384x7x7, .i1⟩ : BufTy).Contents (Elt F) → (⟨S16384x7x7, .f32⟩ : BufTy).Contents (Elt F)),
    unary main_arg0 main_v238 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v238 main_v239 rfl shapeCasts_S16384x7x7x1_S16384x7x7,
    binary main_v239 main_v239 main_v240 (mulf : (⟨S16384x7x7, .f32⟩ : BufTy).Contents (Elt F) → (⟨S16384x7x7, .f32⟩ : BufTy).Contents (Elt F) → (⟨S16384x7x7, .f32⟩ : BufTy).Contents (Elt F)),
    unary main_arg0 main_v241 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v241 main_v242 rfl shapeCasts_S16384x7x7x1_S16384x7x7,
    binary main_v242 main_v242 main_v243 (mulf : (⟨S16384x7x7, .f32⟩ : BufTy).Contents (Elt F) → (⟨S16384x7x7, .f32⟩ : BufTy).Contents (Elt F) → (⟨S16384x7x7, .f32⟩ : BufTy).Contents (Elt F)),
    binary main_v240 main_v243 main_v244 (addf : (⟨S16384x7x7, .f32⟩ : BufTy).Contents (Elt F) → (⟨S16384x7x7, .f32⟩ : BufTy).Contents (Elt F) → (⟨S16384x7x7, .f32⟩ : BufTy).Contents (Elt F)),
    binary main_v237 main_v244 main_v245 (mulf : (⟨S16384x7x7, .f32⟩ : BufTy).Contents (Elt F) → (⟨S16384x7x7, .f32⟩ : BufTy).Contents (Elt F) → (⟨S16384x7x7, .f32⟩ : BufTy).Contents (Elt F)),
    nullary main_cst_33 (constant S_ .f32 0x00000000#32),
    binary main_v245 main_cst_33 main_v246 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_34 (constant S_ .f32 0x3F000000#32),
    binary main_cst_34 main_v246 main_v247 (mulf : (⟨S_, .f32⟩ : BufTy).Contents (Elt F) → (⟨S_, .f32⟩ : BufTy).Contents (Elt F) → (⟨S_, .f32⟩ : BufTy).Contents (Elt F)),
    binary main_v236 main_v247 main_v248 (addf : (⟨S_, .f32⟩ : BufTy).Contents (Elt F) → (⟨S_, .f32⟩ : BufTy).Contents (Elt F) → (⟨S_, .f32⟩ : BufTy).Contents (Elt F)) ]
theorem q13_sub : (q13 : List (HloOp τ sig (Elt F))).Forall fun op => op.bufs ⊆ tcRefs τ sig :=
  ⟨unary_bufs_sub .., unary_bufs_sub .., reshape_bufs_sub .., binary_bufs_sub .., unary_bufs_sub .., reshape_bufs_sub .., binary_bufs_sub .., binary_bufs_sub .., binary_bufs_sub .., nullary_bufs_sub .., binary_bufs_sub .., nullary_bufs_sub .., binary_bufs_sub .., binary_bufs_sub ..⟩
theorem q13_fresh : (q13 : List (HloOp τ sig (Elt F))).Forall fun op => op.fresh = ∅ :=
  ⟨rfl, rfl, rfl, rfl, rfl, rfl, rfl, rfl, rfl, rfl, rfl, rfl, rfl, rfl⟩
/-- The buffers these operations write, in order. -/
abbrev q13_W : List (Ref sig .tc) := [main_v237, main_v238, main_v239, main_v240, main_v241, main_v242, main_v243, main_v244, main_v245, main_cst_33, main_v246, main_cst_34, main_v247, main_v248]

/-- Operations 290 to 298 of the line. -/
abbrev q14 : List (HloOp τ sig (Elt F)) :=
  [ unary main_arg1 main_v249 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg0 main_v250 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v249 main_v250 main_v251 (subf : (⟨S16384x7x7x20, .f32⟩ : BufTy).Contents (Elt F) → (⟨S16384x7x7x20, .f32⟩ : BufTy).Contents (Elt F) → (⟨S16384x7x7x20, .f32⟩ : BufTy).Contents (Elt F)),
    binary main_v251 main_v251 main_v252 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_35 (constant S_ .f32 0x00000000#32),
    binary main_v252 main_cst_35 main_v253 ((fun x v => Host.reduceAdd x v reducesTo_S16384x7x7x20_S16384x7x7_d3 h_S_) : (⟨S16384x7x7x20, .f32⟩ : BufTy).Contents (Elt F) → (⟨S_, .f32⟩ : BufTy).Contents (Elt F) → (⟨S16384x7x7, .f32⟩ : BufTy).Contents (Elt F)),
    binary main_v173 main_v253 main_v254 (mulf : (⟨S16384x7x7, .f32⟩ : BufTy).Contents (Elt F) → (⟨S16384x7x7, .f32⟩ : BufTy).Contents (Elt F) → (⟨S16384x7x7, .f32⟩ : BufTy).Contents (Elt F)),
    nullary main_cst_36 (constant S_ .f32 0x00000000#32),
    binary main_v254 main_cst_36 main_v255 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) ]
theorem q14_sub : (q14 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub ..⟩
theorem q14_fresh : (q14 : List (HloOp τ sig (Elt F))).Forall fun op => op.fresh = ∅ :=
  ⟨rfl, rfl, rfl, rfl, rfl, rfl, rfl, rfl, rfl⟩
/-- The buffers these operations write, in order. -/
abbrev q14_W : List (Ref sig .tc) := [main_v249, main_v250, main_v251, main_v252, main_cst_35, main_v253, main_v254, main_cst_36, main_v255]

/-- Operations 299 to 304 of the line. -/
abbrev q15 : List (HloOp τ sig (Elt F)) :=
  [ binary main_v192 main_v211 main_v256 (addf : (⟨S_, .f32⟩ : BufTy).Contents (Elt F) → (⟨S_, .f32⟩ : BufTy).Contents (Elt F) → (⟨S_, .f32⟩ : BufTy).Contents (Elt F)),
    binary main_v256 main_v224 main_v257 (addf : (⟨S_, .f32⟩ : BufTy).Contents (Elt F) → (⟨S_, .f32⟩ : BufTy).Contents (Elt F) → (⟨S_, .f32⟩ : BufTy).Contents (Elt F)),
    binary main_v257 main_v248 main_v258 (addf : (⟨S_, .f32⟩ : BufTy).Contents (Elt F) → (⟨S_, .f32⟩ : BufTy).Contents (Elt F) → (⟨S_, .f32⟩ : BufTy).Contents (Elt F)),
    binary main_v258 main_v255 main_v259 (addf : (⟨S_, .f32⟩ : BufTy).Contents (Elt F) → (⟨S_, .f32⟩ : BufTy).Contents (Elt F) → (⟨S_, .f32⟩ : BufTy).Contents (Elt F)),
    nullary main_cst_37 (constant S_ .f32 0x46800000#32),
    binary main_v259 main_cst_37 main_v260 (Host.divf : (⟨S_, .f32⟩ : BufTy).Contents (Elt F) → (⟨S_, .f32⟩ : BufTy).Contents (Elt F) → (⟨S_, .f32⟩ : BufTy).Contents (Elt F)) ]
theorem q15_sub : (q15 : List (HloOp τ sig (Elt F))).Forall fun op => op.bufs ⊆ tcRefs τ sig :=
  ⟨binary_bufs_sub .., binary_bufs_sub .., binary_bufs_sub .., binary_bufs_sub .., nullary_bufs_sub .., binary_bufs_sub ..⟩
theorem q15_fresh : (q15 : List (HloOp τ sig (Elt F))).Forall fun op => op.fresh = ∅ :=
  ⟨rfl, rfl, rfl, rfl, rfl, rfl⟩
/-- The buffers these operations write, in order. -/
abbrev q15_W : List (Ref sig .tc) := [main_v256, main_v257, main_v258, main_v259, main_cst_37, main_v260]

/-! ## The printed windows, and the whole line -/

/-- The operations of the program's window `main_part0`. -/
abbrev w0 : List (HloOp τ sig (Elt F)) := q1 ++ q2
set_option maxRecDepth 8192 in
set_option maxHeartbeats 1000000 in
theorem main_part0_eq (c : Dev nD) : main_part0 (F := F) c = seq w0 := rfl

/-- The operations of the program's window `main_part1`. -/
abbrev w1 : List (HloOp τ sig (Elt F)) := q3 ++ q4
set_option maxRecDepth 8192 in
set_option maxHeartbeats 1000000 in
theorem main_part1_eq (c : Dev nD) : main_part1 (F := F) c = seq w1 := rfl

/-- The operations of the program's window `main_part2`. -/
abbrev w2 : List (HloOp τ sig (Elt F)) := q5
set_option maxRecDepth 8192 in
set_option maxHeartbeats 1000000 in
theorem main_part2_eq (c : Dev nD) : main_part2 (F := F) c = seq w2 := rfl

/-- The operations of the program's window `main_part3`. -/
abbrev w3 : List (HloOp τ sig (Elt F)) := q6 ++ q7 ++ q8 ++ q9
set_option maxRecDepth 8192 in
set_option maxHeartbeats 1000000 in
theorem main_part3_eq (c : Dev nD) : main_part3 (F := F) c = seq w3 := rfl

/-- The operations of the program's window `main_part4`. -/
abbrev w4 : List (HloOp τ sig (Elt F)) := q10 ++ q11 ++ q12 ++ q13 ++ q14 ++ q15
set_option maxRecDepth 8192 in
set_option maxHeartbeats 1000000 in
theorem main_part4_eq (c : Dev nD) : main_part4 (F := F) c = seq w4 := rfl

theorem main_part5_eq (c : Dev nD) : main_part5 (F := F) c = seq [] := rfl

/-- The reference's 304 operations, in order. -/
abbrev ops : List (HloOp τ sig (Elt F)) := w0 ++ w1 ++ w2 ++ w3 ++ w4

theorem main_eq (c : Dev nD) : main (F := F) c = seq ops := by
  simp only [ops, seq_append, ← main_part0_eq c, ← main_part1_eq c, ← main_part2_eq c, ← main_part3_eq c,
    ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of every piece holds of every operation of the line. -/
theorem ops_forall (P : HloOp τ sig (Elt F) → Prop)
    (hq1 : (q1 : List (HloOp τ sig (Elt F))).Forall P)
    (hq2 : (q2 : List (HloOp τ sig (Elt F))).Forall P)
    (hq3 : (q3 : List (HloOp τ sig (Elt F))).Forall P)
    (hq4 : (q4 : List (HloOp τ sig (Elt F))).Forall P)
    (hq5 : (q5 : List (HloOp τ sig (Elt F))).Forall P)
    (hq6 : (q6 : List (HloOp τ sig (Elt F))).Forall P)
    (hq7 : (q7 : List (HloOp τ sig (Elt F))).Forall P)
    (hq8 : (q8 : List (HloOp τ sig (Elt F))).Forall P)
    (hq9 : (q9 : List (HloOp τ sig (Elt F))).Forall P)
    (hq10 : (q10 : List (HloOp τ sig (Elt F))).Forall P)
    (hq11 : (q11 : List (HloOp τ sig (Elt F))).Forall P)
    (hq12 : (q12 : List (HloOp τ sig (Elt F))).Forall P)
    (hq13 : (q13 : List (HloOp τ sig (Elt F))).Forall P)
    (hq14 : (q14 : List (HloOp τ sig (Elt F))).Forall P)
    (hq15 : (q15 : List (HloOp τ sig (Elt F))).Forall P) :
    ∀ op ∈ (ops : List (HloOp τ sig (Elt F))), P op := by
  intro op h
  simp only [ops, w0, w1, w2, w3, w4, List.mem_append, or_assoc] at h
  rcases h with h | h | h | h | h | h | h | h | h | h | h | h | h | h | h
  · exact (List.forall_iff_forall_mem.mp hq1) op h
  · exact (List.forall_iff_forall_mem.mp hq2) op h
  · exact (List.forall_iff_forall_mem.mp hq3) op h
  · exact (List.forall_iff_forall_mem.mp hq4) op h
  · exact (List.forall_iff_forall_mem.mp hq5) op h
  · exact (List.forall_iff_forall_mem.mp hq6) op h
  · exact (List.forall_iff_forall_mem.mp hq7) op h
  · exact (List.forall_iff_forall_mem.mp hq8) op h
  · exact (List.forall_iff_forall_mem.mp hq9) op h
  · exact (List.forall_iff_forall_mem.mp hq10) op h
  · exact (List.forall_iff_forall_mem.mp hq11) op h
  · exact (List.forall_iff_forall_mem.mp hq12) op h
  · exact (List.forall_iff_forall_mem.mp hq13) op h
  · exact (List.forall_iff_forall_mem.mp hq14) op h
  · exact (List.forall_iff_forall_mem.mp hq15) op h

theorem ops_sub : (ops : List (HloOp τ sig (Elt F))).Forall fun op => op.bufs ⊆ tcRefs τ sig :=
  List.forall_iff_forall_mem.mpr (ops_forall _ q1_sub q2_sub q3_sub q4_sub q5_sub q6_sub q7_sub q8_sub q9_sub q10_sub q11_sub q12_sub q13_sub q14_sub q15_sub)

/-- Every weakly fair execution of the reference terminates with each buffer at the fold of the line over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => ops_forall _ q1_fresh q2_fresh q3_fresh q4_fresh q5_fresh q6_fresh q7_fresh q8_fresh q9_fresh q10_fresh q11_fresh q12_fresh q13_fresh q14_fresh q15_fresh)

end Cert.ReferenceIdeal.Line

end
-- ==== Proof.LibLastAxis.lean ====
/-
  Layout operations of a rank-four array whose last axis holds the channels, read at coordinates: a band of the last
  axis, the reshape that drops a trailing axis of extent one, and the index a one-axis sum over the last axis inserts.
-/
import Idealize.ShloMosaic.Lib.ValueLayout
import Idealize.ShloMosaic.Lib.ValueIdxCoords
import Idealize.ShloMosaic.Lib.Pipeline.Value
import Idealize.ShloMosaic.Lib.IdealHost
import Idealize.ShloMosaic.PureOps.Ideal.Laws

noncomputable section

namespace Cert.LastAxis

open Idealize.ShloMosaic Idealize.ShloMosaic.ValueIdx

variable {α : Type}

/-- A rank-four array cut along its last axis from `o` reads, at `(a, b, c, j)`, the source at `(a, b, c, o + j)`. -/
theorem slice4_axis3_eq {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, Nat.lt_of_lt_of_le (Nat.add_lt_add_left j.isLt o) (h.2 3)⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-- The reshape `[n0, n1, n2, 1] → [n0, n1, n2]` reads, at `(a, b, c)`, the source at `(a, b, c, 0)`. -/
theorem shapeCast_abc1_abc_apply {n0 n1 n2 : Nat} (X : (⟨4, ![n0, n1, n2, 1]⟩ : Shape).Idx → α)
    (h : (⟨4, ![n0, n1, n2, 1]⟩ : Shape).ShapeCasts ⟨3, ![n0, n1, n2]⟩) (a : Fin n0) (b : Fin n1) (c : Fin n2) :
    shapeCast ⟨3, ![n0, n1, n2]⟩ X h (ix3 a b c) = X (ix4 a b c (0 : Fin 1)) :=
  shapeCast_apply X h _ _ (by
    rw [Shape.rowMajor_val_four, Shape.rowMajor_val_three]
    show ((a.val * n1 + b.val) * n2 + c.val) * 1 + 0 = (a.val * n1 + b.val) * n2 + c.val
    rw [Nat.mul_one, Nat.add_zero])

end Cert.LastAxis

end
-- ==== Proof.RefPieces.lean ====
/-
  The reference's line read back piece by piece: the pieces' contents, and the first piece's comparison. `Ak V0` is what the buffers hold after the first `k` pieces of
  the line, run from contents `V0`; a buffer a piece does not write keeps its contents through it. Each stage that is
  an array over the cells (batch, row, column) is, at cell `(n, a, b)`, a quantity of that cell's thirty predicted and
  thirty labelled channels (RowLoss.lean); the six scalar sums are the sums over all cells of the six summands; the
  result is their weighted combination over the batch size. The reference halves by dividing by two and negates the
  object flag by a logical not: the cell quantities' product with one half and one minus the flag.
-/
import proofs.«160516_j55164559950272_2_alg».proof.Proof.RefRun
import proofs.«160516_j55164559950272_2_alg».proof.Proof.RowLoss
import proofs.«160516_j55164559950272_2_alg».proof.Proof.LibLastAxis
import Idealize.ShloMosaic.Lib.ValueIdxCoords
import Idealize.ShloMosaic.Lib.IdealHost

noncomputable section

namespace Cert.ReferenceIdeal.Stages

open Idealize.ShloMosaic Idealize.ShloMosaic.ValueIdx Idealize.ShloMosaic.StableHlo Idealize.ShloMosaic.TcCoe
  Cert.ReferenceIdeal Cert.ReferenceIdeal.Gen Cert.ReferenceIdeal.Line Cert.Yolo Cert.LastAxis

/-- An argument array: thirty channels per cell. -/
abbrev Arr := (⟨S16384x7x7x30, .f32⟩ : BufTy).Contents (Elt Ideal)

/-- Cell `(n, a, b)`'s channels. -/
abbrev pc (x : Arr) (n : Fin 16384) (a b : Fin 7) : Fin 30 → EReal := fun c => x (ix4 n a b c)

/-- One operation writes one buffer, and that buffer is on the piece's list. -/
macro "one_write" : tactic => `(tactic| (simp only [nullary_writes, unary_writes, binary_writes, ternary_writes,
  reshape_writes, Finset.singleton_subset_iff, List.mem_toFinset]; exact List.mem_map_of_mem (by decide)))

variable (V0 : Valuation τ sig (Elt Ideal))

/-! ## The contents after each piece -/

/-- The buffers' contents after the first 1 piece. -/
def A1 : Valuation τ sig (Elt Ideal) := after q1 (V0)
theorem q1_writes : (q1 : List (HloOp τ sig (Elt Ideal))).Forall fun op =>
    op.writes ⊆ (q1_W.map (Proc.devRef (τ := τ) .tc)).toFinset := by
  simp only [q1, List.Forall]; repeat' apply And.intro
  all_goals one_write
/-- A buffer piece 1 does not write keeps its contents through it. -/
theorem keep1 (r : Ref sig .tc) (h : r ∉ q1_W) :
    A1 V0 (no_index (Proc.devRef .tc r)) = V0 (Proc.devRef .tc r) :=
  after_of_writes_sub q1 _ q1_writes h

/-- The buffers' contents after the first 2 pieces. -/
def A2 : Valuation τ sig (Elt Ideal) := after q2 (A1 V0)
theorem q2_writes : (q2 : List (HloOp τ sig (Elt Ideal))).Forall fun op =>
    op.writes ⊆ (q2_W.map (Proc.devRef (τ := τ) .tc)).toFinset := by
  simp only [q2, List.Forall]; repeat' apply And.intro
  all_goals one_write
/-- A buffer piece 2 does not write keeps its contents through it. -/
theorem keep2 (r : Ref sig .tc) (h : r ∉ q2_W) :
    A2 V0 (no_index (Proc.devRef .tc r)) = A1 V0 (Proc.devRef .tc r) :=
  after_of_writes_sub q2 _ q2_writes h

/-- The buffers' contents after the first 3 pieces. -/
def A3 : Valuation τ sig (Elt Ideal) := after q3 (A2 V0)
theorem q3_writes : (q3 : List (HloOp τ sig (Elt Ideal))).Forall fun op =>
    op.writes ⊆ (q3_W.map (Proc.devRef (τ := τ) .tc)).toFinset := by
  simp only [q3, List.Forall]; repeat' apply And.intro
  all_goals one_write
/-- A buffer piece 3 does not write keeps its contents through it. -/
theorem keep3 (r : Ref sig .tc) (h : r ∉ q3_W) :
    A3 V0 (no_index (Proc.devRef .tc r)) = A2 V0 (Proc.devRef .tc r) :=
  after_of_writes_sub q3 _ q3_writes h

/-- The buffers' contents after the first 4 pieces. -/
def A4 : Valuation τ sig (Elt Ideal) := after q4 (A3 V0)
theorem q4_writes : (q4 : List (HloOp τ sig (Elt Ideal))).Forall fun op =>
    op.writes ⊆ (q4_W.map (Proc.devRef (τ := τ) .tc)).toFinset := by
  simp only [q4, List.Forall]; repeat' apply And.intro
  all_goals one_write
/-- A buffer piece 4 does not write keeps its contents through it. -/
theorem keep4 (r : Ref sig .tc) (h : r ∉ q4_W) :
    A4 V0 (no_index (Proc.devRef .tc r)) = A3 V0 (Proc.devRef .tc r) :=
  after_of_writes_sub q4 _ q4_writes h

/-- The buffers' contents after the first 5 pieces. -/
def A5 : Valuation τ sig (Elt Ideal) := after q5 (A4 V0)
theorem q5_writes : (q5 : List (HloOp τ sig (Elt Ideal))).Forall fun op =>
    op.writes ⊆ (q5_W.map (Proc.devRef (τ := τ) .tc)).toFinset := by
  simp only [q5, List.Forall]; repeat' apply And.intro
  all_goals one_write
/-- A buffer piece 5 does not write keeps its contents through it. -/
theorem keep5 (r : Ref sig .tc) (h : r ∉ q5_W) :
    A5 V0 (no_index (Proc.devRef .tc r)) = A4 V0 (Proc.devRef .tc r) :=
  after_of_writes_sub q5 _ q5_writes h

/-- The buffers' contents after the first 6 pieces. -/
def A6 : Valuation τ sig (Elt Ideal) := after q6 (A5 V0)
theorem q6_writes : (q6 : List (HloOp τ sig (Elt Ideal))).Forall fun op =>
    op.writes ⊆ (q6_W.map (Proc.devRef (τ := τ) .tc)).toFinset := by
  simp only [q6, List.Forall]; repeat' apply And.intro
  all_goals one_write
/-- A buffer piece 6 does not write keeps its contents through it. -/
theorem keep6 (r : Ref sig .tc) (h : r ∉ q6_W) :
    A6 V0 (no_index (Proc.devRef .tc r)) = A5 V0 (Proc.devRef .tc r) :=
  after_of_writes_sub q6 _ q6_writes h

/-- The buffers' contents after the first 7 pieces. -/
def A7 : Valuation τ sig (Elt Ideal) := after q7 (A6 V0)
theorem q7_writes : (q7 : List (HloOp τ sig (Elt Ideal))).Forall fun op =>
    op.writes ⊆ (q7_W.map (Proc.devRef (τ := τ) .tc)).toFinset := by
  simp only [q7, List.Forall]; repeat' apply And.intro
  all_goals one_write
/-- A buffer piece 7 does not write keeps its contents through it. -/
theorem keep7 (r : Ref sig .tc) (h : r ∉ q7_W) :
    A7 V0 (no_index (Proc.devRef .tc r)) = A6 V0 (Proc.devRef .tc r) :=
  after_of_writes_sub q7 _ q7_writes h

/-- The buffers' contents after the first 8 pieces. -/
def A8 : Valuation τ sig (Elt Ideal) := after q8 (A7 V0)
theorem q8_writes : (q8 : List (HloOp τ sig (Elt Ideal))).Forall fun op =>
    op.writes ⊆ (q8_W.map (Proc.devRef (τ := τ) .tc)).toFinset := by
  simp only [q8, List.Forall]; repeat' apply And.intro
  all_goals one_write
/-- A buffer piece 8 does not write keeps its contents through it. -/
theorem keep8 (r : Ref sig .tc) (h : r ∉ q8_W) :
    A8 V0 (no_index (Proc.devRef .tc r)) = A7 V0 (Proc.devRef .tc r) :=
  after_of_writes_sub q8 _ q8_writes h

/-- The buffers' contents after the first 9 pieces. -/
def A9 : Valuation τ sig (Elt Ideal) := after q9 (A8 V0)
theorem q9_writes : (q9 : List (HloOp τ sig (Elt Ideal))).Forall fun op =>
    op.writes ⊆ (q9_W.map (Proc.devRef (τ := τ) .tc)).toFinset := by
  simp only [q9, List.Forall]; repeat' apply And.intro
  all_goals one_write
/-- A buffer piece 9 does not write keeps its contents through it. -/
theorem keep9 (r : Ref sig .tc) (h : r ∉ q9_W) :
    A9 V0 (no_index (Proc.devRef .tc r)) = A8 V0 (Proc.devRef .tc r) :=
  after_of_writes_sub q9 _ q9_writes h

/-- The buffers' contents after the first 10 pieces. -/
def A10 : Valuation τ sig (Elt Ideal) := after q10 (A9 V0)
theorem q10_writes : (q10 : List (HloOp τ sig (Elt Ideal))).Forall fun op =>
    op.writes ⊆ (q10_W.map (Proc.devRef (τ := τ) .tc)).toFinset := by
  simp only [q10, List.Forall]; repeat' apply And.intro
  all_goals one_write
/-- A buffer piece 10 does not write keeps its contents through it. -/
theorem keep10 (r : Ref sig .tc) (h : r ∉ q10_W) :
    A10 V0 (no_index (Proc.devRef .tc r)) = A9 V0 (Proc.devRef .tc r) :=
  after_of_writes_sub q10 _ q10_writes h

/-- The buffers' contents after the first 11 pieces. -/
def A11 : Valuation τ sig (Elt Ideal) := after q11 (A10 V0)
theorem q11_writes : (q11 : List (HloOp τ sig (Elt Ideal))).Forall fun op =>
    op.writes ⊆ (q11_W.map (Proc.devRef (τ := τ) .tc)).toFinset := by
  simp only [q11, List.Forall]; repeat' apply And.intro
  all_goals one_write
/-- A buffer piece 11 does not write keeps its contents through it. -/
theorem keep11 (r : Ref sig .tc) (h : r ∉ q11_W) :
    A11 V0 (no_index (Proc.devRef .tc r)) = A10 V0 (Proc.devRef .tc r) :=
  after_of_writes_sub q11 _ q11_writes h

/-- The buffers' contents after the first 12 pieces. -/
def A12 : Valuation τ sig (Elt Ideal) := after q12 (A11 V0)
theorem q12_writes : (q12 : List (HloOp τ sig (Elt Ideal))).Forall fun op =>
    op.writes ⊆ (q12_W.map (Proc.devRef (τ := τ) .tc)).toFinset := by
  simp only [q12, List.Forall]; repeat' apply And.intro
  all_goals one_write
/-- A buffer piece 12 does not write keeps its contents through it. -/
theorem keep12 (r : Ref sig .tc) (h : r ∉ q12_W) :
    A12 V0 (no_index (Proc.devRef .tc r)) = A11 V0 (Proc.devRef .tc r) :=
  after_of_writes_sub q12 _ q12_writes h

/-- The buffers' contents after the first 13 pieces. -/
def A13 : Valuation τ sig (Elt Ideal) := after q13 (A12 V0)
theorem q13_writes : (q13 : List (HloOp τ sig (Elt Ideal))).Forall fun op =>
    op.writes ⊆ (q13_W.map (Proc.devRef (τ := τ) .tc)).toFinset := by
  simp only [q13, List.Forall]; repeat' apply And.intro
  all_goals one_write
/-- A buffer piece 13 does not write keeps its contents through it. -/
theorem keep13 (r : Ref sig .tc) (h : r ∉ q13_W) :
    A13 V0 (no_index (Proc.devRef .tc r)) = A12 V0 (Proc.devRef .tc r) :=
  after_of_writes_sub q13 _ q13_writes h

/-- The buffers' contents after the first 14 pieces. -/
def A14 : Valuation τ sig (Elt Ideal) := after q14 (A13 V0)
theorem q14_writes : (q14 : List (HloOp τ sig (Elt Ideal))).Forall fun op =>
    op.writes ⊆ (q14_W.map (Proc.devRef (τ := τ) .tc)).toFinset := by
  simp only [q14, List.Forall]; repeat' apply And.intro
  all_goals one_write
/-- A buffer piece 14 does not write keeps its contents through it. -/
theorem keep14 (r : Ref sig .tc) (h : r ∉ q14_W) :
    A14 V0 (no_index (Proc.devRef .tc r)) = A13 V0 (Proc.devRef .tc r) :=
  after_of_writes_sub q14 _ q14_writes h

/-- The buffers' contents after the first 15 pieces. -/
def A15 : Valuation τ sig (Elt Ideal) := after q15 (A14 V0)
theorem q15_writes : (q15 : List (HloOp τ sig (Elt Ideal))).Forall fun op =>
    op.writes ⊆ (q15_W.map (Proc.devRef (τ := τ) .tc)).toFinset := by
  simp only [q15, List.Forall]; repeat' apply And.intro
  all_goals one_write
/-- A buffer piece 15 does not write keeps its contents through it. -/
theorem keep15 (r : Ref sig .tc) (h : r ∉ q15_W) :
    A15 V0 (no_index (Proc.devRef .tc r)) = A14 V0 (Proc.devRef .tc r) :=
  after_of_writes_sub q15 _ q15_writes h

/-- The whole line is its pieces in order. -/
theorem after_ops : after ops V0 = A15 V0 := by
  simp only [ops, w0, w1, w2, w3, w4, StableHlo.after_append]
  rfl

/-- Bring every buffer back to the piece that wrote it. -/
macro "keeps" : tactic => `(tactic| simp (disch := decide) only [keep15, keep14, keep13, keep12, keep11, keep10, keep9,
  keep8, keep7, keep6, keep5, keep4, keep3, keep2, keep1])

/-! ## Operations read at an index -/

theorem hdivf_apply {s : Shape} (x y : FVec Ideal s .f32) (i : s.Idx) : Host.divf x y i = Ideal.div (x i) (y i) := rfl
theorem hsqrt_apply {s : Shape} (x : FVec Ideal s .f32) (i : s.Idx) : Host.sqrt x i = Ideal.sqrt (x i) := rfl
theorem uitofp_apply {s : Shape} (x : IVec s 1) (i : s.Idx) : (uitofp .f32 x : FVec Ideal s .f32) i = flag (x i) := rfl
theorem noti_apply {s : Shape} (x : IVec s 1) (i : s.Idx) : noti x i = ~~~(x i) := rfl
theorem andi_apply {s : Shape} (x y : IVec s 1) (i : s.Idx) : andi x y i = IntOp.andi (x i) (y i) := rfl
theorem cmpf_ideal (p : CmpFPredicate) (x y : EReal) : FloatOps.cmpf (F := Ideal) (φ := .f32) p x y = Ideal.cmp p x y := rfl

/-- A sum started from the zero word is the sum. -/
theorem init_add (x : EReal) : Ideal.ofBits .f32 0x00000000#32 + x = x := by rw [c0_eq, zero_add]

/-- Push an index through the reference's pointwise and layout operations. -/
syntax "refsimp" "[" Lean.Parser.Tactic.simpLemma,* "]" : tactic
macro_rules
  | `(tactic| refsimp [$ls,*]) => `(tactic| simp only [mulf_apply, addf_apply, subf_apply, maximumf_apply, minimumf_apply,
      hdivf_apply, hsqrt_apply, uitofp_apply, noti_apply, andi_apply, cmpf_apply, cmpf_ideal, select_apply,
      constant_apply, broadcastInDim_scalar_apply, slice4_axis3_eq, shapeCast_abc1_abc_apply,
      init_add, div_two, flag_not, id_eq, $ls,*])

/-! ## The object flag's comparison -/

/-- The comparison of a cell's label channel 4 with one. -/
theorem v3_cell (n : Fin 16384) (a b : Fin 7) :
    A1 V0 (Proc.devRef .tc main_v3) (ix3 n a b)
      = Ideal.cmp .oeq (V0 (Proc.devRef .tc main_arg1) (ix4 n a b 4)) c1 := by
  unfold A1; simp only [q1]; after_results_simp
  refsimp []
  erw [shapeCast_abc1_abc_apply]
  refsimp []
  rw [broadcastInDim_scalar_apply]
  refsimp []
  try rfl

/-- Read a cone of stages at a cell: the index through the pointwise operations, then the reshapes, the scalar
    broadcasts, and the slices. -/
syntax "readcell" "[" Lean.Parser.Tactic.simpLemma,* "]" : tactic
macro_rules
  | `(tactic| readcell [$ls,*]) => `(tactic| (
      try simp only [TRef.toBuf, TRef.ofBuf]
      repeat (erw [cast_eq])
      refsimp [$ls,*]
      repeat (erw [shapeCast_abc1_abc_apply])
      repeat (rw [broadcastInDim_scalar_apply])
      try refsimp [$ls,*]))

/-- The negated comparison. -/
theorem v4_cell (n : Fin 16384) (a b : Fin 7) :
    A1 V0 (Proc.devRef .tc main_v4) (ix3 n a b)
      = ~~~(Ideal.cmp .oeq (V0 (Proc.devRef .tc main_arg1) (ix4 n a b 4)) c1) := by
  unfold A1; simp only [q1]; after_results_simp
  readcell []
  try rfl

/-! ## The two boxes' overlaps with the label -/

end Cert.ReferenceIdeal.Stages

end
-- ==== Proof.RefIou1.lean ====
/-
  The reference's first predicted box against the labelled box, at a cell: pieces two and three of the line.
-/
import proofs.«160516_j55164559950272_2_alg».proof.Proof.RefPieces

noncomputable section

namespace Cert.ReferenceIdeal.Stages

open Idealize.ShloMosaic Idealize.ShloMosaic.ValueIdx Idealize.ShloMosaic.StableHlo Idealize.ShloMosaic.TcCoe
  Cert.ReferenceIdeal Cert.ReferenceIdeal.Gen Cert.ReferenceIdeal.Line Cert.Yolo Cert.LastAxis

variable (V0 : Valuation τ sig (Elt Ideal))

set_option maxHeartbeats 8000000 in
/-- The first predicted box against the labelled box. -/
theorem iou1_cell (n : Fin 16384) (a b : Fin 7) :
    A3 V0 (Proc.devRef .tc main_v88) (ix3 n a b)
      = iou1 (pc (V0 (Proc.devRef .tc main_arg0)) n a b) (pc (V0 (Proc.devRef .tc main_arg1)) n a b) := by
  unfold A3 A2; simp only [q2, q3]; after_results_simp
  keeps
  readcell []
  try rfl

/-- The labelled box's four channels, sliced once for both boxes. -/
theorem v5_cell (n : Fin 16384) (a b : Fin 7) (k : Fin 4) :
    A2 V0 (Proc.devRef .tc main_v5) (ix4 n a b k)
      = V0 (Proc.devRef .tc main_arg1) (ix4 n a b (chan 0 k (by omega))) := by
  unfold A2; simp only [q2]; after_results_simp
  keeps
  readcell []
  try rfl

end Cert.ReferenceIdeal.Stages

end
-- ==== Proof.RefIou2.lean ====
/-
  The reference's second predicted box against the labelled box, at a cell: pieces four to six of the line. Piece
  four makes the box's slice, the two areas and the first interval end; piece five the four interval ends (greater
  left, lesser right, greater top, lesser bottom); piece six the overlaps, their product over the union, and the
  choice of zero where an overlap is not positive. The labelled box's channels come from the first box's slice.
-/
import proofs.«160516_j55164559950272_2_alg».proof.Proof.RefIou1

noncomputable section

namespace Cert.ReferenceIdeal.Stages

open Idealize.ShloMosaic Idealize.ShloMosaic.ValueIdx Idealize.ShloMosaic.StableHlo Idealize.ShloMosaic.TcCoe
  Cert.ReferenceIdeal Cert.ReferenceIdeal.Gen Cert.ReferenceIdeal.Line Cert.Yolo Cert.LastAxis

variable (V0 : Valuation τ sig (Elt Ideal))

/-! ## Piece four: the second box's slice, the two areas, the first interval end -/

/-- The second predicted box's four channels. -/
theorem v89_cell (n : Fin 16384) (a b : Fin 7) (k : Fin 4) :
    A4 V0 (Proc.devRef .tc main_v89) (ix4 n a b k) = (V0 (Proc.devRef .tc main_arg0)) (ix4 n a b (chan 5 k (by omega))) := by
  unfold A4; simp only [q4]; after_results_simp
  keeps
  readcell []
  try rfl

/-- The second box's area. -/
theorem v94_cell (n : Fin 16384) (a b : Fin 7) :
    A4 V0 (Proc.devRef .tc main_v94) (ix3 n a b) = pc (V0 (Proc.devRef .tc main_arg0)) n a b 7 * pc (V0 (Proc.devRef .tc main_arg0)) n a b 8 := by
  unfold A4; simp only [q4]; after_results_simp
  keeps
  readcell []
  try rfl

/-- The labelled box's area. -/
theorem v99_cell (n : Fin 16384) (a b : Fin 7) :
    A4 V0 (Proc.devRef .tc main_v99) (ix3 n a b) = pc (V0 (Proc.devRef .tc main_arg1)) n a b 2 * pc (V0 (Proc.devRef .tc main_arg1)) n a b 3 := by
  unfold A4; simp only [q4]; after_results_simp
  keeps
  readcell [v5_cell V0]
  try rfl

/-- The second box's left end. -/
theorem v106_cell (n : Fin 16384) (a b : Fin 7) :
    A4 V0 (Proc.devRef .tc main_v106) (ix3 n a b) = pc (V0 (Proc.devRef .tc main_arg0)) n a b 5 - pc (V0 (Proc.devRef .tc main_arg0)) n a b 7 * cHalf := by
  unfold A4; simp only [q4]; after_results_simp
  keeps
  readcell []
  try rfl

/-! ## Piece five: the four interval ends -/

set_option maxHeartbeats 4000000 in
/-- The greater left end. -/
theorem v114_cell (n : Fin 16384) (a b : Fin 7) :
    A5 V0 (Proc.devRef .tc main_v114) (ix3 n a b) = max (pc (V0 (Proc.devRef .tc main_arg0)) n a b 5 - pc (V0 (Proc.devRef .tc main_arg0)) n a b 7 * cHalf) (pc (V0 (Proc.devRef .tc main_arg1)) n a b 0 - pc (V0 (Proc.devRef .tc main_arg1)) n a b 2 * cHalf) := by
  unfold A5; simp only [q5]; after_results_simp
  keeps
  readcell [v5_cell V0, v89_cell V0, v106_cell V0]
  try rfl

set_option maxHeartbeats 4000000 in
/-- The lesser right end. -/
theorem v129_cell (n : Fin 16384) (a b : Fin 7) :
    A5 V0 (Proc.devRef .tc main_v129) (ix3 n a b) = min (pc (V0 (Proc.devRef .tc main_arg0)) n a b 5 + pc (V0 (Proc.devRef .tc main_arg0)) n a b 7 * cHalf) (pc (V0 (Proc.devRef .tc main_arg1)) n a b 0 + pc (V0 (Proc.devRef .tc main_arg1)) n a b 2 * cHalf) := by
  unfold A5; simp only [q5]; after_results_simp
  keeps
  readcell [v5_cell V0, v89_cell V0]
  try rfl

set_option maxHeartbeats 4000000 in
/-- The greater top end. -/
theorem v144_cell (n : Fin 16384) (a b : Fin 7) :
    A5 V0 (Proc.devRef .tc main_v144) (ix3 n a b) = max (pc (V0 (Proc.devRef .tc main_arg0)) n a b 6 - pc (V0 (Proc.devRef .tc main_arg0)) n a b 8 * cHalf) (pc (V0 (Proc.devRef .tc main_arg1)) n a b 1 - pc (V0 (Proc.devRef .tc main_arg1)) n a b 3 * cHalf) := by
  unfold A5; simp only [q5]; after_results_simp
  keeps
  readcell [v5_cell V0, v89_cell V0]
  try rfl

set_option maxHeartbeats 4000000 in
/-- The lesser bottom end. -/
theorem v159_cell (n : Fin 16384) (a b : Fin 7) :
    A5 V0 (Proc.devRef .tc main_v159) (ix3 n a b) = min (pc (V0 (Proc.devRef .tc main_arg0)) n a b 6 + pc (V0 (Proc.devRef .tc main_arg0)) n a b 8 * cHalf) (pc (V0 (Proc.devRef .tc main_arg1)) n a b 1 + pc (V0 (Proc.devRef .tc main_arg1)) n a b 3 * cHalf) := by
  unfold A5; simp only [q5]; after_results_simp
  keeps
  readcell [v5_cell V0, v89_cell V0]
  try rfl

/-! ## Piece six: the overlaps, their product over the union, and the choice of zero -/

set_option maxHeartbeats 4000000 in
/-- The second predicted box against the labelled box. -/
theorem iou2_cell (n : Fin 16384) (a b : Fin 7) :
    A6 V0 (Proc.devRef .tc main_v171) (ix3 n a b)
      = iou2 (pc (V0 (Proc.devRef .tc main_arg0)) n a b) (pc (V0 (Proc.devRef .tc main_arg1)) n a b) := by
  unfold A6; simp only [q6]; after_results_simp
  keeps
  readcell [v94_cell V0, v99_cell V0, v114_cell V0, v129_cell V0, v144_cell V0, v159_cell V0]
  try rfl

end Cert.ReferenceIdeal.Stages

end
-- ==== Proof.RefSel.lean ====
/-
  The reference's flags at a cell: the object flag, and which box is responsible (piece seven of the line).
-/
import proofs.«160516_j55164559950272_2_alg».proof.Proof.RefIou2

noncomputable section

namespace Cert.ReferenceIdeal.Stages

open Idealize.ShloMosaic Idealize.ShloMosaic.ValueIdx Idealize.ShloMosaic.StableHlo Idealize.ShloMosaic.TcCoe
  Cert.ReferenceIdeal Cert.ReferenceIdeal.Gen Cert.ReferenceIdeal.Line Cert.Yolo Cert.LastAxis

variable (V0 : Valuation τ sig (Elt Ideal))

/-- The object flag of a cell. -/
theorem obj_cell (n : Fin 16384) (a b : Fin 7) :
    A7 V0 (Proc.devRef .tc main_v173) (ix3 n a b) = obj (pc (V0 (Proc.devRef .tc main_arg1)) n a b) := by
  unfold A7; simp only [q7]; after_results_simp
  keeps
  readcell [v3_cell V0]
  try rfl

/-- The first box is responsible. -/
theorem sel1_cell (n : Fin 16384) (a b : Fin 7) :
    A7 V0 (Proc.devRef .tc main_v174) (ix3 n a b) = sel1 (pc (V0 (Proc.devRef .tc main_arg0)) n a b) (pc (V0 (Proc.devRef .tc main_arg1)) n a b) := by
  unfold A7; simp only [q7]; after_results_simp
  keeps
  readcell [iou1_cell V0, iou2_cell V0]
  try rfl

/-- The second box is responsible. -/
theorem sel2_cell (n : Fin 16384) (a b : Fin 7) :
    A7 V0 (Proc.devRef .tc main_v176) (ix3 n a b) = sel2 (pc (V0 (Proc.devRef .tc main_arg0)) n a b) (pc (V0 (Proc.devRef .tc main_arg1)) n a b) := by
  unfold A7; simp only [q7]; after_results_simp
  keeps
  readcell [iou1_cell V0, iou2_cell V0]
  try rfl

end Cert.ReferenceIdeal.Stages

end
-- ==== Proof.RefTerms.lean ====
/-
  The reference's six summands at a cell (pieces eight to fourteen of the line): each is the cell's quantity of
  RowLoss.lean, the sums over two or twenty channels started from zero.
-/
import proofs.«160516_j55164559950272_2_alg».proof.Proof.RefSel

noncomputable section

namespace Cert.ReferenceIdeal.Stages

open Idealize.ShloMosaic Idealize.ShloMosaic.ValueIdx Idealize.ShloMosaic.StableHlo Idealize.ShloMosaic.TcCoe
  Cert.ReferenceIdeal Cert.ReferenceIdeal.Gen Cert.ReferenceIdeal.Line Cert.Yolo Cert.LastAxis

variable (V0 : Valuation τ sig (Elt Ideal))

/-! ## Sums over the channel axis and over all cells -/

/-- The sum over the channel axis of an array of `m` channels per cell, at cell `(n, a, b)`. -/
theorem chan_sum_of {m : ℕ} (x : FVec Ideal ⟨4, ![16384, 7, 7, m]⟩ .f32) (init : (⟨0, ![]⟩ : Shape).Idx → Ideal .f32)
    (h : (⟨4, ![16384, 7, 7, m]⟩ : Shape).ReducesTo [3] ⟨3, ![16384, 7, 7]⟩)
    (hr : (⟨4, ![16384, 7, 7, m]⟩ : Shape).Reduces [3] ⟨3, ![16384, 7, 7]⟩)
    (hu : 0 < (⟨0, ![]⟩ : Shape).numel) (n : Fin 16384) (a b : Fin 7) :
    Host.reduceAdd x init h hu (ix3 n a b) = init (Shape.Idx.first hu) + ∑ k : Fin m, x (ix4 n a b k) := by
  simp only [Host.reduceAdd, Ideal.hostReduceAdd_def]
  rw [Ideal.hostReduceAdd_single h hr]
  refine congrArg (_ + ·) (Finset.sum_congr rfl fun k _ => ?_)
  exact congrArg x (funext fun c => Fin.ext (by
    match c with | ⟨0, _⟩ => rfl | ⟨1, _⟩ => rfl | ⟨2, _⟩ => rfl | ⟨3, _⟩ => rfl))

theorem chan_sum2 (x : FVec Ideal S16384x7x7x2 .f32) (init : S_.Idx → Ideal .f32)
    (h : S16384x7x7x2.ReducesTo [3] S16384x7x7) (hu : 0 < S_.numel) (n : Fin 16384) (a b : Fin 7) :
    Host.reduceAdd x init h hu (ix3 n a b) = init (Shape.Idx.first hu) + ∑ k : Fin 2, x (ix4 n a b k) :=
  chan_sum_of x init h (by decide) hu n a b

theorem chan_sum20 (x : FVec Ideal S16384x7x7x20 .f32) (init : S_.Idx → Ideal .f32)
    (h : S16384x7x7x20.ReducesTo [3] S16384x7x7) (hu : 0 < S_.numel) (n : Fin 16384) (a b : Fin 7) :
    Host.reduceAdd x init h hu (ix3 n a b) = init (Shape.Idx.first hu) + ∑ k : Fin 20, x (ix4 n a b k) :=
  chan_sum_of x init h (by decide) hu n a b

/-- The sum over all cells. -/
theorem total_sum (x : FVec Ideal S16384x7x7 .f32) (init : S_.Idx → Ideal .f32)
    (h : S16384x7x7.ReducesTo [0, 1, 2] S_) (hu : 0 < S_.numel) (j : S_.Idx) :
    Host.reduceAdd x init h hu j = init (Shape.Idx.first hu) + ∑ i : S16384x7x7.Idx, x i := by
  simp only [Host.reduceAdd, Ideal.hostReduceAdd_def]
  exact Ideal.hostReduceAdd_total h (fun b => b.elim0) x _ j

/-! ## The six summands at a cell -/

/-- The centre term of a cell. -/
theorem xy_cell (n : Fin 16384) (a b : Fin 7) :
    A8 V0 (Proc.devRef .tc main_v190) (ix3 n a b) = termXY (pc (V0 (Proc.devRef .tc main_arg0)) n a b) (pc (V0 (Proc.devRef .tc main_arg1)) n a b) := by
  unfold A8; simp only [q8]; after_results_simp
  keeps
  readcell [obj_cell V0, sel1_cell V0, sel2_cell V0]
  rw [chan_sum2, chan_sum2]
  try refsimp [obj_cell V0, sel1_cell V0, sel2_cell V0]
  try rfl

/-- The size term of a cell, in square-root space. -/
theorem wh_cell (n : Fin 16384) (a b : Fin 7) :
    A10 V0 (Proc.devRef .tc main_v210) (ix3 n a b) = termWH (pc (V0 (Proc.devRef .tc main_arg0)) n a b) (pc (V0 (Proc.devRef .tc main_arg1)) n a b) := by
  unfold A10 A9; simp only [q9, q10]; after_results_simp
  keeps
  readcell [obj_cell V0, sel1_cell V0, sel2_cell V0]
  rw [chan_sum2, chan_sum2]
  try refsimp [obj_cell V0, sel1_cell V0, sel2_cell V0]
  try rfl

/-- The objectness term of a cell. -/
theorem objt_cell (n : Fin 16384) (a b : Fin 7) :
    A11 V0 (Proc.devRef .tc main_v223) (ix3 n a b) = termObj (pc (V0 (Proc.devRef .tc main_arg0)) n a b) (pc (V0 (Proc.devRef .tc main_arg1)) n a b) := by
  unfold A11; simp only [q11]; after_results_simp
  keeps
  readcell [obj_cell V0, sel1_cell V0, sel2_cell V0, iou1_cell V0, iou2_cell V0]
  try rfl

/-- The no-object term of the box that is not responsible. -/
theorem noA_cell (n : Fin 16384) (a b : Fin 7) :
    A12 V0 (Proc.devRef .tc main_v234) (ix3 n a b) = termNoA (pc (V0 (Proc.devRef .tc main_arg0)) n a b) (pc (V0 (Proc.devRef .tc main_arg1)) n a b) := by
  unfold A12; simp only [q12]; after_results_simp
  keeps
  readcell [obj_cell V0, sel1_cell V0, sel2_cell V0]
  try rfl

/-- The no-object term of an empty cell. -/
theorem noB_cell (n : Fin 16384) (a b : Fin 7) :
    A13 V0 (Proc.devRef .tc main_v245) (ix3 n a b) = termNoB (pc (V0 (Proc.devRef .tc main_arg0)) n a b) (pc (V0 (Proc.devRef .tc main_arg1)) n a b) := by
  unfold A13; simp only [q13]; after_results_simp
  keeps
  readcell [v4_cell V0]
  try rfl

/-- The class term of a cell. -/
theorem cls_cell (n : Fin 16384) (a b : Fin 7) :
    A14 V0 (Proc.devRef .tc main_v254) (ix3 n a b) = termCls (pc (V0 (Proc.devRef .tc main_arg0)) n a b) (pc (V0 (Proc.devRef .tc main_arg1)) n a b) := by
  unfold A14; simp only [q14]; after_results_simp
  keeps
  readcell [obj_cell V0, sel1_cell V0, sel2_cell V0]
  rw [chan_sum20]
  try refsimp [obj_cell V0, sel1_cell V0, sel2_cell V0]
  try rfl

end Cert.ReferenceIdeal.Stages

end
-- ==== Proof.RefTotal.lean ====
/-
  The reference's result. Each of the six scalar sums is the sum over all cells of its summand (started from zero);
  the result is their combination — five times the centre sum, the size and objectness sums, one half of each
  no-object sum, the class sum — divided by the batch size: the sum of every cell's total times the reciprocal of
  the batch size (RowLoss.lean's law of the nonnegative weights).
-/
import proofs.«160516_j55164559950272_2_alg».proof.Proof.RefTerms

noncomputable section

namespace Cert.ReferenceIdeal.Stages

open Idealize.ShloMosaic Idealize.ShloMosaic.ValueIdx Idealize.ShloMosaic.StableHlo Idealize.ShloMosaic.TcCoe
  Cert.ReferenceIdeal Cert.ReferenceIdeal.Gen Cert.ReferenceIdeal.Line Cert.Yolo Cert.LastAxis

variable (V0 : Valuation τ sig (Elt Ideal))

/-- The channels of cell `j`. -/
abbrev pj (x : Arr) (j : S16384x7x7.Idx) : Fin 30 → EReal := fun ch => x (ix4 (j 0) (j 1) (j 2) ch)

/-- A sum over all cells of an array that is a cell quantity at every cell. -/
theorem sum_of_cells (f : S16384x7x7.Idx → EReal) (g : (Fin 30 → EReal) → (Fin 30 → EReal) → EReal) (x0 x1 : Arr)
    (h : ∀ (n : Fin 16384) (a b : Fin 7), f (ix3 n a b) = g (pc x0 n a b) (pc x1 n a b)) :
    ∑ j, f j = ∑ j, g (pj x0 j) (pj x1 j) :=
  Finset.sum_congr rfl fun j _ => (congrArg f (eq_ix3 j)).trans (h (j 0) (j 1) (j 2))

/-! ## The six scalar sums -/

theorem xy_total : A8 V0 (Proc.devRef .tc main_v192) ix0 = c5 * ∑ j, termXY (pj (V0 (Proc.devRef .tc main_arg0)) j) (pj (V0 (Proc.devRef .tc main_arg1)) j) := by
  have e : A8 V0 (Proc.devRef .tc main_v192)
      = mulf (constant (F := Ideal) S_ .f32 0x40A00000#32) (Host.reduceAdd (F := Ideal) (A8 V0 (Proc.devRef .tc main_v190)) (constant (F := Ideal) S_ .f32 0x00000000#32) reducesTo_S16384x7x7_S_d0_1_2 h_S_) := by
    unfold A8; simp only [q8]; after_results_simp
  rw [e, mulf_apply, total_sum]
  simp only [constant_apply, init_add]
  rw [sum_of_cells _ termXY _ _ (xy_cell V0)]

theorem wh_total : A10 V0 (Proc.devRef .tc main_v211) ix0 = ∑ j, termWH (pj (V0 (Proc.devRef .tc main_arg0)) j) (pj (V0 (Proc.devRef .tc main_arg1)) j) := by
  have e : A10 V0 (Proc.devRef .tc main_v211) = (Host.reduceAdd (F := Ideal) (A10 V0 (Proc.devRef .tc main_v210)) (constant (F := Ideal) S_ .f32 0x00000000#32) reducesTo_S16384x7x7_S_d0_1_2 h_S_) := by
    unfold A10; simp only [q10]; after_results_simp
  rw [e, total_sum]
  simp only [constant_apply, init_add]
  rw [sum_of_cells _ termWH _ _ (wh_cell V0)]

theorem objt_total : A11 V0 (Proc.devRef .tc main_v224) ix0 = ∑ j, termObj (pj (V0 (Proc.devRef .tc main_arg0)) j) (pj (V0 (Proc.devRef .tc main_arg1)) j) := by
  have e : A11 V0 (Proc.devRef .tc main_v224) = (Host.reduceAdd (F := Ideal) (A11 V0 (Proc.devRef .tc main_v223)) (constant (F := Ideal) S_ .f32 0x00000000#32) reducesTo_S16384x7x7_S_d0_1_2 h_S_) := by
    unfold A11; simp only [q11]; after_results_simp
  rw [e, total_sum]
  simp only [constant_apply, init_add]
  rw [sum_of_cells _ termObj _ _ (objt_cell V0)]

theorem noA_total : A12 V0 (Proc.devRef .tc main_v236) ix0 = cHalf * ∑ j, termNoA (pj (V0 (Proc.devRef .tc main_arg0)) j) (pj (V0 (Proc.devRef .tc main_arg1)) j) := by
  have e : A12 V0 (Proc.devRef .tc main_v236)
      = mulf (constant (F := Ideal) S_ .f32 0x3F000000#32) (Host.reduceAdd (F := Ideal) (A12 V0 (Proc.devRef .tc main_v234)) (constant (F := Ideal) S_ .f32 0x00000000#32) reducesTo_S16384x7x7_S_d0_1_2 h_S_) := by
    unfold A12; simp only [q12]; after_results_simp
  rw [e, mulf_apply, total_sum]
  simp only [constant_apply, init_add]
  rw [sum_of_cells _ termNoA _ _ (noA_cell V0)]

theorem no_total : A13 V0 (Proc.devRef .tc main_v248) ix0
    = cHalf * ∑ j, termNoA (pj (V0 (Proc.devRef .tc main_arg0)) j) (pj (V0 (Proc.devRef .tc main_arg1)) j) + cHalf * ∑ j, termNoB (pj (V0 (Proc.devRef .tc main_arg0)) j) (pj (V0 (Proc.devRef .tc main_arg1)) j) := by
  have e : A13 V0 (Proc.devRef .tc main_v248)
      = addf (A13 V0 (Proc.devRef .tc main_v236))
          (mulf (constant (F := Ideal) S_ .f32 0x3F000000#32) (Host.reduceAdd (F := Ideal) (A13 V0 (Proc.devRef .tc main_v245)) (constant (F := Ideal) S_ .f32 0x00000000#32) reducesTo_S16384x7x7_S_d0_1_2 h_S_)) := by
    unfold A13; simp only [q13]; after_results_simp
  rw [e, addf_apply, mulf_apply, total_sum]
  simp only [constant_apply, init_add]
  rw [sum_of_cells _ termNoB _ _ (noB_cell V0), keep13 V0 main_v236 (by decide), noA_total]

theorem cls_total : A14 V0 (Proc.devRef .tc main_v255) ix0 = ∑ j, termCls (pj (V0 (Proc.devRef .tc main_arg0)) j) (pj (V0 (Proc.devRef .tc main_arg1)) j) := by
  have e : A14 V0 (Proc.devRef .tc main_v255) = (Host.reduceAdd (F := Ideal) (A14 V0 (Proc.devRef .tc main_v254)) (constant (F := Ideal) S_ .f32 0x00000000#32) reducesTo_S16384x7x7_S_d0_1_2 h_S_) := by
    unfold A14; simp only [q14]; after_results_simp
  rw [e, total_sum]
  simp only [constant_apply, init_add]
  rw [sum_of_cells _ termCls _ _ (cls_cell V0)]

/-! ## The result -/

/-- The reference's result: the sum of every cell's total, times the reciprocal of the batch size. -/
theorem ref_value : after ops V0 (Proc.devRef .tc main_v260) ix0
    = (∑ j, cellTotal (pj (V0 (Proc.devRef .tc main_arg0)) j) (pj (V0 (Proc.devRef .tc main_arg1)) j)) * cInvN := by
  have e : A15 V0 (Proc.devRef .tc main_v260)
      = Host.divf (F := Ideal) (addf (addf (addf (addf (A15 V0 (Proc.devRef .tc main_v192))
          (A15 V0 (Proc.devRef .tc main_v211))) (A15 V0 (Proc.devRef .tc main_v224)))
          (A15 V0 (Proc.devRef .tc main_v248))) (A15 V0 (Proc.devRef .tc main_v255)))
          (constant (F := Ideal) S_ .f32 0x46800000#32) := by
    unfold A15; simp only [q15]; after_results_simp
  rw [after_ops, e]
  simp only [hdivf_apply, addf_apply, constant_apply]
  keeps
  rw [xy_total, wh_total, objt_total, no_total, cls_total, div_batch, sum_cellTotal]

/-- The reference leaves its arguments as it found them. -/
theorem ref_arg0 : after ops V0 (Proc.devRef .tc main_arg0) = V0 (Proc.devRef .tc main_arg0) := by
  rw [after_ops]; keeps
theorem ref_arg1 : after ops V0 (Proc.devRef .tc main_arg1) = V0 (Proc.devRef .tc main_arg1) := by
  rw [after_ops]; keeps

end Cert.ReferenceIdeal.Stages

end
-- ==== Proof.lean ====
/-
  The kernel computes, per tile of 8192 cells and per core, the sum of the cells' loss totals — five times the centre
  term, the size and objectness terms, one half of each no-object term and the class term, all inside the cell's
  total — accumulates the tiles of a core, scales each core's sum by the reciprocal of the batch size and lets the host
  add the two cores. The reference sums each of the six terms over all cells, weights the sums by 5 and 1/2, adds them
  and divides by the batch size. On the extended reals both are the sum of every cell's total times 1/16384: a
  nonnegative real weight moves across a finite sum, halving is the product with one half, the quotient by 16384 is
  the product with its reciprocal, and a sum may be taken in any grouping and order. The kernel's frames are the
  generated ones; the reference's run is its line of host operations read back piece by piece. The ideal pass
  rewrote nothing, so the kernel's idealization is the kernel's own text.
-/
import proofs.«160516_j55164559950272_2_alg».proof.Defs
import proofs.«160516_j55164559950272_2_alg».proof.Proof.Gen.Kernel
import proofs.«160516_j55164559950272_2_alg».proof.Proof.Gen.Kernel.Skeleton
import proofs.«160516_j55164559950272_2_alg».proof.Proof.Gen.Kernel.Launch
import proofs.«160516_j55164559950272_2_alg».proof.Proof.Gen.Kernel.Points
import proofs.«160516_j55164559950272_2_alg».proof.Proof.Gen.Kernel.Frame
import proofs.«160516_j55164559950272_2_alg».proof.Proof.Gen.KernelIdeal
import proofs.«160516_j55164559950272_2_alg».proof.Proof.Gen.KernelIdeal.Skeleton
import proofs.«160516_j55164559950272_2_alg».proof.Proof.Gen.KernelIdeal.Launch
import proofs.«160516_j55164559950272_2_alg».proof.Proof.Gen.KernelIdeal.Points
import proofs.«160516_j55164559950272_2_alg».proof.Proof.Gen.KernelIdeal.Frame
import proofs.«160516_j55164559950272_2_alg».proof.Proof.Gen.ReferenceIdeal
import proofs.«160516_j55164559950272_2_alg».proof.Proof.Gen.Pre_finite_inputs
import proofs.«160516_j55164559950272_2_alg».proof.Proof.KernelCells
import proofs.«160516_j55164559950272_2_alg».proof.Proof.RefTotal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference runs and leaves its arguments as it found them: no operation of its line writes them. -/
theorem frame_ri : @Cert.frame_ReferenceIdeal Cert.ReferenceIdeal.Gen.facts Cert.Pre_finite_inputs.Gen.facts :=
  fun m ρ _ => (θ_run Cert.ReferenceIdeal.defs _ _).mono
    (fun _ h c => ⟨(h c Cert.ReferenceIdeal.main_arg0).trans (Cert.ReferenceIdeal.Stages.ref_arg0 _),
      (h c Cert.ReferenceIdeal.main_arg1).trans (Cert.ReferenceIdeal.Stages.ref_arg1 _)⟩)
    (Cert.ReferenceIdeal.Line.run_after (F := Ideal) m ρ)

/-- Both programs end at the sum of every cell's total times the reciprocal of the batch size. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c _ => Cert.KernelIdeal.Total.coreSum m c 0 * Cert.Yolo.cInvN
      + Cert.KernelIdeal.Total.coreSum m c 1 * Cert.Yolo.cInvN, ?_, ?_⟩
  · refine (θ_run Cert.KernelIdeal.defs _ _).mono (fun r h c => ⟨?_, ?_, ?_⟩) (Cert.KernelIdeal.Gen.run_main m ρ)
    · exact ((h c).2 Cert.KernelIdeal.main_v3 (Pipeline.mem_restRefs_of Cert.KernelIdeal.main_v3 (by decide) (by decide))).trans
        (Cert.KernelIdeal.Total.result_eq m c)
    · exact ((h c).2 Cert.KernelIdeal.main_arg0
        (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, ?_, ?_⟩)
      (Cert.ReferenceIdeal.Line.run_after (F := Ideal) m' ρ')
    · refine (h c Cert.ReferenceIdeal.main_v260).trans (funext fun i => ?_)
      rw [eq_ix0 i, Cert.ReferenceIdeal.Stages.ref_value]
      have h0 : StableHlo.launchContents m' c (Proc.devRef .tc Cert.ReferenceIdeal.main_arg0)
          = m ((c.tc : Thread Cert.KernelIdeal.nD Cert.KernelIdeal.τ).loc Cert.KernelIdeal.main_arg0) := (hagree c).1
      have h1 : StableHlo.launchContents m' c (Proc.devRef .tc Cert.ReferenceIdeal.main_arg1)
          = m ((c.tc : Thread Cert.KernelIdeal.nD Cert.KernelIdeal.τ).loc Cert.KernelIdeal.main_arg1) := (hagree c).2
      rw [h0, h1]
      exact (Cert.KernelIdeal.Cells.kernel_total m c).symm
    · exact (h c Cert.ReferenceIdeal.main_arg0).trans (Cert.ReferenceIdeal.Stages.ref_arg0 _)
    · exact (h c Cert.ReferenceIdeal.main_arg1).trans (Cert.ReferenceIdeal.Stages.ref_arg1 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
